-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S20000x64 : Shape := ⟨2, ![20000, 64]⟩
abbrev S3x2x64x64 : Shape := ⟨4, ![3, 2, 64, 64]⟩
abbrev S3x2x64 : Shape := ⟨3, ![3, 2, 64]⟩
abbrev S1000000 : Shape := ⟨1, ![1000000]⟩
abbrev S500000 : Shape := ⟨1, ![500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S3x2x64x64 : S_.BroadcastsInDim S3x2x64x64 (![] : Fin 0 → Fin S3x2x64x64.rank)
  reducesTo_S3x2x64x64_S_d0_1_2_3 : S3x2x64x64.ReducesTo [0, 1, 2, 3] S_
  bcast_S_S3x2x64 : S_.BroadcastsInDim S3x2x64 (![] : Fin 0 → Fin S3x2x64.rank)
  reducesTo_S3x2x64_S_d0_1_2 : S3x2x64.ReducesTo [0, 1, 2] S_

variable [Facts]

def fn_part1 {F : FTy → Type} [FloatOps F] (main_arg4 : FVec F S3x2x64 .f32) (main_v13 : IVec S_ 1) (main_v16 : IVec S3x2x64x64 1) : IVec S_ 1 :=
  let main_c_5 : IVec S_ 1 := constantI S_ 1 1#1
  let main_v17 : IVec S_ 1 := (fun x v => Host.reduce IntOp.andi x v reducesTo_S3x2x64x64_S_d0_1_2_3 h_S_) main_v16 main_c_5
  let main_v18 : IVec S_ 1 := andi main_v13 main_v17
  let main_v19 : FVec F S3x2x64 .f32 := Host.absf main_arg4
  let main_cst_6 : FVec F S_ .f32 := constant S_ .f32 0x7F800000#32
  let main_v20 : FVec F S3x2x64 .f32 := broadcastInDim S3x2x64 ![] bcast_S_S3x2x64 main_cst_6
  let main_v21 : IVec S3x2x64 1 := cmpf .olt main_v19 main_v20
  let main_c_7 : IVec S_ 1 := constantI S_ 1 1#1
  let main_v22 : IVec S_ 1 := (fun x v => Host.reduce IntOp.andi x v reducesTo_S3x2x64_S_d0_1_2 h_S_) main_v21 main_c_7
  let main_v23 : IVec S_ 1 := andi main_v18 main_v22
  main_v23

def fn {F : FTy → Type} [FloatOps F] (main_arg0 : FVec F S100000x64 .f32) (main_arg1 : FVec F S20000x64 .f32) (main_arg2 : FVec F S3x2x64x64 .f32) (main_arg3 : FVec F S3x2x64x64 .f32) (main_arg4 : FVec F S3x2x64 .f32) (main_arg5 : IVec S1000000 32) (main_arg6 : IVec S1000000 32) (main_arg7 : IVec S1000000 32) (main_arg8 : IVec S1000000 32) (main_arg9 : IVec S500000 32) (main_arg10 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S3x2x64x64 .f32 := Host.absf main_arg2
  let main_cst_2 : FVec F S_ .f32 := constant S_ .f32 0x7F800000#32
  let main_v10 : FVec F S3x2x64x64 .f32 := broadcastInDim S3x2x64x64 ![] bcast_S_S3x2x64x64 main_cst_2
  let main_v11 : IVec S3x2x64x64 1 := cmpf .olt main_v9 main_v10
  let main_c_3 : IVec S_ 1 := constantI S_ 1 1#1
  let main_v12 : IVec S_ 1 := (fun x v => Host.reduce IntOp.andi x v reducesTo_S3x2x64x64_S_d0_1_2_3 h_S_) main_v11 main_c_3
  let main_v13 : IVec S_ 1 := andi main_v8 main_v12
  let main_v14 : FVec F S3x2x64x64 .f32 := Host.absf main_arg3
  let main_cst_4 : FVec F S_ .f32 := constant S_ .f32 0x7F800000#32
  let main_v15 : FVec F S3x2x64x64 .f32 := broadcastInDim S3x2x64x64 ![] bcast_S_S3x2x64x64 main_cst_4
  let main_v16 : IVec S3x2x64x64 1 := cmpf .olt main_v14 main_v15
  fn_part1 (F := F) main_arg4 main_v13 main_v16
-- ==== Kernel.lean ====
abbrev S100000x64 : Shape := ⟨2, ![100000, 64]⟩
abbrev S20000x64 : Shape := ⟨2, ![20000, 64]⟩
abbrev S3x2x64x64 : Shape := ⟨4, ![3, 2, 64, 64]⟩
abbrev S3x2x64 : Shape := ⟨3, ![3, 2, 64]⟩
abbrev S1000000 : Shape := ⟨1, ![1000000]⟩
abbrev S500000 : Shape := ⟨1, ![500000]⟩
abbrev S_ : Shape := ⟨0, ![]⟩
abbrev S1000000x1 : Shape := ⟨2, ![1000000, 1]⟩
abbrev S1000000x64 : Shape := ⟨2, ![1000000, 64]⟩
abbrev S20000 : Shape := ⟨1, ![20000]⟩
abbrev S20000x1 : Shape := ⟨2, ![20000, 1]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S1x64 : Shape := ⟨2, ![1, 64]⟩
abbrev S2000x64 : Shape := ⟨2, ![2000, 64]⟩
abbrev S2000x1 : Shape := ⟨2, ![2000, 1]⟩
abbrev S100000 : Shape := ⟨1, ![100000]⟩
abbrev S100000x1 : Shape := ⟨2, ![100000, 1]⟩
abbrev S500000x1 : Shape := ⟨2, ![500000, 1]⟩
abbrev S500000x64 : Shape := ⟨2, ![500000, 64]⟩
abbrev S2000 : Shape := ⟨1, ![2000]⟩

abbrev nBuf : Space → Nat
  | .hbm => 189
  | .vmem => 72
  | .smem => 0
  | _ => 0

abbrev hbmTy0_0 (i : Nat) : BufTy := match i % 128 with
  | 0 => ⟨S100000x64, .f32⟩
  | 1 => ⟨S20000x64, .f32⟩
  | 2 => ⟨S3x2x64x64, .f32⟩
  | 3 => ⟨S3x2x64x64, .f32⟩
  | 4 => ⟨S3x2x64, .f32⟩
  | 5 => ⟨S1000000, .i32⟩
  | 6 => ⟨S1000000, .i32⟩
  | 7 => ⟨S1000000, .i32⟩
  | 8 => ⟨S1000000, .i32⟩
  | 9 => ⟨S500000, .i32⟩
  | 10 => ⟨S500000, .i32⟩
  | 11 => ⟨S_, .f32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x64, .f32⟩
  | 22 => ⟨S_, .f32⟩
  | 23 => ⟨S20000x64, .f32⟩
  | 24 => ⟨S1000000x1, .i32⟩
  | 25 => ⟨S20000x64, .f32⟩
  | 26 => ⟨S_, .f32⟩
  | 27 => ⟨S20000, .f32⟩
  | 28 => ⟨S1000000x1, .i32⟩
  | 29 => ⟨S20000, .f32⟩
  | 30 => ⟨S20000x1, .f32⟩
  | 31 => ⟨S1x1x64x64, .f32⟩
  | 32 => ⟨S64x64, .f32⟩
  | 33 => ⟨S1x1x64x64, .f32⟩
  | 34 => ⟨S64x64, .f32⟩
  | 35 => ⟨S1x1x64, .f32⟩
  | 36 => ⟨S64, .f32⟩
  | 37 => ⟨S1x64, .f32⟩
  | 38 => ⟨S20000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S_, .f32⟩
  | 49 => ⟨S100000x64, .f32⟩
  | 50 => ⟨S1000000x1, .i32⟩
  | 51 => ⟨S100000x64, .f32⟩
  | 52 => ⟨S_, .f32⟩
  | 53 => ⟨S100000, .f32⟩
  | 54 => ⟨S1000000x1, .i32⟩
  | 55 => ⟨S100000, .f32⟩
  | 56 => ⟨S100000x1, .f32⟩
  | 57 => ⟨S1x1x64x64, .f32⟩
  | 58 => ⟨S64x64, .f32⟩
  | 59 => ⟨S1x1x64x64, .f32⟩
  | 60 => ⟨S64x64, .f32⟩
  | 61 => ⟨S1x1x64, .f32⟩
  | 62 => ⟨S64, .f32⟩
  | 63 => ⟨S1x64, .f32⟩
  | 64 => ⟨S100000x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .f32⟩
  | 75 => ⟨S20000x64, .f32⟩
  | 76 => ⟨S1000000x1, .i32⟩
  | 77 => ⟨S20000x64, .f32⟩
  | 78 => ⟨S_, .f32⟩
  | 79 => ⟨S20000, .f32⟩
  | 80 => ⟨S1000000x1, .i32⟩
  | 81 => ⟨S20000, .f32⟩
  | 82 => ⟨S20000x1, .f32⟩
  | 83 => ⟨S1x1x64x64, .f32⟩
  | 84 => ⟨S64x64, .f32⟩
  | 85 => ⟨S1x1x64x64, .f32⟩
  | 86 => ⟨S64x64, .f32⟩
  | 87 => ⟨S1x1x64, .f32⟩
  | 88 => ⟨S64, .f32⟩
  | 89 => ⟨S1x64, .f32⟩
  | 90 => ⟨S20000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S_, .f32⟩
  | 101 => ⟨S100000x64, .f32⟩
  | 102 => ⟨S1000000x1, .i32⟩
  | 103 => ⟨S100000x64, .f32⟩
  | 104 => ⟨S_, .f32⟩
  | 105 => ⟨S100000, .f32⟩
  | 106 => ⟨S1000000x1, .i32⟩
  | 107 => ⟨S100000, .f32⟩
  | 108 => ⟨S100000x1, .f32⟩
  | 109 => ⟨S1x1x64x64, .f32⟩
  | 110 => ⟨S64x64, .f32⟩
  | 111 => ⟨S1x1x64x64, .f32⟩
  | 112 => ⟨S64x64, .f32⟩
  | 113 => ⟨S1x1x64, .f32⟩
  | 114 => ⟨S64, .f32⟩
  | 115 => ⟨S1x64, .f32⟩
  | 116 => ⟨S100000x64, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x64, .f32⟩
  | 126 => ⟨S_, .f32⟩
  | 127 => ⟨S20000x64, .f32⟩
  | _ => ⟨S100000x64, .f32⟩

abbrev hbmTy0_1 (i : Nat) : BufTy := match i % 128 with
  | 0 => ⟨S1000000x1, .i32⟩
  | 1 => ⟨S20000x64, .f32⟩
  | 2 => ⟨S_, .f32⟩
  | 3 => ⟨S20000, .f32⟩
  | 4 => ⟨S1000000x1, .i32⟩
  | 5 => ⟨S20000, .f32⟩
  | 6 => ⟨S20000x1, .f32⟩
  | 7 => ⟨S1x1x64x64, .f32⟩
  | 8 => ⟨S64x64, .f32⟩
  | 9 => ⟨S1x1x64x64, .f32⟩
  | 10 => ⟨S64x64, .f32⟩
  | 11 => ⟨S1x1x64, .f32⟩
  | 12 => ⟨S64, .f32⟩
  | 13 => ⟨S1x64, .f32⟩
  | 14 => ⟨S20000x64, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x64, .f32⟩
  | 24 => ⟨S_, .f32⟩
  | 25 => ⟨S100000x64, .f32⟩
  | 26 => ⟨S1000000x1, .i32⟩
  | 27 => ⟨S100000x64, .f32⟩
  | 28 => ⟨S_, .f32⟩
  | 29 => ⟨S100000, .f32⟩
  | 30 => ⟨S1000000x1, .i32⟩
  | 31 => ⟨S100000, .f32⟩
  | 32 => ⟨S100000x1, .f32⟩
  | 33 => ⟨S1x1x64x64, .f32⟩
  | 34 => ⟨S64x64, .f32⟩
  | 35 => ⟨S1x1x64x64, .f32⟩
  | 36 => ⟨S64x64, .f32⟩
  | 37 => ⟨S1x1x64, .f32⟩
  | 38 => ⟨S64, .f32⟩
  | 39 => ⟨S1x64, .f32⟩
  | 40 => ⟨S100000x64, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x64, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000x64, .f32⟩
  | 59 => ⟨S500000x1, .f32⟩
  | 60 => ⟨S500000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x1, .f32⟩
  | .local _ .vmem, ⟨36, _⟩ => ⟨S2000x1, .f32⟩
  | .local _ .vmem, ⟨37, _⟩ => ⟨S2000x64, .f32⟩
  | .local _ .vmem, ⟨38, _⟩ => ⟨S2000x64, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x1, .f32⟩
  | .local _ .vmem, ⟨47, _⟩ => ⟨S2000x1, .f32⟩
  | .local _ .vmem, ⟨48, _⟩ => ⟨S2000x64, .f32⟩
  | .local _ .vmem, ⟨49, _⟩ => ⟨S2000x64, .f32⟩
  | .local _ .vmem, ⟨50, _⟩ => ⟨S64x64, .f32⟩
  | .local _ .vmem, ⟨51, _⟩ => ⟨S64x64, .f32⟩
  | .local _ .vmem, ⟨52, _⟩ => ⟨S1x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x1, .f32⟩
  | .local _ .vmem, ⟨58, _⟩ => ⟨S2000x1, .f32⟩
  | .local _ .vmem, ⟨59, _⟩ => ⟨S2000x64, .f32⟩
  | .local _ .vmem, ⟨60, _⟩ => ⟨S2000x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S2000x64, .f32⟩
  | .local _ .vmem, ⟨65, _⟩ => ⟨S2000x64, .f32⟩
  | .local _ .vmem, ⟨66, _⟩ => ⟨S2000x64, .f32⟩
  | .local _ .vmem, ⟨67, _⟩ => ⟨S2000x64, .f32⟩
  | .local _ .vmem, ⟨68, _⟩ => ⟨S2000x64, .f32⟩
  | .local _ .vmem, ⟨69, _⟩ => ⟨S2000x64, .f32⟩
  | .local _ .vmem, ⟨70, _⟩ => ⟨S2000x1, .f32⟩
  | .local _ .vmem, ⟨71, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_15 : Ref sig .tc := ⟨.hbm, 117, rfl⟩
abbrev main_v89 : Ref sig .tc := ⟨.hbm, 118, rfl⟩
abbrev main_v90 : Ref sig .tc := ⟨.hbm, 119, rfl⟩
abbrev main_c_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_c_19 : Ref sig .tc := ⟨.hbm, 143, rfl⟩
abbrev main_v111 : Ref sig .tc := ⟨.hbm, 144, rfl⟩
abbrev main_v112 : Ref sig .tc := ⟨.hbm, 145, rfl⟩
abbrev main_c_20 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_21 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_22 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_c_23 : Ref sig .tc := ⟨.hbm, 169, rfl⟩
abbrev main_v133 : Ref sig .tc := ⟨.hbm, 170, rfl⟩
abbrev main_v134 : Ref sig .tc := ⟨.hbm, 171, rfl⟩
abbrev main_c_24 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_c_25 : Ref sig .tc := ⟨.hbm, 178, rfl⟩
abbrev main_v140 : Ref sig .tc := ⟨.hbm, 179, rfl⟩
abbrev main_v141 : Ref sig .tc := ⟨.hbm, 180, rfl⟩
abbrev main_c_26 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg6_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg2_1 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem6_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem2_1 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![250], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  slices_S3x2x64x64_S1x1x64x64_0_0_0_0 : S3x2x64x64.Slices ![0, 0, 0, 0] S1x1x64x64
  shapeCasts_S1x1x64x64_S64x64 : S1x1x64x64.ShapeCasts S64x64
  slices_S3x2x64_S1x1x64_0_0_0 : S3x2x64.Slices ![0, 0, 0] S1x1x64
  shapeCasts_S1x1x64_S64 : S1x1x64.ShapeCasts S64
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  slices_S3x2x64x64_S1x1x64x64_0_1_0_0 : S3x2x64x64.Slices ![0, 1, 0, 0] S1x1x64x64
  slices_S3x2x64_S1x1x64_0_1_0 : S3x2x64.Slices ![0, 1, 0] S1x1x64
  slices_S3x2x64x64_S1x1x64x64_1_0_0_0 : S3x2x64x64.Slices ![1, 0, 0, 0] S1x1x64x64
  slices_S3x2x64_S1x1x64_1_0_0 : S3x2x64.Slices ![1, 0, 0] S1x1x64
  slices_S3x2x64x64_S1x1x64x64_1_1_0_0 : S3x2x64x64.Slices ![1, 1, 0, 0] S1x1x64x64
  slices_S3x2x64_S1x1x64_1_1_0 : S3x2x64.Slices ![1, 1, 0] S1x1x64
  slices_S3x2x64x64_S1x1x64x64_2_0_0_0 : S3x2x64x64.Slices ![2, 0, 0, 0] S1x1x64x64
  slices_S3x2x64_S1x1x64_2_0_0 : S3x2x64.Slices ![2, 0, 0] S1x1x64
  slices_S3x2x64x64_S1x1x64x64_2_1_0_0 : S3x2x64x64.Slices ![2, 1, 0, 0] S1x1x64x64
  slices_S3x2x64_S1x1x64_2_1_0 : S3x2x64.Slices ![2, 1, 0] S1x1x64
  bcast_S_S500000 : S_.BroadcastsInDim S500000 (![] : Fin 0 → Fin S500000.rank)
  bcast_S500000_S500000x1_0 : S500000.BroadcastsInDim S500000x1 (![0] : Fin 1 → Fin S500000x1.rank)
  reduces_S2000x64_S2000 : S2000x64.Reduces [1] S2000
  shapeCasts_S2000_S2000x1 : S2000.ShapeCasts S2000x1
  shapeCasts_S500000x1_S500000 : S500000x1.ShapeCasts S500000
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S20000_S1000000x1_S1000000_n_0_0_1_wf : ScatterDims.WF S20000 S1000000x1 S1000000 [] [0] [0] 1
  dot_S2000x64_S64x64_S2000x64_1_0_0_1_n_n_wf : DotDims.WF S2000x64 S64x64 S2000x64 [1] [0] [0] [1] [] []
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S20000x64.size a
  hwx0_0 : ∀ i : grid0.Coords, EltTy.bits .f32 = 32 ∨ (Rect.block (s := S20000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S20000x64.size a
  hwx0_2 : ∀ i : grid0.Coords, EltTy.bits .f32 = 32 ∨ (Rect.block (s := S20000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S20000x64.size a
  hwx0_6 : ∀ i : grid0.Coords, EltTy.bits .f32 = 32 ∨ (Rect.block (s := S20000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S20000x64.size a
  hwx2_0 : ∀ i : grid2.Coords, EltTy.bits .f32 = 32 ∨ (Rect.block (s := S20000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S20000x64.size a
  hwx2_2 : ∀ i : grid2.Coords, EltTy.bits .f32 = 32 ∨ (Rect.block (s := S20000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S20000x64.size a
  hwx2_6 : ∀ i : grid2.Coords, EltTy.bits .f32 = 32 ∨ (Rect.block (s := S20000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S20000x64.size a
  hwx4_0 : ∀ i : grid4.Coords, EltTy.bits .f32 = 32 ∨ (Rect.block (s := S20000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S20000x1.size a
  hwx4_1 : ∀ i : grid4.Coords, EltTy.bits .f32 = 32 ∨ (Rect.block (s := S20000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S20000x64.size a
  hwx4_2 : ∀ i : grid4.Coords, EltTy.bits .f32 = 32 ∨ (Rect.block (s := S20000x64) S2000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S20000x64.size a
  hwx4_6 : ∀ i : grid4.Coords, EltTy.bits .f32 = 32 ∨ (Rect.block (s := S20000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S100000x64.size a
  hwx5_2 : ∀ i : grid5.Coords, EltTy.bits .f32 = 32 ∨ (Rect.block (s := S100000x64) S2000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S100000x64.size a
  hwx5_6 : ∀ i : grid5.Coords, EltTy.bits .f32 = 32 ∨ (Rect.block (s := S100000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S500000x64.size a
  hwx6_0 : ∀ i : grid6.Coords, EltTy.bits .f32 = 32 ∨ (Rect.block (s := S500000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S500000x64.size a
  hwx6_1 : ∀ i : grid6.Coords, EltTy.bits .f32 = 32 ∨ (Rect.block (s := S500000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S500000x1.size a
  hwx6_2 : ∀ i : grid6.Coords, EltTy.bits .f32 = 32 ∨ (Rect.block (s := S500000x1) S2000x1.size (cc6_transform_2 i) (hinb6_2 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf

abbrev win0_0 : Pipeline.Window sig grid0 :=
  Pipeline.Window.ofSpec (Memref.whole main_v10) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v54) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v76) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v88) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v98) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v66) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v104) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v110) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v120) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v88) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v126) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v128) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v132) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v139) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v146) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v147) S2000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S20000x64 : Shape := ⟨2, ![20000, 64]⟩
abbrev S3x2x64x64 : Shape := ⟨4, ![3, 2, 64, 64]⟩
abbrev S3x2x64 : Shape := ⟨3, ![3, 2, 64]⟩
abbrev S1000000 : Shape := ⟨1, ![1000000]⟩
abbrev S500000 : Shape := ⟨1, ![500000]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S_ : Shape := ⟨0, ![]⟩
abbrev S1000000x1 : Shape := ⟨2, ![1000000, 1]⟩
abbrev S1000000x64 : Shape := ⟨2, ![1000000, 64]⟩
abbrev S20000 : Shape := ⟨1, ![20000]⟩
abbrev S20000x1 : Shape := ⟨2, ![20000, 1]⟩
abbrev S1x64 : Shape := ⟨2, ![1, 64]⟩
abbrev S100000 : Shape := ⟨1, ![100000]⟩
abbrev S100000x1 : Shape := ⟨2, ![100000, 1]⟩
abbrev S500000x1 : Shape := ⟨2, ![500000, 1]⟩
abbrev S500000x64 : Shape := ⟨2, ![500000, 64]⟩

abbrev nBuf : Space → Nat
  | .hbm => 266
  | .vmem => 0
  | .smem => 0
  | _ => 0

abbrev hbmTy0_0 (i : Nat) : BufTy := match i % 128 with
  | 0 => ⟨S100000x64, .f32⟩
  | 1 => ⟨S20000x64, .f32⟩
  | 2 => ⟨S3x2x64x64, .f32⟩
  | 3 => ⟨S3x2x64x64, .f32⟩
  | 4 => ⟨S3x2x64, .f32⟩
  | 5 => ⟨S1000000, .i32⟩
  | 6 => ⟨S1000000, .i32⟩
  | 7 => ⟨S1000000, .i32⟩
  | 8 => ⟨S1000000, .i32⟩
  | 9 => ⟨S500000, .i32⟩
  | 10 => ⟨S500000, .i32⟩
  | 11 => ⟨S1x1x64x64, .f32⟩
  | 12 => ⟨S64x64, .f32⟩
  | 13 => ⟨S1x1x64x64, .f32⟩
  | 14 => ⟨S64x64, .f32⟩
  | 15 => ⟨S1x1x64, .f32⟩
  | 16 => ⟨S64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S_, .f32⟩
  | 27 => ⟨S20000x64, .f32⟩
  | 28 => ⟨S1000000x1, .i32⟩
  | 29 => ⟨S20000x64, .f32⟩
  | 30 => ⟨S_, .f32⟩
  | 31 => ⟨S1000000, .f32⟩
  | 32 => ⟨S_, .f32⟩
  | 33 => ⟨S20000, .f32⟩
  | 34 => ⟨S1000000x1, .i32⟩
  | 35 => ⟨S20000, .f32⟩
  | 36 => ⟨S_, .f32⟩
  | 37 => ⟨S20000, .f32⟩
  | 38 => ⟨S20000, .f32⟩
  | 39 => ⟨S20000x1, .f32⟩
  | 40 => ⟨S20000x64, .f32⟩
  | 41 => ⟨S20000x64, .f32⟩
  | 42 => ⟨S20000x64, .f32⟩
  | 43 => ⟨S20000x64, .f32⟩
  | 44 => ⟨S20000x64, .f32⟩
  | 45 => ⟨S1x64, .f32⟩
  | 46 => ⟨S20000x64, .f32⟩
  | 47 => ⟨S20000x64, .f32⟩
  | 48 => ⟨S1x1x64x64, .f32⟩
  | 49 => ⟨S64x64, .f32⟩
  | 50 => ⟨S1x1x64x64, .f32⟩
  | 51 => ⟨S64x64, .f32⟩
  | 52 => ⟨S1x1x64, .f32⟩
  | 53 => ⟨S64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x64, .f32⟩
  | 63 => ⟨S_, .f32⟩
  | 64 => ⟨S100000x64, .f32⟩
  | 65 => ⟨S1000000x1, .i32⟩
  | 66 => ⟨S100000x64, .f32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S100000x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S20000x64, .f32⟩
  | 87 => ⟨S20000x64, .f32⟩
  | 88 => ⟨S_, .f32⟩
  | 89 => ⟨S100000x64, .f32⟩
  | 90 => ⟨S100000x64, .f32⟩
  | 91 => ⟨S1x1x64x64, .f32⟩
  | 92 => ⟨S64x64, .f32⟩
  | 93 => ⟨S1x1x64x64, .f32⟩
  | 94 => ⟨S64x64, .f32⟩
  | 95 => ⟨S1x1x64, .f32⟩
  | 96 => ⟨S64, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x64, .f32⟩
  | 106 => ⟨S_, .f32⟩
  | 107 => ⟨S20000x64, .f32⟩
  | 108 => ⟨S1000000x1, .i32⟩
  | 109 => ⟨S20000x64, .f32⟩
  | 110 => ⟨S_, .f32⟩
  | 111 => ⟨S1000000, .f32⟩
  | 112 => ⟨S_, .f32⟩
  | 113 => ⟨S20000, .f32⟩
  | 114 => ⟨S1000000x1, .i32⟩
  | 115 => ⟨S20000, .f32⟩
  | 116 => ⟨S_, .f32⟩
  | 117 => ⟨S20000, .f32⟩
  | 118 => ⟨S20000, .f32⟩
  | 119 => ⟨S20000x1, .f32⟩
  | 120 => ⟨S20000x64, .f32⟩
  | 121 => ⟨S20000x64, .f32⟩
  | 122 => ⟨S20000x64, .f32⟩
  | 123 => ⟨S20000x64, .f32⟩
  | 124 => ⟨S20000x64, .f32⟩
  | 125 => ⟨S1x64, .f32⟩
  | 126 => ⟨S20000x64, .f32⟩
  | 127 => ⟨S20000x64, .f32⟩
  | _ => ⟨S100000x64, .f32⟩

abbrev hbmTy0_1 (i : Nat) : BufTy := match i % 128 with
  | 0 => ⟨S1x1x64x64, .f32⟩
  | 1 => ⟨S64x64, .f32⟩
  | 2 => ⟨S1x1x64x64, .f32⟩
  | 3 => ⟨S64x64, .f32⟩
  | 4 => ⟨S1x1x64, .f32⟩
  | 5 => ⟨S64, .f32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x64, .f32⟩
  | 15 => ⟨S_, .f32⟩
  | 16 => ⟨S100000x64, .f32⟩
  | 17 => ⟨S1000000x1, .i32⟩
  | 18 => ⟨S100000x64, .f32⟩
  | 19 => ⟨S_, .f32⟩
  | 20 => ⟨S1000000, .f32⟩
  | 21 => ⟨S_, .f32⟩
  | 22 => ⟨S100000, .f32⟩
  | 23 => ⟨S1000000x1, .i32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S20000x64, .f32⟩
  | 39 => ⟨S20000x64, .f32⟩
  | 40 => ⟨S_, .f32⟩
  | 41 => ⟨S100000x64, .f32⟩
  | 42 => ⟨S100000x64, .f32⟩
  | 43 => ⟨S1x1x64x64, .f32⟩
  | 44 => ⟨S64x64, .f32⟩
  | 45 => ⟨S1x1x64x64, .f32⟩
  | 46 => ⟨S64x64, .f32⟩
  | 47 => ⟨S1x1x64, .f32⟩
  | 48 => ⟨S64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S_, .f32⟩
  | 59 => ⟨S20000x64, .f32⟩
  | 60 => ⟨S1000000x1, .i32⟩
  | 61 => ⟨S20000x64, .f32⟩
  | 62 => ⟨S_, .f32⟩
  | 63 => ⟨S1000000, .f32⟩
  | 64 => ⟨S_, .f32⟩
  | 65 => ⟨S20000, .f32⟩
  | 66 => ⟨S1000000x1, .i32⟩
  | 67 => ⟨S20000, .f32⟩
  | 68 => ⟨S_, .f32⟩
  | 69 => ⟨S20000, .f32⟩
  | 70 => ⟨S20000, .f32⟩
  | 71 => ⟨S20000x1, .f32⟩
  | 72 => ⟨S20000x64, .f32⟩
  | 73 => ⟨S20000x64, .f32⟩
  | 74 => ⟨S20000x64, .f32⟩
  | 75 => ⟨S20000x64, .f32⟩
  | 76 => ⟨S20000x64, .f32⟩
  | 77 => ⟨S1x64, .f32⟩
  | 78 => ⟨S20000x64, .f32⟩
  | 79 => ⟨S20000x64, .f32⟩
  | 80 => ⟨S1x1x64x64, .f32⟩
  | 81 => ⟨S64x64, .f32⟩
  | 82 => ⟨S1x1x64x64, .f32⟩
  | 83 => ⟨S64x64, .f32⟩
  | 84 => ⟨S1x1x64, .f32⟩
  | 85 => ⟨S64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S_, .f32⟩
  | 96 => ⟨S100000x64, .f32⟩
  | 97 => ⟨S1000000x1, .i32⟩
  | 98 => ⟨S100000x64, .f32⟩
  | 99 => ⟨S_, .f32⟩
  | 100 => ⟨S1000000, .f32⟩
  | 101 => ⟨S_, .f32⟩
  | 102 => ⟨S100000, .f32⟩
  | 103 => ⟨S1000000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x64, .f32⟩
  | 126 => ⟨S_, .i32⟩
  | 127 => ⟨S500000, .i32⟩
  | _ => ⟨S100000x64, .f32⟩

abbrev hbmTy0_2 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S500000x1, .i32⟩
  | 6 => ⟨S500000x64, .f32⟩
  | 7 => ⟨S500000x64, .f32⟩
  | 8 => ⟨S_, .f32⟩
  | 9 => ⟨S500000, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call0_cst : Ref sig .tc := ⟨.hbm, 85, rfl⟩
abbrev main_call0_v0 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_10 : Ref sig .tc := ⟨.hbm, 97, rfl⟩
abbrev main_v70 : Ref sig .tc := ⟨.hbm, 98, rfl⟩
abbrev main_v71 : Ref sig .tc := ⟨.hbm, 99, rfl⟩
abbrev main_c_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_12 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_16 : Ref sig .tc := ⟨.hbm, 134, rfl⟩
abbrev main_v101 : Ref sig .tc := ⟨.hbm, 135, rfl⟩
abbrev main_v102 : Ref sig .tc := ⟨.hbm, 136, rfl⟩
abbrev main_c_17 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_18 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_cst_20 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_21 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call2_cst : Ref sig .tc := ⟨.hbm, 165, rfl⟩
abbrev main_call2_v0 : Ref sig .tc := ⟨.hbm, 166, rfl⟩
abbrev main_v126 : Ref sig .tc := ⟨.hbm, 167, rfl⟩
abbrev main_call3_cst : Ref sig .tc := ⟨.hbm, 168, rfl⟩
abbrev main_call3_v0 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_c_22 : Ref sig .tc := ⟨.hbm, 177, rfl⟩
abbrev main_v134 : Ref sig .tc := ⟨.hbm, 178, rfl⟩
abbrev main_v135 : Ref sig .tc := ⟨.hbm, 179, rfl⟩
abbrev main_c_23 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_24 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_25 : Ref sig .tc := ⟨.hbm, 190, rfl⟩
abbrev main_v144 : Ref sig .tc := ⟨.hbm, 191, rfl⟩
abbrev main_cst_26 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_27 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_c_28 : Ref sig .tc := ⟨.hbm, 214, rfl⟩
abbrev main_v165 : Ref sig .tc := ⟨.hbm, 215, rfl⟩
abbrev main_v166 : Ref sig .tc := ⟨.hbm, 216, rfl⟩
abbrev main_c_29 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_30 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_cst_31 : Ref sig .tc := ⟨.hbm, 227, rfl⟩
abbrev main_v175 : Ref sig .tc := ⟨.hbm, 228, rfl⟩
abbrev main_cst_32 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_33 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_c_34 : Ref sig .tc := ⟨.hbm, 245, rfl⟩
abbrev main_v190 : Ref sig .tc := ⟨.hbm, 246, rfl⟩
abbrev main_v191 : Ref sig .tc := ⟨.hbm, 247, rfl⟩
abbrev main_c_35 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_c_36 : Ref sig .tc := ⟨.hbm, 254, rfl⟩
abbrev main_v197 : Ref sig .tc := ⟨.hbm, 255, rfl⟩
abbrev main_v198 : Ref sig .tc := ⟨.hbm, 256, rfl⟩
abbrev main_c_37 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_cst_38 : Ref sig .tc := ⟨.hbm, 264, rfl⟩
abbrev main_v205 : Ref sig .tc := ⟨.hbm, 265, rfl⟩

abbrev nD : Nat := 1
abbrev τ : Topo := Topo.v7x

variable {F : FTy → Type} [FloatOps F]

class Facts₀ : Prop where
  slices_S3x2x64x64_S1x1x64x64_0_0_0_0 : S3x2x64x64.Slices ![0, 0, 0, 0] S1x1x64x64
  shapeCasts_S1x1x64x64_S64x64 : S1x1x64x64.ShapeCasts S64x64
  slices_S3x2x64_S1x1x64_0_0_0 : S3x2x64.Slices ![0, 0, 0] S1x1x64
  shapeCasts_S1x1x64_S64 : S1x1x64.ShapeCasts S64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  slices_S3x2x64x64_S1x1x64x64_0_1_0_0 : S3x2x64x64.Slices ![0, 1, 0, 0] S1x1x64x64
  slices_S3x2x64_S1x1x64_0_1_0 : S3x2x64.Slices ![0, 1, 0] S1x1x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  slices_S3x2x64x64_S1x1x64x64_1_0_0_0 : S3x2x64x64.Slices ![1, 0, 0, 0] S1x1x64x64
  slices_S3x2x64_S1x1x64_1_0_0 : S3x2x64.Slices ![1, 0, 0] S1x1x64
  slices_S3x2x64x64_S1x1x64x64_1_1_0_0 : S3x2x64x64.Slices ![1, 1, 0, 0] S1x1x64x64
  slices_S3x2x64_S1x1x64_1_1_0 : S3x2x64.Slices ![1, 1, 0] S1x1x64
  slices_S3x2x64x64_S1x1x64x64_2_0_0_0 : S3x2x64x64.Slices ![2, 0, 0, 0] S1x1x64x64
  slices_S3x2x64_S1x1x64_2_0_0 : S3x2x64.Slices ![2, 0, 0] S1x1x64
  slices_S3x2x64x64_S1x1x64x64_2_1_0_0 : S3x2x64x64.Slices ![2, 1, 0, 0] S1x1x64x64
  slices_S3x2x64_S1x1x64_2_1_0 : S3x2x64.Slices ![2, 1, 0] S1x1x64
  bcast_S_S500000 : S_.BroadcastsInDim S500000 (![] : Fin 0 → Fin S500000.rank)
  bcast_S500000_S500000x1_0 : S500000.BroadcastsInDim S500000x1 (![0] : Fin 1 → Fin S500000x1.rank)
  reducesTo_S500000x64_S500000_d1 : S500000x64.ReducesTo [1] S500000
  h_S_ : 0 < S_.numel
  gather_S100000x64_S1000000x1_S1000000x64_1_0_n_n_0_1_164_wf : GatherDims.WF S100000x64 S1000000x1 S1000000x64 [1] [0] [] [0] [] 1 ![1, 64]
  scatter_S20000x64_S1000000x1_S1000000x64_1_0_0_1_wf : ScatterDims.WF S20000x64 S1000000x1 S1000000x64 [1] [0] [0] 1
  scatter_S20000_S1000000x1_S1000000_n_0_0_1_wf : ScatterDims.WF S20000 S1000000x1 S1000000 [] [0] [0] 1
  dot_S20000x64_S64x64_S20000x64_1_0_0_1_n_n_wf : DotDims.WF S20000x64 S64x64 S20000x64 [1] [0] [0] [1] [] []
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  gather_S100000x64_S500000x1_S500000x64_1_0_n_n_0_1_164_wf : GatherDims.WF S100000x64 S500000x1 S500000x64 [1] [0] [] [0] [] 1 ![1, 64]
  gather_S20000x64_S500000x1_S500000x64_1_0_n_n_0_1_164_wf : GatherDims.WF S20000x64 S500000x1 S500000x64 [1] [0] [] [0] [] 1 ![1, 64]

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S20000x64_S1000000x1_S1000000x64_1_0_0_1 : ScatterDims S20000x64 S1000000x1 S1000000x64 where
  updateWindowDims := [1]
  insertedWindowDims := [0]
  scatterDimsToOperandDims := [0]
  indexVectorDim := 1
  wf := scatter_S20000x64_S1000000x1_S1000000x64_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def gather_S20000x64_S500000x1_S500000x64_1_0_n_n_0_1_164 : GatherDims S20000x64 S500000x1 S500000x64 where
  offsetDims := [1]
  collapsedSliceDims := [0]
  operandBatchingDims := []
  startIndicesBatchingDims := []
  startIndexMap := [0]
  indexVectorDim := 1
  sliceSizes := ![1, 64]
  wf := gather_S20000x64_S500000x1_S500000x64_1_0_n_n_0_1_164_wf

class Facts : Prop extends Facts₀ where

variable [Facts]
-- ==== Proof.Whole.lean ====
/-
  The run of the whole program with its result named.

  The program is fifteen segments: eight stretches of host operations alternating with seven kernel launches. Every
  weakly fair execution ends, without a fault, in a state whose unscoped buffers hold the contents obtained by folding
  the segments one after the other over the launch memory. The statement below keeps, beside the argument arrays that
  end unchanged, the result buffer at that fold's value; the later modules compute the fold.
-/
import proofs.«153663_j21818433863799_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run_value : θ_run defs (onTc (τ := τ) (main (F := F))) ⟨m, fun _ => 0, ρ⟩ (fun r => ∀ c : Dev nD,
      r.2.mem ((c.tc : Thread nD τ).loc main_v148) = W15 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v148 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Whole

end
-- ==== Proof.Spec.lean ====
/-
  One SAGE layer and the inner-product decoder, entry by entry on the extended reals.

  A layer takes, per destination row p, the summed messages agg[p, ·], the number of messages cnt[p], the row's own
  features xd[p, ·], two 64 × 64 weight matrices and a bias, and returns at (p, c)

      (∑ k, (agg[p, k] / max(cnt[p], 1)) · wl[k, c]) + (∑ k, xd[p, k] · wr[k, c]) + b[c],

  followed, in the first two layers, by max(·, 0). The decoder returns at row p the sum over k of u[p, k] · v[p, k].
  The count and the bias are taken as functions of a row and of a column, so that a column [N, 1] or a vector [N]
  for the count, and a row [1, 64] or a vector [64] for the bias, instantiate the same formula.
-/
import Idealize.ShloMosaic.Lib.ValueIdx
import Idealize.ShloMosaic.PureOps.Ideal

noncomputable section

namespace Cert.Sage

open Idealize.ShloMosaic Idealize.ShloMosaic.ValueIdx

/-- The float word of 1.0 and of 0.0, read on the extended reals. -/
abbrev one : EReal := Ideal.ofBits .f32 0x3F800000#32
abbrev zero : EReal := Ideal.ofBits .f32 0x00000000#32

/-- The layer before its activation, at row `p` and column `c`. -/
def lin {N : ℕ} (agg : (⟨2, ![N, 64]⟩ : Shape).Idx → EReal) (cnt : Fin N → EReal)
    (xd : (⟨2, ![N, 64]⟩ : Shape).Idx → EReal) (wl wr : (⟨2, ![64, 64]⟩ : Shape).Idx → EReal) (b : Fin 64 → EReal)
    (p : Fin N) (c : Fin 64) : EReal :=
  (∑ k : Fin 64, Ideal.div (agg (ix2 p k)) (max (cnt p) one) * wl (ix2 k c)) + (∑ k : Fin 64, xd (ix2 p k) * wr (ix2 k c)) + b c

/-- The layer with its activation max(·, 0). -/
def act {N : ℕ} (agg : (⟨2, ![N, 64]⟩ : Shape).Idx → EReal) (cnt : Fin N → EReal)
    (xd : (⟨2, ![N, 64]⟩ : Shape).Idx → EReal) (wl wr : (⟨2, ![64, 64]⟩ : Shape).Idx → EReal) (b : Fin 64 → EReal)
    (p : Fin N) (c : Fin 64) : EReal :=
  max (lin agg cnt xd wl wr b p c) zero

/-- The decoder at row `p`: the inner product of the two rows. -/
def dec {N : ℕ} (u v : (⟨2, ![N, 64]⟩ : Shape).Idx → EReal) (p : Fin N) : EReal :=
  ∑ k : Fin 64, u (ix2 p k) * v (ix2 p k)

/-- The layer at a row depends only on that row of the summed messages, of the count and of the destination features:
    two sets of arrays that agree there (at rows `p` and `p'` of possibly different heights) give the same value. -/
theorem lin_congr {N N' : ℕ} {agg xd : (⟨2, ![N, 64]⟩ : Shape).Idx → EReal} {agg' xd' : (⟨2, ![N', 64]⟩ : Shape).Idx → EReal}
    {cnt : Fin N → EReal} {cnt' : Fin N' → EReal} {wl wr wl' wr' : (⟨2, ![64, 64]⟩ : Shape).Idx → EReal} {b b' : Fin 64 → EReal}
    {p : Fin N} {p' : Fin N'} {c : Fin 64}
    (ha : ∀ k : Fin 64, agg (ix2 p k) = agg' (ix2 p' k)) (hc : cnt p = cnt' p') (hx : ∀ k : Fin 64, xd (ix2 p k) = xd' (ix2 p' k))
    (hwl : ∀ k : Fin 64, wl (ix2 k c) = wl' (ix2 k c)) (hwr : ∀ k : Fin 64, wr (ix2 k c) = wr' (ix2 k c)) (hb : b c = b' c) :
    lin agg cnt xd wl wr b p c = lin agg' cnt' xd' wl' wr' b' p' c := by
  unfold lin
  rw [hc, hb]
  congr 1
  congr 1
  · exact Finset.sum_congr rfl fun k _ => by rw [ha k, hwl k]
  · exact Finset.sum_congr rfl fun k _ => by rw [hx k, hwr k]

theorem act_congr {N N' : ℕ} {agg xd : (⟨2, ![N, 64]⟩ : Shape).Idx → EReal} {agg' xd' : (⟨2, ![N', 64]⟩ : Shape).Idx → EReal}
    {cnt : Fin N → EReal} {cnt' : Fin N' → EReal} {wl wr wl' wr' : (⟨2, ![64, 64]⟩ : Shape).Idx → EReal} {b b' : Fin 64 → EReal}
    {p : Fin N} {p' : Fin N'} {c : Fin 64}
    (ha : ∀ k : Fin 64, agg (ix2 p k) = agg' (ix2 p' k)) (hc : cnt p = cnt' p') (hx : ∀ k : Fin 64, xd (ix2 p k) = xd' (ix2 p' k))
    (hwl : ∀ k : Fin 64, wl (ix2 k c) = wl' (ix2 k c)) (hwr : ∀ k : Fin 64, wr (ix2 k c) = wr' (ix2 k c)) (hb : b c = b' c) :
    act agg cnt xd wl wr b p c = act agg' cnt' xd' wl' wr' b' p' c := by
  unfold act
  rw [lin_congr ha hc hx hwl hwr hb]

/-- The decoder at a row depends only on that row of its two operands. -/
theorem dec_congr {N N' : ℕ} {u v : (⟨2, ![N, 64]⟩ : Shape).Idx → EReal} {u' v' : (⟨2, ![N', 64]⟩ : Shape).Idx → EReal}
    {p : Fin N} {p' : Fin N'} (hu : ∀ k : Fin 64, u (ix2 p k) = u' (ix2 p' k)) (hv : ∀ k : Fin 64, v (ix2 p k) = v' (ix2 p' k)) :
    dec u v p = dec u' v' p' := by
  unfold dec
  exact Finset.sum_congr rfl fun k _ => by rw [hu k, hv k]

end Cert.Sage

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Payload.lean ====
/-
  What one grid point of a layer kernel stores, entry by entry.

  The body reads a 2000-row block of the summed messages, the matching 2000 × 1 column of message counts, the matching
  block of the destination features, the two 64 × 64 weight matrices and the bias as a 1 × 64 row. Its stored value at
  (r, c) is the layer formula of the specification evaluated on those blocks: the division by max(count, 1) is taken
  row by row (the count column is repeated across the 64 columns), the two matrix products into zero accumulators are
  plain sums over the 64 shared coordinates, the changes of float format are the identity on the extended reals, the
  bias row is repeated down the rows, and the first two layers end with max(·, 0).
  The decoder's body multiplies two blocks entry by entry and sums each row over its 64 columns, keeping a column.
-/
import proofs.«153663_j21818433863799_1_alg».proof.Proof.Gen.KernelIdeal.Skeleton
import proofs.«153663_j21818433863799_1_alg».proof.Proof.Spec
import proofs.«153663_j21818433863799_1_alg».proof.Proof.LibPlainProduct
import proofs.«153663_j21818433863799_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

local notation "D" => dot_S2000x64_S64x64_S2000x64_1_0_0_1_n_n

/-- A block product into the zero accumulator, at (r, c): the sum over the 64 shared coordinates. -/
theorem block_product {φ₁ φ₂ : FTy} (l : FVec Ideal S2000x64 φ₁) (w : FVec Ideal S64x64 φ₂) (r : Fin 2000) (c : Fin 64) :
    matmul dot_S2000x64_S64x64_S2000x64_1_0_0_1_n_n none l w (constant (F := Ideal) S2000x64 .f32 0x00000000#32) (ix2 r c)
      = ∑ k : Fin 64, l (ix2 r k) * w (ix2 k c) :=
  Cert.PlainProduct.matmul_zero_entry dot_S2000x64_S64x64_S2000x64_1_0_0_1_n_n rfl rfl
    (fun j q => by
      unfold DotDims.lhsIdx
      rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
      rfl)
    (fun j q => dot_S2000x64_S64x64_S2000x64_1_0_0_1_n_n.lhsIdx_val_of_single rfl j q)
    (fun j q => dot_S2000x64_S64x64_S2000x64_1_0_0_1_n_n.rhsIdx_val_of_single rfl j q)
    (fun j q => by
      unfold DotDims.rhsIdx
      rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
      rfl)
    l w r c

/-- The stored block of a layer with its activation, at (r, c). -/
theorem pay_act (v0 : Vec Ideal S2000x1 .f32) (v2 v9 : Vec Ideal S2000x64 .f32) (v11 v14 : Vec Ideal S64x64 .f32)
    (v20 : Vec Ideal S1x64 .f32) (r : Fin 2000) (c : Fin 64) :
    k0_pay1 v0 v2 v9 v11 v14 v20 (ix2 r c)
      = Cert.Sage.act v2 (fun p => v0 (ix2 p (0 : Fin 1))) v9 v11 v14 (fun k => v20 (ix2 (0 : Fin 1) k)) r c := by
  unfold k0_pay1 Cert.Sage.act Cert.Sage.lin
  dsimp only
  rw [maximumf_apply, addf_apply, addf_apply, block_product, block_product, broadcast_apply,
    broadcastTo_1b_ab_apply, shapeCast_self]
  simp only [truncf_apply, divf_apply, shapeCast_self, Cert.ColumnLayout.broadcastTo_a1_ab_apply, maximumf_apply, broadcast_apply, Ideal.ofBits_def]

theorem pay_act0 (v0 : Vec Ideal S2000x1 .f32) (v2 v9 : Vec Ideal S2000x64 .f32) (v11 v14 : Vec Ideal S64x64 .f32)
    (v20 : Vec Ideal S1x64 .f32) (r : Fin 2000) (c : Fin 64) :
    k0_pay1 v0 v2 v9 v11 v14 v20 (ix2 r c)
      = Cert.Sage.act v2 (fun p => v0 (ix2 p (0 : Fin 1))) v9 v11 v14 (fun k => v20 (ix2 (0 : Fin 1) k)) r c :=
  pay_act v0 v2 v9 v11 v14 v20 r c

/-- The second, third and fourth launches store the same function of their blocks. -/
theorem pay_act1 (v0 : Vec Ideal S2000x1 .f32) (v2 v9 : Vec Ideal S2000x64 .f32) (v11 v14 : Vec Ideal S64x64 .f32)
    (v20 : Vec Ideal S1x64 .f32) (r : Fin 2000) (c : Fin 64) :
    k1_pay1 v0 v2 v9 v11 v14 v20 (ix2 r c)
      = Cert.Sage.act v2 (fun p => v0 (ix2 p (0 : Fin 1))) v9 v11 v14 (fun k => v20 (ix2 (0 : Fin 1) k)) r c :=
  pay_act v0 v2 v9 v11 v14 v20 r c

theorem pay_act2 (v0 : Vec Ideal S2000x1 .f32) (v2 v9 : Vec Ideal S2000x64 .f32) (v11 v14 : Vec Ideal S64x64 .f32)
    (v20 : Vec Ideal S1x64 .f32) (r : Fin 2000) (c : Fin 64) :
    k2_pay1 v0 v2 v9 v11 v14 v20 (ix2 r c)
      = Cert.Sage.act v2 (fun p => v0 (ix2 p (0 : Fin 1))) v9 v11 v14 (fun k => v20 (ix2 (0 : Fin 1) k)) r c := by
  unfold k2_pay1 Cert.Sage.act Cert.Sage.lin
  dsimp only
  rw [maximumf_apply, addf_apply, addf_apply, block_product, block_product, broadcast_apply,
    broadcastTo_1b_ab_apply, shapeCast_self]
  simp only [truncf_apply, divf_apply, shapeCast_self, Cert.ColumnLayout.broadcastTo_a1_ab_apply, maximumf_apply, broadcast_apply, Ideal.ofBits_def]

theorem pay_act3 (v0 : Vec Ideal S2000x1 .f32) (v2 v9 : Vec Ideal S2000x64 .f32) (v11 v14 : Vec Ideal S64x64 .f32)
    (v20 : Vec Ideal S1x64 .f32) (r : Fin 2000) (c : Fin 64) :
    k3_pay1 v0 v2 v9 v11 v14 v20 (ix2 r c)
      = Cert.Sage.act v2 (fun p => v0 (ix2 p (0 : Fin 1))) v9 v11 v14 (fun k => v20 (ix2 (0 : Fin 1) k)) r c := by
  unfold k3_pay1 Cert.Sage.act Cert.Sage.lin
  dsimp only
  rw [maximumf_apply, addf_apply, addf_apply, block_product, block_product, broadcast_apply,
    broadcastTo_1b_ab_apply, shapeCast_self]
  simp only [truncf_apply, divf_apply, shapeCast_self, Cert.ColumnLayout.broadcastTo_a1_ab_apply, maximumf_apply, broadcast_apply, Ideal.ofBits_def]

/-- The stored block of a last-layer launch, which has no activation, at (r, c). -/
theorem pay_lin4 (v0 : Vec Ideal S2000x1 .f32) (v2 v9 : Vec Ideal S2000x64 .f32) (v11 v14 : Vec Ideal S64x64 .f32)
    (v20 : Vec Ideal S1x64 .f32) (r : Fin 2000) (c : Fin 64) :
    k4_pay1 v0 v2 v9 v11 v14 v20 (ix2 r c)
      = Cert.Sage.lin v2 (fun p => v0 (ix2 p (0 : Fin 1))) v9 v11 v14 (fun k => v20 (ix2 (0 : Fin 1) k)) r c := by
  unfold k4_pay1 Cert.Sage.lin
  dsimp only
  rw [addf_apply, addf_apply, block_product, block_product, broadcastTo_1b_ab_apply, shapeCast_self]
  simp only [truncf_apply, divf_apply, shapeCast_self, Cert.ColumnLayout.broadcastTo_a1_ab_apply, maximumf_apply, broadcast_apply, Ideal.ofBits_def]

theorem pay_lin5 (v0 : Vec Ideal S2000x1 .f32) (v2 v9 : Vec Ideal S2000x64 .f32) (v11 v14 : Vec Ideal S64x64 .f32)
    (v20 : Vec Ideal S1x64 .f32) (r : Fin 2000) (c : Fin 64) :
    k5_pay1 v0 v2 v9 v11 v14 v20 (ix2 r c)
      = Cert.Sage.lin v2 (fun p => v0 (ix2 p (0 : Fin 1))) v9 v11 v14 (fun k => v20 (ix2 (0 : Fin 1) k)) r c :=
  pay_lin4 v0 v2 v9 v11 v14 v20 r c

/-- The decoder's stored column at row r: the inner product of the two blocks' rows r. -/
theorem pay_dec (v0 v2 : Vec Ideal S2000x64 .f32) (r : Fin 2000) (u : Fin 1) :
    k6_pay1 v0 v2 (ix2 r u) = Cert.Sage.dec v0 v2 r := by
  unfold k6_pay1 Cert.Sage.dec
  dsimp only
  rw [Cert.ColumnLayout.shapeCast_a_a1_apply]
  refine (Ideal.multiReduction_add_single _ 0x00000000#32 reduces_S2000x64_S2000 (.inl rfl) rfl (ix1 r)).trans ?_
  show (∑ k : Fin 64, (mulf (F := Ideal) (φ := .f32) (shapeCast S2000x64 v0 shapeCasts_S2000x64_S2000x64) (shapeCast S2000x64 v2 shapeCasts_S2000x64_S2000x64)) (reduces_S2000x64_S2000.lift (ix1 r) k)) = _
  refine Finset.sum_congr rfl fun k _ => ?_
  have e : reduces_S2000x64_S2000.lift (ix1 r) k = (ix2 r k : S2000x64.Idx) :=
    funext fun a => Fin.ext (by match a with | ⟨0, _⟩ => rfl | ⟨1, _⟩ => rfl)
  rw [e, mulf_apply, shapeCast_self, shapeCast_self]

end Cert.KernelIdeal.Pay

end
-- ==== Proof.Region6.lean ====
/-
  The last launch: the inner-product decoder over 500000 label pairs, 250 grid points of 2000 rows each.

  Grid point t reads rows 2000·t … 2000·t + 1999 of the two gathered feature arrays and writes the same rows of the
  one-column result: at row r the sum over the 64 columns of the product of the two rows. The 250 blocks tile the
  result column, so after the launch it holds, at every row, the inner product of the two arrays' rows.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg6

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window shows block row t at grid point `t`. -/
structure IdxFacts (t : Fin cfg6.N) : Prop where
  w0 : win6_0.index t (0 : Fin 2) = t.val ∧ win6_0.index t (1 : Fin 2) = 0
  w1 : win6_1.index t (0 : Fin 2) = t.val ∧ win6_1.index t (1 : Fin 2) = 0
  w2 : win6_2.index t (0 : Fin 2) = t.val ∧ win6_2.index t (1 : Fin 2) = 0

theorem idx_facts_all : ∀ t : Fin cfg6.N, (win6_0.index t (0 : Fin 2) = t.val ∧ win6_0.index t (1 : Fin 2) = 0) ∧ (win6_1.index t (0 : Fin 2) = t.val ∧ win6_1.index t (1 : Fin 2) = 0) ∧ (win6_2.index t (0 : Fin 2) = t.val ∧ win6_2.index t (1 : Fin 2) = 0) :=
  (by decide +kernel : ∀ t : Fin grid6.N, _)

theorem idx_facts (t : Fin cfg6.N) : IdxFacts t := by
  obtain ⟨h0, h1, h2⟩ := idx_facts_all t
  exact ⟨h0, h1, h2⟩

/-- The result column the launch leaves, as one function of the two arrays it found. -/
def G (c : Dev nD) : S500000x1.Idx → EReal := fun i =>
  Cert.Sage.dec (V c main_v139 : S500000x64.Idx → EReal) (V c main_v146 : S500000x64.Idx → EReal) (i 0)

/-- Row r of the first operand's block at point t is row 2000·t + r of the array. -/
theorem blk_u (c : Dev nD) (t : Fin cfg6.N) (r : Fin 2000) (k : Fin 64) (R : Fin 500000) (hR : R.val = t.val * 2000 + r.val) :
    (iblk6 V c 0 t : S2000x64.Idx → EReal) (ix2 r k) = (V c main_v139 : S500000x64.Idx → EReal) (ix2 R k) := by
  have e := idx_facts t
  unfold iblk6
  rw [View.read_apply]
  show V c main_v139 _ = V c main_v139 _
  congr 1
  funext a
  apply Fin.ext
  match a with
  | ⟨0, _⟩ => show win6_0.index t 0 * 2000 + 1 * r.val = R.val; rw [e.w0.1, hR]; omega
  | ⟨1, _⟩ => show win6_0.index t 1 * 64 + 1 * k.val = k.val; rw [e.w0.2]; omega

/-- Row r of the second operand's block at point t is row 2000·t + r of the array. -/
theorem blk_v (c : Dev nD) (t : Fin cfg6.N) (r : Fin 2000) (k : Fin 64) (R : Fin 500000) (hR : R.val = t.val * 2000 + r.val) :
    (iblk6 V c 1 t : S2000x64.Idx → EReal) (ix2 r k) = (V c main_v146 : S500000x64.Idx → EReal) (ix2 R k) := by
  have e := idx_facts t
  unfold iblk6
  rw [View.read_apply]
  show V c main_v146 _ = V c main_v146 _
  congr 1
  funext a
  apply Fin.ext
  match a with
  | ⟨0, _⟩ => show win6_1.index t 0 * 2000 + 1 * r.val = R.val; rw [e.w1.1, hR]; omega
  | ⟨1, _⟩ => show win6_1.index t 1 * 64 + 1 * k.val = k.val; rw [e.w1.2]; omega

/-- Entry (r, u) of the result block at point t sits at (2000·t + r, u) of the result column. -/
theorem emb_out (t : Fin cfg6.N) (r : Fin 2000) (u : Fin 1) (R : Fin 500000) (hR : R.val = t.val * 2000 + r.val) :
    ((cfg6.win 2).blk t).view.emb (ix2 r u) = (ix2 R u : S500000x1.Idx) := by
  have e := idx_facts t
  funext a
  apply Fin.ext
  match a with
  | ⟨0, _⟩ => show win6_2.index t 0 * 2000 + 1 * r.val = R.val; rw [e.w2.1, hR]; omega
  | ⟨1, _⟩ => show win6_2.index t 1 * 1 + 1 * u.val = u.val; rw [e.w2.2]; omega

/-- What grid point t writes back is block t of `G`. -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]
  unfold out6_2
  rw [View.canon_unit_zero hz]
  simp only [View.ld_unit_zero (S := S2000x64) hz]
  funext j
  obtain ⟨r, u, rfl⟩ : ∃ (r : Fin 2000) (u : Fin 1), j = ix2 r u := ⟨j 0, j 1, eq_ix2 j⟩
  have ht : t.val < 250 := lt_of_lt_of_eq t.isLt N_6
  have hr : r.val < 2000 := r.isLt
  rw [View.read_apply, emb_out t r u ⟨t.val * 2000 + r.val, by omega⟩ rfl]
  refine (Cert.KernelIdeal.Pay.pay_dec _ _ r u).trans ?_
  exact Cert.Sage.dec_congr (fun k' => blk_u V c t r k' _ rfl) (fun k' => blk_v V c t r k' _ rfl)

/-- An entry of the result column is in point t's block when its row is among the block's 2000 rows. -/
theorem mem_blk (t : Fin cfg6.N) (i : S500000x1.Idx) :
    i ∈ ((cfg6.win 2).blk t).view.set ↔ ∀ a : Fin 2, win6_2.index t a * S2000x1.size a ≤ (i a).val ∧ (i a).val < win6_2.index t a * S2000x1.size a + S2000x1.size a := by
  show i ∈ ((View.whole main_v147).slice (win6_2.rect t)).set ↔ _
  rw [View.set_slice_whole, Rect.mem_set_unit]
  exact Iff.rfl

/-- After the launch the result column is `G`: row R is covered by point R / 2000. -/
theorem final (c : Dev nD) : (dat6 V c).arrAt 2 cfg6.N = G V c :=
  (dat6 V c).arrAt_eq_of_cover 2 (G V c) (fun t _ => flushed_eq V c t) fun i => by
    have hi0 : (i 0).val < 500000 := (i 0).isLt
    have hi1 : (i 1).val < 1 := (i 1).isLt
    have hN : cfg6.N = 250 := N_6
    have e := idx_facts (⟨(i 0).val / 2000, by rw [hN]; omega⟩ : Fin cfg6.N)
    refine ⟨⟨(i 0).val / 2000, by rw [hN]; omega⟩, flush6_2 _, ?_⟩
    rw [mem_blk]
    intro a
    match a with
    | ⟨0, _⟩ =>
      show win6_2.index _ 0 * 2000 ≤ (i 0).val ∧ (i 0).val < win6_2.index _ 0 * 2000 + 2000
      rw [e.w2.1]
      show (i 0).val / 2000 * 2000 ≤ (i 0).val ∧ (i 0).val < (i 0).val / 2000 * 2000 + 2000
      omega
    | ⟨1, _⟩ =>
      show win6_2.index _ 1 * 1 ≤ (i 1).val ∧ (i 1).val < win6_2.index _ 1 * 1 + 1
      rw [e.w2.2]
      omega

end Cert.KernelIdeal.Reg6

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.RefSage.lean ====
/-
  The reference program's layer and decoder, read entry by entry.

  Per layer the reference program computes, on N × 64 matrices, the host product of (agg divided entrywise by the
  count floored at one and spread along each row) with wl, plus the host product of xd with wr, plus the bias spread
  down the rows, and then, in the first two layers, the entrywise maximum with zero. Its decoder multiplies two
  500000 × 64 matrices entrywise and sums each row from zero. Read at an entry (p, c), resp. at a row p, these are
  the specification's `lin`, `act` and `dec`: each spread reads its operand at the one coordinate it keeps, a host
  product at (p, c) is the sum over k of l[p, k] · r[k, c], and the row sum is zero plus the sum over the row.
-/
import proofs.«153663_j21818433863799_1_alg».proof.ReferenceIdeal
import proofs.«153663_j21818433863799_1_alg».proof.Proof.Spec
import proofs.«153663_j21818433863799_1_alg».proof.Proof.LibHostLayout
import proofs.«153663_j21818433863799_1_alg».proof.Proof.LibHostProduct
import Idealize.ShloMosaic.Lib.ValueIdx
import Idealize.ShloMosaic.PureOps.Ideal.Laws

noncomputable section

namespace Cert.RefSage

open Cert.ReferenceIdeal Idealize.ShloMosaic Idealize.ShloMosaic.ValueIdx
open Cert.ReferenceIdeal.Facts₀

variable [Facts₀]

/-! ## The layer at 20000 rows -/

section N20000

/-- The left operand's row coordinate at output index j is j's row. -/
theorem lhs20000_0 (j : S20000x64.Idx) (q : dot_S20000x64_S64x64_S20000x64_1_0_0_1_n_n.contr.Idx) :
    (dot_S20000x64_S64x64_S20000x64_1_0_0_1_n_n.lhsIdx j q (0 : Fin 2)).val = (j (0 : Fin 2)).val := by
  unfold DotDims.lhsIdx
  rw [dif_neg (show ¬(0 : Fin S20000x64.rank) ∈ dot_S20000x64_S64x64_S20000x64_1_0_0_1_n_n.lhsBatch from List.not_mem_nil),
    dif_pos (show (0 : Fin S20000x64.rank) ∈ dot_S20000x64_S64x64_S20000x64_1_0_0_1_n_n.lhsNonContracting from List.mem_singleton.mpr rfl)]
  rfl

/-- The right operand's column coordinate at output index j is j's column. -/
theorem rhs20000_1 (j : S20000x64.Idx) (q : dot_S20000x64_S64x64_S20000x64_1_0_0_1_n_n.contr.Idx) :
    (dot_S20000x64_S64x64_S20000x64_1_0_0_1_n_n.rhsIdx j q (1 : Fin 2)).val = (j (1 : Fin 2)).val := by
  unfold DotDims.rhsIdx
  rw [dif_neg (show ¬(1 : Fin S64x64.rank) ∈ dot_S20000x64_S64x64_S20000x64_1_0_0_1_n_n.rhsBatch from List.not_mem_nil),
    dif_pos (show (1 : Fin S64x64.rank) ∈ dot_S20000x64_S64x64_S20000x64_1_0_0_1_n_n.rhsNonContracting from List.mem_singleton.mpr rfl)]
  rfl

/-- Entry (p, c) of the 20000 × 64 by 64 × 64 host product is the sum over k of l[p, k] · r[k, c]. -/
theorem dot20000 (l : FVec Ideal S20000x64 .f32) (r : FVec Ideal S64x64 .f32) (p : Fin 20000) (c : Fin 64) :
    Host.dotGeneral (F := Ideal) (φ₁ := .f32) (φ₂ := .f32) dot_S20000x64_S64x64_S20000x64_1_0_0_1_n_n none l r (ix2 p c) = ∑ k : Fin 64, l (ix2 p k) * r (ix2 k c) :=
  Cert.HostProduct.dotGeneral_entry dot_S20000x64_S64x64_S20000x64_1_0_0_1_n_n rfl rfl
    lhs20000_0 (fun j q => dot_S20000x64_S64x64_S20000x64_1_0_0_1_n_n.lhsIdx_val_of_single rfl j q)
    (fun j q => dot_S20000x64_S64x64_S20000x64_1_0_0_1_n_n.rhsIdx_val_of_single rfl j q) rhs20000_1 l r p c

/-- The count, floored at one and spread along each row, read at (p, k): max(cnt[p], 1). -/
theorem den20000 (cnt : (⟨S20000, .f32⟩ : BufTy).Contents (Elt Ideal)) (p : Fin 20000) (k : Fin 64) :
    (broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32))))) (ix2 p k)
      = max (cnt (ix1 p)) Cert.Sage.one := by
  rw [Cert.HostLayout.broadcastInDim_a1_ab_apply _ bcast_S20000x1_S20000x64_0_1 p k,
    Cert.HostLayout.broadcastInDim_a_a1_apply _ bcast_S20000_S20000x1_0 p (0 : Fin 1)]
  show FloatOps.maximumf (F := Ideal) (cnt (ix1 p))
      (broadcastInDim S20000 ![] bcast_S_S20000 (constant (F := Ideal) S_ .f32 0x3F800000#32) (ix1 p)) = _
  rw [Cert.HostLayout.broadcastInDim_scalar_apply _ bcast_S_S20000 (ix1 p)]
  rfl

/-- The bias placed as a row and repeated down the rows, read at (p, c): b[c]. -/
theorem bias20000 (b : (⟨S64, .f32⟩ : BufTy).Contents (Elt Ideal)) (p : Fin 20000) (c : Fin 64) :
    (broadcastInDim S20000x64 ![0, 1] bcast_S1x64_S20000x64_0_1 (broadcastInDim S1x64 ![1] bcast_S64_S1x64_1 b)) (ix2 p c)
      = b (ix1 c) := by
  rw [Cert.HostLayout.broadcastInDim_1b_ab_apply _ bcast_S1x64_S20000x64_0_1 p c,
    Cert.HostLayout.broadcastInDim_b_1b_apply _ bcast_S64_S1x64_1 (0 : Fin 1) c]

/-- The layer before its activation, as the reference program computes it, is the specification's `lin`. -/
theorem lin20000 (agg xd : (⟨S20000x64, .f32⟩ : BufTy).Contents (Elt Ideal)) (cnt : (⟨S20000, .f32⟩ : BufTy).Contents (Elt Ideal))
    (wl wr : (⟨S64x64, .f32⟩ : BufTy).Contents (Elt Ideal)) (b : (⟨S64, .f32⟩ : BufTy).Contents (Elt Ideal))
    (p : Fin 20000) (c : Fin 64) :
    addf (F := Ideal) (φ := .f32) (addf (F := Ideal) (φ := .f32) (Host.dotGeneral (F := Ideal) (φ₁ := .f32) (φ₂ := .f32) dot_S20000x64_S64x64_S20000x64_1_0_0_1_n_n none
          (Host.divf (F := Ideal) (φ := .f32) agg (broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32)))))) wl)
        (Host.dotGeneral (F := Ideal) (φ₁ := .f32) (φ₂ := .f32) dot_S20000x64_S64x64_S20000x64_1_0_0_1_n_n none xd wr))
      (broadcastInDim S20000x64 ![0, 1] bcast_S1x64_S20000x64_0_1 (broadcastInDim S1x64 ![1] bcast_S64_S1x64_1 b)) (ix2 p c)
    = Cert.Sage.lin agg (fun p => cnt (ix1 p)) xd wl wr (fun c => b (ix1 c)) p c := by
  show FloatOps.addf (F := Ideal) (FloatOps.addf (F := Ideal)
        (Host.dotGeneral (F := Ideal) (φ₁ := .f32) (φ₂ := .f32) dot_S20000x64_S64x64_S20000x64_1_0_0_1_n_n none (Host.divf (F := Ideal) (φ := .f32) agg (broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32)))))) wl (ix2 p c))
        (Host.dotGeneral (F := Ideal) (φ₁ := .f32) (φ₂ := .f32) dot_S20000x64_S64x64_S20000x64_1_0_0_1_n_n none xd wr (ix2 p c)))
      ((broadcastInDim S20000x64 ![0, 1] bcast_S1x64_S20000x64_0_1 (broadcastInDim S1x64 ![1] bcast_S64_S1x64_1 b)) (ix2 p c)) = _
  rw [dot20000, dot20000, bias20000]
  unfold Cert.Sage.lin
  simp only [Ideal.addf_def]
  refine congrArg (· + _ + _) (Finset.sum_congr rfl fun k _ => ?_)
  show FloatOps.hostDivf (F := Ideal) (agg (ix2 p k)) ((broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32))))) (ix2 p k)) * _ = _
  rw [den20000]
  rfl

/-- The layer with its activation, as the reference program computes it, is the specification's `act`. -/
theorem act20000 (agg xd : (⟨S20000x64, .f32⟩ : BufTy).Contents (Elt Ideal)) (cnt : (⟨S20000, .f32⟩ : BufTy).Contents (Elt Ideal))
    (wl wr : (⟨S64x64, .f32⟩ : BufTy).Contents (Elt Ideal)) (b : (⟨S64, .f32⟩ : BufTy).Contents (Elt Ideal))
    (p : Fin 20000) (c : Fin 64) :
    maximumf (F := Ideal) (φ := .f32) (addf (F := Ideal) (φ := .f32) (addf (F := Ideal) (φ := .f32) (Host.dotGeneral (F := Ideal) (φ₁ := .f32) (φ₂ := .f32) dot_S20000x64_S64x64_S20000x64_1_0_0_1_n_n none
          (Host.divf (F := Ideal) (φ := .f32) agg (broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32)))))) wl)
        (Host.dotGeneral (F := Ideal) (φ₁ := .f32) (φ₂ := .f32) dot_S20000x64_S64x64_S20000x64_1_0_0_1_n_n none xd wr))
      (broadcastInDim S20000x64 ![0, 1] bcast_S1x64_S20000x64_0_1 (broadcastInDim S1x64 ![1] bcast_S64_S1x64_1 b)))
      (broadcastInDim S20000x64 ![] bcast_S_S20000x64 (constant (F := Ideal) S_ .f32 0x00000000#32)) (ix2 p c)
    = Cert.Sage.act agg (fun p => cnt (ix1 p)) xd wl wr (fun c => b (ix1 c)) p c := by
  show FloatOps.maximumf (F := Ideal) ((addf (F := Ideal) (φ := .f32) (addf (F := Ideal) (φ := .f32) (Host.dotGeneral (F := Ideal) (φ₁ := .f32) (φ₂ := .f32) dot_S20000x64_S64x64_S20000x64_1_0_0_1_n_n none
          (Host.divf (F := Ideal) (φ := .f32) agg (broadcastInDim S20000x64 ![0, 1] bcast_S20000x1_S20000x64_0_1
            (broadcastInDim S20000x1 ![0] bcast_S20000_S20000x1_0
              (maximumf (F := Ideal) (φ := .f32) cnt (broadcastInDim S20000 ![] bcast_S_S20000 (constant (F := Ideal) S_ .f32 0x3F800000#32)))))) wl)
        (Host.dotGeneral (F := Ideal) (φ₁ := .f32) (φ₂ := .f32) dot_S20000x64_S64x64_S20000x64_1_0_0_1_n_n none xd wr))
      (broadcastInDim S20000x64 ![0, 1] bcast_S1x64_S20000x64_0_1 (broadcastInDim S1x64 ![1] bcast_S64_S1x64_1 b))) (ix2 p c))
      (broadcastInDim S20000x64 ![] bcast_S_S20000x64 (constant (F := Ideal) S_ .f32 0x00000000#32) (ix2 p c)) = _
  rw [Cert.HostLayout.broadcastInDim_scalar_apply _ bcast_S_S20000x64 (ix2 p c), lin20000]
  rfl

end N20000

/-! ## The layer at 100000 rows -/

section N100000

/-- The left operand's row coordinate at output index j is j's row. -/
theorem lhs100000_0 (j : S100000x64.Idx) (q : dot_S100000x64_S64x64_S100000x64_1_0_0_1_n_n.contr.Idx) :
    (dot_S100000x64_S64x64_S100000x64_1_0_0_1_n_n.lhsIdx j q (0 : Fin 2)).val = (j (0 : Fin 2)).val := by
  unfold DotDims.lhsIdx
  rw [dif_neg (show ¬(0 : Fin S100000x64.rank) ∈ dot_S100000x64_S64x64_S100000x64_1_0_0_1_n_n.lhsBatch from List.not_mem_nil),
    dif_pos (show (0 : Fin S100000x64.rank) ∈ dot_S100000x64_S64x64_S100000x64_1_0_0_1_n_n.lhsNonContracting from List.mem_singleton.mpr rfl)]
  rfl

/-- The right operand's column coordinate at output index j is j's column. -/
theorem rhs100000_1 (j : S100000x64.Idx) (q : dot_S100000x64_S64x64_S100000x64_1_0_0_1_n_n.contr.Idx) :
    (dot_S100000x64_S64x64_S100000x64_1_0_0_1_n_n.rhsIdx j q (1 : Fin 2)).val = (j (1 : Fin 2)).val := by
  unfold DotDims.rhsIdx
  rw [dif_neg (show ¬(1 : Fin S64x64.rank) ∈ dot_S100000x64_S64x64_S100000x64_1_0_0_1_n_n.rhsBatch from List.not_mem_nil),
    dif_pos (show (1 : Fin S64x64.rank) ∈ dot_S100000x64_S64x64_S100000x64_1_0_0_1_n_n.rhsNonContracting from List.mem_singleton.mpr rfl)]
  rfl

/-- Entry (p, c) of the 100000 × 64 by 64 × 64 host product is the sum over k of l[p, k] · r[k, c]. -/
theorem dot100000 (l : FVec Ideal S100000x64 .f32) (r : FVec Ideal S64x64 .f32) (p : Fin 100000) (c : Fin 64) :
    Host.dotGeneral (F := Ideal) (φ₁ := .f32) (φ₂ := .f32) dot_S100000x64_S64x64_S100000x64_1_0_0_1_n_n none l r (ix2 p c) = ∑ k : Fin 64, l (ix2 p k) * r (ix2 k c) :=
  Cert.HostProduct.dotGeneral_entry dot_S100000x64_S64x64_S100000x64_1_0_0_1_n_n rfl rfl
    lhs100000_0 (fun j q => dot_S100000x64_S64x64_S100000x64_1_0_0_1_n_n.lhsIdx_val_of_single rfl j q)
    (fun j q => dot_S100000x64_S64x64_S100000x64_1_0_0_1_n_n.rhsIdx_val_of_single rfl j q) rhs100000_1 l r p c

/-- The count, floored at one and spread along each row, read at (p, k): max(cnt[p], 1). -/
theorem den100000 (cnt : (⟨S100000, .f32⟩ : BufTy).Contents (Elt Ideal)) (p : Fin 100000) (k : Fin 64) :
    (broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32))))) (ix2 p k)
      = max (cnt (ix1 p)) Cert.Sage.one := by
  rw [Cert.HostLayout.broadcastInDim_a1_ab_apply _ bcast_S100000x1_S100000x64_0_1 p k,
    Cert.HostLayout.broadcastInDim_a_a1_apply _ bcast_S100000_S100000x1_0 p (0 : Fin 1)]
  show FloatOps.maximumf (F := Ideal) (cnt (ix1 p))
      (broadcastInDim S100000 ![] bcast_S_S100000 (constant (F := Ideal) S_ .f32 0x3F800000#32) (ix1 p)) = _
  rw [Cert.HostLayout.broadcastInDim_scalar_apply _ bcast_S_S100000 (ix1 p)]
  rfl

/-- The bias placed as a row and repeated down the rows, read at (p, c): b[c]. -/
theorem bias100000 (b : (⟨S64, .f32⟩ : BufTy).Contents (Elt Ideal)) (p : Fin 100000) (c : Fin 64) :
    (broadcastInDim S100000x64 ![0, 1] bcast_S1x64_S100000x64_0_1 (broadcastInDim S1x64 ![1] bcast_S64_S1x64_1 b)) (ix2 p c)
      = b (ix1 c) := by
  rw [Cert.HostLayout.broadcastInDim_1b_ab_apply _ bcast_S1x64_S100000x64_0_1 p c,
    Cert.HostLayout.broadcastInDim_b_1b_apply _ bcast_S64_S1x64_1 (0 : Fin 1) c]

/-- The layer before its activation, as the reference program computes it, is the specification's `lin`. -/
theorem lin100000 (agg xd : (⟨S100000x64, .f32⟩ : BufTy).Contents (Elt Ideal)) (cnt : (⟨S100000, .f32⟩ : BufTy).Contents (Elt Ideal))
    (wl wr : (⟨S64x64, .f32⟩ : BufTy).Contents (Elt Ideal)) (b : (⟨S64, .f32⟩ : BufTy).Contents (Elt Ideal))
    (p : Fin 100000) (c : Fin 64) :
    addf (F := Ideal) (φ := .f32) (addf (F := Ideal) (φ := .f32) (Host.dotGeneral (F := Ideal) (φ₁ := .f32) (φ₂ := .f32) dot_S100000x64_S64x64_S100000x64_1_0_0_1_n_n none
          (Host.divf (F := Ideal) (φ := .f32) agg (broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32)))))) wl)
        (Host.dotGeneral (F := Ideal) (φ₁ := .f32) (φ₂ := .f32) dot_S100000x64_S64x64_S100000x64_1_0_0_1_n_n none xd wr))
      (broadcastInDim S100000x64 ![0, 1] bcast_S1x64_S100000x64_0_1 (broadcastInDim S1x64 ![1] bcast_S64_S1x64_1 b)) (ix2 p c)
    = Cert.Sage.lin agg (fun p => cnt (ix1 p)) xd wl wr (fun c => b (ix1 c)) p c := by
  show FloatOps.addf (F := Ideal) (FloatOps.addf (F := Ideal)
        (Host.dotGeneral (F := Ideal) (φ₁ := .f32) (φ₂ := .f32) dot_S100000x64_S64x64_S100000x64_1_0_0_1_n_n none (Host.divf (F := Ideal) (φ := .f32) agg (broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32)))))) wl (ix2 p c))
        (Host.dotGeneral (F := Ideal) (φ₁ := .f32) (φ₂ := .f32) dot_S100000x64_S64x64_S100000x64_1_0_0_1_n_n none xd wr (ix2 p c)))
      ((broadcastInDim S100000x64 ![0, 1] bcast_S1x64_S100000x64_0_1 (broadcastInDim S1x64 ![1] bcast_S64_S1x64_1 b)) (ix2 p c)) = _
  rw [dot100000, dot100000, bias100000]
  unfold Cert.Sage.lin
  simp only [Ideal.addf_def]
  refine congrArg (· + _ + _) (Finset.sum_congr rfl fun k _ => ?_)
  show FloatOps.hostDivf (F := Ideal) (agg (ix2 p k)) ((broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32))))) (ix2 p k)) * _ = _
  rw [den100000]
  rfl

/-- The layer with its activation, as the reference program computes it, is the specification's `act`. -/
theorem act100000 (agg xd : (⟨S100000x64, .f32⟩ : BufTy).Contents (Elt Ideal)) (cnt : (⟨S100000, .f32⟩ : BufTy).Contents (Elt Ideal))
    (wl wr : (⟨S64x64, .f32⟩ : BufTy).Contents (Elt Ideal)) (b : (⟨S64, .f32⟩ : BufTy).Contents (Elt Ideal))
    (p : Fin 100000) (c : Fin 64) :
    maximumf (F := Ideal) (φ := .f32) (addf (F := Ideal) (φ := .f32) (addf (F := Ideal) (φ := .f32) (Host.dotGeneral (F := Ideal) (φ₁ := .f32) (φ₂ := .f32) dot_S100000x64_S64x64_S100000x64_1_0_0_1_n_n none
          (Host.divf (F := Ideal) (φ := .f32) agg (broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32)))))) wl)
        (Host.dotGeneral (F := Ideal) (φ₁ := .f32) (φ₂ := .f32) dot_S100000x64_S64x64_S100000x64_1_0_0_1_n_n none xd wr))
      (broadcastInDim S100000x64 ![0, 1] bcast_S1x64_S100000x64_0_1 (broadcastInDim S1x64 ![1] bcast_S64_S1x64_1 b)))
      (broadcastInDim S100000x64 ![] bcast_S_S100000x64 (constant (F := Ideal) S_ .f32 0x00000000#32)) (ix2 p c)
    = Cert.Sage.act agg (fun p => cnt (ix1 p)) xd wl wr (fun c => b (ix1 c)) p c := by
  show FloatOps.maximumf (F := Ideal) ((addf (F := Ideal) (φ := .f32) (addf (F := Ideal) (φ := .f32) (Host.dotGeneral (F := Ideal) (φ₁ := .f32) (φ₂ := .f32) dot_S100000x64_S64x64_S100000x64_1_0_0_1_n_n none
          (Host.divf (F := Ideal) (φ := .f32) agg (broadcastInDim S100000x64 ![0, 1] bcast_S100000x1_S100000x64_0_1
            (broadcastInDim S100000x1 ![0] bcast_S100000_S100000x1_0
              (maximumf (F := Ideal) (φ := .f32) cnt (broadcastInDim S100000 ![] bcast_S_S100000 (constant (F := Ideal) S_ .f32 0x3F800000#32)))))) wl)
        (Host.dotGeneral (F := Ideal) (φ₁ := .f32) (φ₂ := .f32) dot_S100000x64_S64x64_S100000x64_1_0_0_1_n_n none xd wr))
      (broadcastInDim S100000x64 ![0, 1] bcast_S1x64_S100000x64_0_1 (broadcastInDim S1x64 ![1] bcast_S64_S1x64_1 b))) (ix2 p c))
      (broadcastInDim S100000x64 ![] bcast_S_S100000x64 (constant (F := Ideal) S_ .f32 0x00000000#32) (ix2 p c)) = _
  rw [Cert.HostLayout.broadcastInDim_scalar_apply _ bcast_S_S100000x64 (ix2 p c), lin100000]
  rfl

end N100000

/-! ## The decoder -/

/-- The decoder, as the reference program computes it (the entrywise product summed along each row from zero), is the
    specification's `dec`. -/
theorem dec500000 (u v : (⟨S500000x64, .f32⟩ : BufTy).Contents (Elt Ideal)) (p : Fin 500000) :
    Host.reduceAdd (F := Ideal) (φ := .f32) (mulf (F := Ideal) (φ := .f32) u v) (constant (F := Ideal) S_ .f32 0x00000000#32)
        reducesTo_S500000x64_S500000_d1 h_S_ (ix1 p)
      = Cert.Sage.dec u v p := by
  simp only [Host.reduceAdd, Ideal.hostReduceAdd_def]
  rw [Ideal.hostReduceAdd_single reducesTo_S500000x64_S500000_d1 (by decide)]
  unfold Cert.Sage.dec
  refine (congrArg (· + _) (show (constant (F := Ideal) S_ .f32 0x00000000#32) (Shape.Idx.first h_S_) = 0 from
    Ideal.ofBits_zero_f32)).trans ?_
  rw [zero_add]
  refine Finset.sum_congr rfl fun k _ => ?_
  exact congrArg (fun i => u i * v i) (funext fun a => Fin.ext (by match a with | ⟨0, _⟩ => rfl | ⟨1, _⟩ => rfl))

end Cert.RefSage

end
-- ==== Proof.RefStage.lean ====
/-
  The reference program's result stages, read entry by entry, are the layer formula of their input stages.

  The reference program has three layers, each computed once for the 20000 rows and once for the 100000 rows, and a
  decoder. Each layer's result stage is built from its input stages (the summed messages, the message count before its
  floor at one, the rows' own features, two weight matrices and a bias) by exactly the operations whose entrywise
  reading is the specification's `lin` (third layer) or `act` (first and second layers): the stages in between are
  unfolded down to those inputs, which stay as they are, and the entrywise reading of the resulting expression is the
  corresponding statement about one layer. The decoder's stage is, in the same way, `dec` of the two gathered stages.
-/
import proofs.«153663_j21818433863799_1_alg».proof.Proof.Gen.ReferenceIdeal.Read
import proofs.«153663_j21818433863799_1_alg».proof.Proof.RefSage

noncomputable section

namespace Cert.RefStage

open Cert.ReferenceIdeal Cert.ReferenceIdeal.Read Idealize.ShloMosaic Idealize.ShloMosaic.ValueIdx

/-- The first layer, at the 20000 rows: the result stage read at (p, k) is the specification's `act` of the layer's input
    stages. -/
theorem ref0 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 : (⟨S1000000, .i32⟩ : BufTy).Contents (Elt Ideal))
    (p : Fin 20000) (k : Fin 64) :
    val_main_v62 (F := Ideal) x0 x1 x2 x3 x4 x5 x6 (ix2 p k)
      = Cert.Sage.act (val_main_v15 (F := Ideal) x0 x5 x6) (fun p => val_main_v19 (F := Ideal) x6 (ix1 p)) x1
          (val_main_v1 (F := Ideal) x2) (val_main_v3 (F := Ideal) x3) (fun c => val_main_v5 (F := Ideal) x4 (ix1 c)) p k := by
  unfold val_main_v62 val_main_v30 val_main_v27 val_main_v25 val_main_v24 val_main_v23 val_main_v22 val_main_v21 val_main_v20 val_main_cst_3 val_main_v26 val_main_v29 val_main_v28 val_main_call0_v0 val_main_call0_cst
  exact Cert.RefSage.act20000 _ _ _ _ _ _ p k

/-- The first layer, at the 100000 rows: the result stage read at (p, k) is the specification's `act` of the layer's input
    stages. -/
theorem ref1 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x7 x8 : (⟨S1000000, .i32⟩ : BufTy).Contents (Elt Ideal))
    (p : Fin 100000) (k : Fin 64) :
    val_main_v63 (F := Ideal) x0 x1 x2 x3 x4 x7 x8 (ix2 p k)
      = Cert.Sage.act (val_main_v46 (F := Ideal) x1 x7 x8) (fun p => val_main_v50 (F := Ideal) x8 (ix1 p)) x0
          (val_main_v32 (F := Ideal) x2) (val_main_v34 (F := Ideal) x3) (fun c => val_main_v36 (F := Ideal) x4 (ix1 c)) p k := by
  unfold val_main_v63 val_main_v61 val_main_v58 val_main_v56 val_main_v55 val_main_v54 val_main_v53 val_main_v52 val_main_v51 val_main_cst_9 val_main_v57 val_main_v60 val_main_v59 val_main_call1_v0 val_main_call1_cst
  exact Cert.RefSage.act100000 _ _ _ _ _ _ p k

/-- The second layer, at the 20000 rows: the result stage read at (p, k) is the specification's `act` of the layer's input
    stages. -/
theorem ref2 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 x7 x8 : (⟨S1000000, .i32⟩ : BufTy).Contents (Elt Ideal))
    (p : Fin 20000) (k : Fin 64) :
    val_main_v126 (F := Ideal) x0 x1 x2 x3 x4 x5 x6 x7 x8 (ix2 p k)
      = Cert.Sage.act (val_main_v79 (F := Ideal) x0 x1 x2 x3 x4 x5 x6 x7 x8) (fun p => val_main_v83 (F := Ideal) x6 (ix1 p)) (val_main_v62 (F := Ideal) x0 x1 x2 x3 x4 x5 x6)
          (val_main_v65 (F := Ideal) x2) (val_main_v67 (F := Ideal) x3) (fun c => val_main_v69 (F := Ideal) x4 (ix1 c)) p k := by
  unfold val_main_v126 val_main_v94 val_main_v91 val_main_v89 val_main_v88 val_main_v87 val_main_v86 val_main_v85 val_main_v84 val_main_cst_15 val_main_v90 val_main_v93 val_main_v92 val_main_call2_v0 val_main_call2_cst
  exact Cert.RefSage.act20000 _ _ _ _ _ _ p k

/-- The second layer, at the 100000 rows: the result stage read at (p, k) is the specification's `act` of the layer's input
    stages. -/
theorem ref3 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 x7 x8 : (⟨S1000000, .i32⟩ : BufTy).Contents (Elt Ideal))
    (p : Fin 100000) (k : Fin 64) :
    val_main_v127 (F := Ideal) x0 x1 x2 x3 x4 x5 x6 x7 x8 (ix2 p k)
      = Cert.Sage.act (val_main_v110 (F := Ideal) x0 x1 x2 x3 x4 x5 x6 x7 x8) (fun p => val_main_v114 (F := Ideal) x8 (ix1 p)) (val_main_v63 (F := Ideal) x0 x1 x2 x3 x4 x7 x8)
          (val_main_v96 (F := Ideal) x2) (val_main_v98 (F := Ideal) x3) (fun c => val_main_v100 (F := Ideal) x4 (ix1 c)) p k := by
  unfold val_main_v127 val_main_v125 val_main_v122 val_main_v120 val_main_v119 val_main_v118 val_main_v117 val_main_v116 val_main_v115 val_main_cst_21 val_main_v121 val_main_v124 val_main_v123 val_main_call3_v0 val_main_call3_cst
  exact Cert.RefSage.act100000 _ _ _ _ _ _ p k

/-- The third layer, at the 20000 rows: the result stage read at (p, k) is the specification's `lin` of the layer's input
    stages (this layer has no activation). -/
theorem ref4 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 x7 x8 : (⟨S1000000, .i32⟩ : BufTy).Contents (Elt Ideal))
    (p : Fin 20000) (k : Fin 64) :
    val_main_v158 (F := Ideal) x0 x1 x2 x3 x4 x5 x6 x7 x8 (ix2 p k)
      = Cert.Sage.lin (val_main_v143 (F := Ideal) x0 x1 x2 x3 x4 x5 x6 x7 x8) (fun p => val_main_v147 (F := Ideal) x6 (ix1 p)) (val_main_v126 (F := Ideal) x0 x1 x2 x3 x4 x5 x6 x7 x8)
          (val_main_v129 (F := Ideal) x2) (val_main_v131 (F := Ideal) x3) (fun c => val_main_v133 (F := Ideal) x4 (ix1 c)) p k := by
  unfold val_main_v158 val_main_v155 val_main_v153 val_main_v152 val_main_v151 val_main_v150 val_main_v149 val_main_v148 val_main_cst_27 val_main_v154 val_main_v157 val_main_v156
  exact Cert.RefSage.lin20000 _ _ _ _ _ _ p k

/-- The third layer, at the 100000 rows: the result stage read at (p, k) is the specification's `lin` of the layer's input
    stages (this layer has no activation). -/
theorem ref5 (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 x7 x8 : (⟨S1000000, .i32⟩ : BufTy).Contents (Elt Ideal))
    (p : Fin 100000) (k : Fin 64) :
    val_main_v189 (F := Ideal) x0 x1 x2 x3 x4 x5 x6 x7 x8 (ix2 p k)
      = Cert.Sage.lin (val_main_v174 (F := Ideal) x0 x1 x2 x3 x4 x5 x6 x7 x8) (fun p => val_main_v178 (F := Ideal) x8 (ix1 p)) (val_main_v127 (F := Ideal) x0 x1 x2 x3 x4 x5 x6 x7 x8)
          (val_main_v160 (F := Ideal) x2) (val_main_v162 (F := Ideal) x3) (fun c => val_main_v164 (F := Ideal) x4 (ix1 c)) p k := by
  unfold val_main_v189 val_main_v186 val_main_v184 val_main_v183 val_main_v182 val_main_v181 val_main_v180 val_main_v179 val_main_cst_33 val_main_v185 val_main_v188 val_main_v187
  exact Cert.RefSage.lin100000 _ _ _ _ _ _ p k

/-- The decoder: the last stage read at row p is the specification's `dec` of the two gathered stages. -/
theorem refDec (x0 : (⟨S100000x64, .f32⟩ : BufTy).Contents (Elt Ideal)) (x1 : (⟨S20000x64, .f32⟩ : BufTy).Contents (Elt Ideal)) (x2 x3 : (⟨S3x2x64x64, .f32⟩ : BufTy).Contents (Elt Ideal)) (x4 : (⟨S3x2x64, .f32⟩ : BufTy).Contents (Elt Ideal)) (x5 x6 x7 x8 : (⟨S1000000, .i32⟩ : BufTy).Contents (Elt Ideal)) (x9 x10 : (⟨S500000, .i32⟩ : BufTy).Contents (Elt Ideal))
    (p : Fin 500000) :
    val_main_v205 (F := Ideal) x0 x1 x2 x3 x4 x5 x6 x7 x8 x9 x10 (ix1 p)
      = Cert.Sage.dec (val_main_v196 (F := Ideal) x0 x1 x2 x3 x4 x5 x6 x7 x8 x9) (val_main_v203 (F := Ideal) x0 x1 x2 x3 x4 x5 x6 x7 x8 x10) p := by
  unfold val_main_v205 val_main_v204 val_main_cst_38
  exact Cert.RefSage.dec500000 _ _ p

end Cert.RefStage

end
-- ==== Proof.LibColumn.lean ====
/-
  A vector viewed as a one-column matrix, and back, read at an index given by coordinates.

  A shape cast keeps the row-major position of every entry.  Entry `i` of a vector of `a` entries and
  entry `(i, 0)` of an `a × 1` matrix are both at position `i`, so the cast `[a] → [a, 1]` reads the
  vector at `i`, and the cast `[a, 1] → [a]` reads the column at `(i, 0)`.
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to a column `[a, 1]` reads, at `(i, u)`, the vector at `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumn
-- ==== Proof.Region5.lean ====
/-
  Launch 5: one layer over 100000 destination rows, 50 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 50
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg5

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg5.N) : Prop where
  w0 : win5_0.index t (0 : Fin 2) = t.val ∧ win5_0.index t (1 : Fin 2) = 0
  w1 : win5_1.index t (0 : Fin 2) = t.val ∧ win5_1.index t (1 : Fin 2) = 0
  w2 : win5_2.index t (0 : Fin 2) = t.val ∧ win5_2.index t (1 : Fin 2) = 0
  w3 : win5_3.index t (0 : Fin 2) = 0 ∧ win5_3.index t (1 : Fin 2) = 0
  w4 : win5_4.index t (0 : Fin 2) = 0 ∧ win5_4.index t (1 : Fin 2) = 0
  w5 : win5_5.index t (0 : Fin 2) = 0 ∧ win5_5.index t (1 : Fin 2) = 0
  w6 : win5_6.index t (0 : Fin 2) = t.val ∧ win5_6.index t (1 : Fin 2) = 0

theorem idx_facts_all : ∀ t : Fin cfg5.N, (win5_0.index t (0 : Fin 2) = t.val ∧ win5_0.index t (1 : Fin 2) = 0) ∧ (win5_1.index t (0 : Fin 2) = t.val ∧ win5_1.index t (1 : Fin 2) = 0) ∧ (win5_2.index t (0 : Fin 2) = t.val ∧ win5_2.index t (1 : Fin 2) = 0) ∧ (win5_3.index t (0 : Fin 2) = 0 ∧ win5_3.index t (1 : Fin 2) = 0) ∧ (win5_4.index t (0 : Fin 2) = 0 ∧ win5_4.index t (1 : Fin 2) = 0) ∧ (win5_5.index t (0 : Fin 2) = 0 ∧ win5_5.index t (1 : Fin 2) = 0) ∧ (win5_6.index t (0 : Fin 2) = t.val ∧ win5_6.index t (1 : Fin 2) = 0) :=
  (by decide +kernel : ∀ t : Fin grid5.N, _)

theorem idx_facts (t : Fin cfg5.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S100000x64.Idx → EReal := fun i =>
  Cert.Sage.lin (V c main_v120 : S100000x64.Idx → EReal) (fun p => (V c main_v124 : S100000x1.Idx → EReal) (ix2 p (0 : Fin 1)))
    (V c main_v88 : S100000x64.Idx → EReal) (V c main_v126 : S64x64.Idx → EReal) (V c main_v128 : S64x64.Idx → EReal)
    (fun k => (V c main_v131 : S1x64.Idx → EReal) (ix2 (0 : Fin 1) k)) (i 0) (i 1)

/-- Row r of the summed-messages block at point t is row 2000·t + r of the array. -/
theorem blk_agg (c : Dev nD) (t : Fin cfg5.N) (r : Fin 2000) (k : Fin 64) (R : Fin 100000) (hR : R.val = t.val * 2000 + r.val) :
    (iblk5 V c 0 t : S2000x64.Idx → EReal) (ix2 r k) = (V c main_v120 : S100000x64.Idx → EReal) (ix2 R k) := by
  have e := idx_facts t
  unfold iblk5
  rw [View.read_apply]
  show V c main_v120 _ = V c main_v120 _
  congr 1
  funext a
  apply Fin.ext
  match a with
  | ⟨0, _⟩ => show win5_0.index t 0 * 2000 + 1 * r.val = R.val; rw [e.w0.1, hR]; omega
  | ⟨1, _⟩ => show win5_0.index t 1 * 64 + 1 * k.val = k.val; rw [e.w0.2]; omega

/-- Row r of the count block at point t is row 2000·t + r of the count column. -/
theorem blk_cnt (c : Dev nD) (t : Fin cfg5.N) (r : Fin 2000) (k : Fin 1) (R : Fin 100000) (hR : R.val = t.val * 2000 + r.val) :
    (iblk5 V c 1 t : S2000x1.Idx → EReal) (ix2 r k) = (V c main_v124 : S100000x1.Idx → EReal) (ix2 R k) := by
  have e := idx_facts t
  unfold iblk5
  rw [View.read_apply]
  show V c main_v124 _ = V c main_v124 _
  congr 1
  funext a
  apply Fin.ext
  match a with
  | ⟨0, _⟩ => show win5_1.index t 0 * 2000 + 1 * r.val = R.val; rw [e.w1.1, hR]; omega
  | ⟨1, _⟩ => show win5_1.index t 1 * 1 + 1 * k.val = k.val; rw [e.w1.2]; omega

/-- Row r of the destination-features block at point t is row 2000·t + r of the array. -/
theorem blk_xd (c : Dev nD) (t : Fin cfg5.N) (r : Fin 2000) (k : Fin 64) (R : Fin 100000) (hR : R.val = t.val * 2000 + r.val) :
    (iblk5 V c 2 t : S2000x64.Idx → EReal) (ix2 r k) = (V c main_v88 : S100000x64.Idx → EReal) (ix2 R k) := by
  have e := idx_facts t
  unfold iblk5
  rw [View.read_apply]
  show V c main_v88 _ = V c main_v88 _
  congr 1
  funext a
  apply Fin.ext
  match a with
  | ⟨0, _⟩ => show win5_2.index t 0 * 2000 + 1 * r.val = R.val; rw [e.w2.1, hR]; omega
  | ⟨1, _⟩ => show win5_2.index t 1 * 64 + 1 * k.val = k.val; rw [e.w2.2]; omega

/-- The first weight matrix is shown whole at every point. -/
theorem blk_wl (c : Dev nD) (t : Fin cfg5.N) (a' : Fin 64) (k : Fin 64) :
    (iblk5 V c 3 t : S64x64.Idx → EReal) (ix2 a' k) = (V c main_v126 : S64x64.Idx → EReal) (ix2 a' k) := by
  have e := idx_facts t
  unfold iblk5
  rw [View.read_apply]
  show V c main_v126 _ = V c main_v126 _
  congr 1
  funext a
  apply Fin.ext
  match a with
  | ⟨0, _⟩ => show win5_3.index t 0 * 64 + 1 * a'.val = a'.val; rw [e.w3.1]; omega
  | ⟨1, _⟩ => show win5_3.index t 1 * 64 + 1 * k.val = k.val; rw [e.w3.2]; omega

/-- The second weight matrix is shown whole at every point. -/
theorem blk_wr (c : Dev nD) (t : Fin cfg5.N) (a' : Fin 64) (k : Fin 64) :
    (iblk5 V c 4 t : S64x64.Idx → EReal) (ix2 a' k) = (V c main_v128 : S64x64.Idx → EReal) (ix2 a' k) := by
  have e := idx_facts t
  unfold iblk5
  rw [View.read_apply]
  show V c main_v128 _ = V c main_v128 _
  congr 1
  funext a
  apply Fin.ext
  match a with
  | ⟨0, _⟩ => show win5_4.index t 0 * 64 + 1 * a'.val = a'.val; rw [e.w4.1]; omega
  | ⟨1, _⟩ => show win5_4.index t 1 * 64 + 1 * k.val = k.val; rw [e.w4.2]; omega

/-- The bias row is shown whole at every point. -/
theorem blk_b (c : Dev nD) (t : Fin cfg5.N) (a' : Fin 1) (k : Fin 64) :
    (iblk5 V c 5 t : S1x64.Idx → EReal) (ix2 a' k) = (V c main_v131 : S1x64.Idx → EReal) (ix2 a' k) := by
  have e := idx_facts t
  unfold iblk5
  rw [View.read_apply]
  show V c main_v131 _ = V c main_v131 _
  congr 1
  funext a
  apply Fin.ext
  match a with
  | ⟨0, _⟩ => show win5_5.index t 0 * 1 + 1 * a'.val = a'.val; rw [e.w5.1]; omega
  | ⟨1, _⟩ => show win5_5.index t 1 * 64 + 1 * k.val = k.val; rw [e.w5.2]; omega

/-- Entry (r, k) of the result block at point t sits at (2000·t + r, k) of the result array. -/
theorem emb_out (t : Fin cfg5.N) (r : Fin 2000) (k : Fin 64) (R : Fin 100000) (hR : R.val = t.val * 2000 + r.val) :
    ((cfg5.win 6).blk t).view.emb (ix2 r k) = (ix2 R k : S100000x64.Idx) := by
  have e := idx_facts t
  funext a
  apply Fin.ext
  match a with
  | ⟨0, _⟩ => show win5_6.index t 0 * 2000 + 1 * r.val = R.val; rw [e.w6.1, hR]; omega
  | ⟨1, _⟩ => show win5_6.index t 1 * 64 + 1 * k.val = k.val; rw [e.w6.2]; omega

/-- What grid point t writes back is block t of `G`. -/
theorem flushed_eq (c : Dev nD) (t : Fin cfg5.N) :
    (dat5 V c).flushed 6 t = ((cfg5.win 6).blk t).view.read (Elt Ideal) (G V c) := by
  show (cfg5.win 6).cut (grid5.coords t) ((dat5 V c).after 6 t) = _
  rw [after5_6]
  unfold out5_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 50 := lt_of_lt_of_eq t.isLt N_5
  have hr : r.val < 2000 := r.isLt
  rw [View.read_apply]
  refine Eq.trans ?_ (congrArg (G V c) (emb_out t r k ⟨t.val * 2000 + r.val, by omega⟩ rfl)).symm
  refine (Cert.KernelIdeal.Pay.pay_lin5 _ _ _ _ _ _ r k).trans ?_
  exact Cert.Sage.lin_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg5.N) (i : S100000x64.Idx) :
    i ∈ ((cfg5.win 6).blk t).view.set ↔ ∀ a : Fin 2, win5_6.index t a * S2000x64.size a ≤ (i a).val ∧ (i a).val < win5_6.index t a * S2000x64.size a + S2000x64.size a := by
  show i ∈ ((View.whole main_v132).slice (win5_6.rect t)).set ↔ _
  rw [View.set_slice_whole, Rect.mem_set_unit]
  exact Iff.rfl

/-- After the launch the result array is `G`: row R is covered by point R / 2000. -/
theorem final (c : Dev nD) : (dat5 V c).arrAt 6 cfg5.N = G V c :=
  (dat5 V c).arrAt_eq_of_cover 6 (G V c) (fun t _ => flushed_eq V c t) fun i => by
    have hi0 : (i 0).val < 100000 := (i 0).isLt
    have hi1 : (i 1).val < 64 := (i 1).isLt
    have hN : cfg5.N = 50 := N_5
    have e := idx_facts (⟨(i 0).val / 2000, by rw [hN]; omega⟩ : Fin cfg5.N)
    refine ⟨⟨(i 0).val / 2000, by rw [hN]; omega⟩, flush5_6 _, ?_⟩
    rw [mem_blk]
    intro a
    match a with
    | ⟨0, _⟩ =>
      show win5_6.index _ 0 * 2000 ≤ (i 0).val ∧ (i 0).val < win5_6.index _ 0 * 2000 + 2000
      rw [e.w6.1]
      show (i 0).val / 2000 * 2000 ≤ (i 0).val ∧ (i 0).val < (i 0).val / 2000 * 2000 + 2000
      omega
    | ⟨1, _⟩ =>
      show win5_6.index _ 1 * 64 ≤ (i 1).val ∧ (i 1).val < win5_6.index _ 1 * 64 + 64
      rw [e.w6.2]
      omega

end Cert.KernelIdeal.Reg5

end
-- ==== Proof.Region4.lean ====
/-
  Launch 4: one layer over 20000 destination rows, 10 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 10
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg4.N) : Prop where
  w0 : win4_0.index t (0 : Fin 2) = t.val ∧ win4_0.index t (1 : Fin 2) = 0
  w1 : win4_1.index t (0 : Fin 2) = t.val ∧ win4_1.index t (1 : Fin 2) = 0
  w2 : win4_2.index t (0 : Fin 2) = t.val ∧ win4_2.index t (1 : Fin 2) = 0
  w3 : win4_3.index t (0 : Fin 2) = 0 ∧ win4_3.index t (1 : Fin 2) = 0
  w4 : win4_4.index t (0 : Fin 2) = 0 ∧ win4_4.index t (1 : Fin 2) = 0
  w5 : win4_5.index t (0 : Fin 2) = 0 ∧ win4_5.index t (1 : Fin 2) = 0
  w6 : win4_6.index t (0 : Fin 2) = t.val ∧ win4_6.index t (1 : Fin 2) = 0

theorem idx_facts_all : ∀ t : Fin cfg4.N, (win4_0.index t (0 : Fin 2) = t.val ∧ win4_0.index t (1 : Fin 2) = 0) ∧ (win4_1.index t (0 : Fin 2) = t.val ∧ win4_1.index t (1 : Fin 2) = 0) ∧ (win4_2.index t (0 : Fin 2) = t.val ∧ win4_2.index t (1 : Fin 2) = 0) ∧ (win4_3.index t (0 : Fin 2) = 0 ∧ win4_3.index t (1 : Fin 2) = 0) ∧ (win4_4.index t (0 : Fin 2) = 0 ∧ win4_4.index t (1 : Fin 2) = 0) ∧ (win4_5.index t (0 : Fin 2) = 0 ∧ win4_5.index t (1 : Fin 2) = 0) ∧ (win4_6.index t (0 : Fin 2) = t.val ∧ win4_6.index t (1 : Fin 2) = 0) :=
  (by decide +kernel : ∀ t : Fin grid4.N, _)

theorem idx_facts (t : Fin cfg4.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S20000x64.Idx → EReal := fun i =>
  Cert.Sage.lin (V c main_v98 : S20000x64.Idx → EReal) (fun p => (V c main_v102 : S20000x1.Idx → EReal) (ix2 p (0 : Fin 1)))
    (V c main_v66 : S20000x64.Idx → EReal) (V c main_v104 : S64x64.Idx → EReal) (V c main_v106 : S64x64.Idx → EReal)
    (fun k => (V c main_v109 : S1x64.Idx → EReal) (ix2 (0 : Fin 1) k)) (i 0) (i 1)

/-- Row r of the summed-messages block at point t is row 2000·t + r of the array. -/
theorem blk_agg (c : Dev nD) (t : Fin cfg4.N) (r : Fin 2000) (k : Fin 64) (R : Fin 20000) (hR : R.val = t.val * 2000 + r.val) :
    (iblk4 V c 0 t : S2000x64.Idx → EReal) (ix2 r k) = (V c main_v98 : S20000x64.Idx → EReal) (ix2 R k) := by
  have e := idx_facts t
  unfold iblk4
  rw [View.read_apply]
  show V c main_v98 _ = V c main_v98 _
  congr 1
  funext a
  apply Fin.ext
  match a with
  | ⟨0, _⟩ => show win4_0.index t 0 * 2000 + 1 * r.val = R.val; rw [e.w0.1, hR]; omega
  | ⟨1, _⟩ => show win4_0.index t 1 * 64 + 1 * k.val = k.val; rw [e.w0.2]; omega

/-- Row r of the count block at point t is row 2000·t + r of the count column. -/
theorem blk_cnt (c : Dev nD) (t : Fin cfg4.N) (r : Fin 2000) (k : Fin 1) (R : Fin 20000) (hR : R.val = t.val * 2000 + r.val) :
    (iblk4 V c 1 t : S2000x1.Idx → EReal) (ix2 r k) = (V c main_v102 : S20000x1.Idx → EReal) (ix2 R k) := by
  have e := idx_facts t
  unfold iblk4
  rw [View.read_apply]
  show V c main_v102 _ = V c main_v102 _
  congr 1
  funext a
  apply Fin.ext
  match a with
  | ⟨0, _⟩ => show win4_1.index t 0 * 2000 + 1 * r.val = R.val; rw [e.w1.1, hR]; omega
  | ⟨1, _⟩ => show win4_1.index t 1 * 1 + 1 * k.val = k.val; rw [e.w1.2]; omega

/-- Row r of the destination-features block at point t is row 2000·t + r of the array. -/
theorem blk_xd (c : Dev nD) (t : Fin cfg4.N) (r : Fin 2000) (k : Fin 64) (R : Fin 20000) (hR : R.val = t.val * 2000 + r.val) :
    (iblk4 V c 2 t : S2000x64.Idx → EReal) (ix2 r k) = (V c main_v66 : S20000x64.Idx → EReal) (ix2 R k) := by
  have e := idx_facts t
  unfold iblk4
  rw [View.read_apply]
  show V c main_v66 _ = V c main_v66 _
  congr 1
  funext a
  apply Fin.ext
  match a with
  | ⟨0, _⟩ => show win4_2.index t 0 * 2000 + 1 * r.val = R.val; rw [e.w2.1, hR]; omega
  | ⟨1, _⟩ => show win4_2.index t 1 * 64 + 1 * k.val = k.val; rw [e.w2.2]; omega

/-- The first weight matrix is shown whole at every point. -/
theorem blk_wl (c : Dev nD) (t : Fin cfg4.N) (a' : Fin 64) (k : Fin 64) :
    (iblk4 V c 3 t : S64x64.Idx → EReal) (ix2 a' k) = (V c main_v104 : S64x64.Idx → EReal) (ix2 a' k) := by
  have e := idx_facts t
  unfold iblk4
  rw [View.read_apply]
  show V c main_v104 _ = V c main_v104 _
  congr 1
  funext a
  apply Fin.ext
  match a with
  | ⟨0, _⟩ => show win4_3.index t 0 * 64 + 1 * a'.val = a'.val; rw [e.w3.1]; omega
  | ⟨1, _⟩ => show win4_3.index t 1 * 64 + 1 * k.val = k.val; rw [e.w3.2]; omega

/-- The second weight matrix is shown whole at every point. -/
theorem blk_wr (c : Dev nD) (t : Fin cfg4.N) (a' : Fin 64) (k : Fin 64) :
    (iblk4 V c 4 t : S64x64.Idx → EReal) (ix2 a' k) = (V c main_v106 : S64x64.Idx → EReal) (ix2 a' k) := by
  have e := idx_facts t
  unfold iblk4
  rw [View.read_apply]
  show V c main_v106 _ = V c main_v106 _
  congr 1
  funext a
  apply Fin.ext
  match a with
  | ⟨0, _⟩ => show win4_4.index t 0 * 64 + 1 * a'.val = a'.val; rw [e.w4.1]; omega
  | ⟨1, _⟩ => show win4_4.index t 1 * 64 + 1 * k.val = k.val; rw [e.w4.2]; omega

/-- The bias row is shown whole at every point. -/
theorem blk_b (c : Dev nD) (t : Fin cfg4.N) (a' : Fin 1) (k : Fin 64) :
    (iblk4 V c 5 t : S1x64.Idx → EReal) (ix2 a' k) = (V c main_v109 : S1x64.Idx → EReal) (ix2 a' k) := by
  have e := idx_facts t
  unfold iblk4
  rw [View.read_apply]
  show V c main_v109 _ = V c main_v109 _
  congr 1
  funext a
  apply Fin.ext
  match a with
  | ⟨0, _⟩ => show win4_5.index t 0 * 1 + 1 * a'.val = a'.val; rw [e.w5.1]; omega
  | ⟨1, _⟩ => show win4_5.index t 1 * 64 + 1 * k.val = k.val; rw [e.w5.2]; omega

/-- Entry (r, k) of the result block at point t sits at (2000·t + r, k) of the result array. -/
theorem emb_out (t : Fin cfg4.N) (r : Fin 2000) (k : Fin 64) (R : Fin 20000) (hR : R.val = t.val * 2000 + r.val) :
    ((cfg4.win 6).blk t).view.emb (ix2 r k) = (ix2 R k : S20000x64.Idx) := by
  have e := idx_facts t
  funext a
  apply Fin.ext
  match a with
  | ⟨0, _⟩ => show win4_6.index t 0 * 2000 + 1 * r.val = R.val; rw [e.w6.1, hR]; omega
  | ⟨1, _⟩ => show win4_6.index t 1 * 64 + 1 * k.val = k.val; rw [e.w6.2]; omega

/-- What grid point t writes back is block t of `G`. -/
theorem flushed_eq (c : Dev nD) (t : Fin cfg4.N) :
    (dat4 V c).flushed 6 t = ((cfg4.win 6).blk t).view.read (Elt Ideal) (G V c) := by
  show (cfg4.win 6).cut (grid4.coords t) ((dat4 V c).after 6 t) = _
  rw [after4_6]
  unfold out4_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 10 := lt_of_lt_of_eq t.isLt N_4
  have hr : r.val < 2000 := r.isLt
  rw [View.read_apply]
  refine Eq.trans ?_ (congrArg (G V c) (emb_out t r k ⟨t.val * 2000 + r.val, by omega⟩ rfl)).symm
  refine (Cert.KernelIdeal.Pay.pay_lin4 _ _ _ _ _ _ r k).trans ?_
  exact Cert.Sage.lin_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg4.N) (i : S20000x64.Idx) :
    i ∈ ((cfg4.win 6).blk t).view.set ↔ ∀ a : Fin 2, win4_6.index t a * S2000x64.size a ≤ (i a).val ∧ (i a).val < win4_6.index t a * S2000x64.size a + S2000x64.size a := by
  show i ∈ ((View.whole main_v110).slice (win4_6.rect t)).set ↔ _
  rw [View.set_slice_whole, Rect.mem_set_unit]
  exact Iff.rfl

/-- After the launch the result array is `G`: row R is covered by point R / 2000. -/
theorem final (c : Dev nD) : (dat4 V c).arrAt 6 cfg4.N = G V c :=
  (dat4 V c).arrAt_eq_of_cover 6 (G V c) (fun t _ => flushed_eq V c t) fun i => by
    have hi0 : (i 0).val < 20000 := (i 0).isLt
    have hi1 : (i 1).val < 64 := (i 1).isLt
    have hN : cfg4.N = 10 := N_4
    have e := idx_facts (⟨(i 0).val / 2000, by rw [hN]; omega⟩ : Fin cfg4.N)
    refine ⟨⟨(i 0).val / 2000, by rw [hN]; omega⟩, flush4_6 _, ?_⟩
    rw [mem_blk]
    intro a
    match a with
    | ⟨0, _⟩ =>
      show win4_6.index _ 0 * 2000 ≤ (i 0).val ∧ (i 0).val < win4_6.index _ 0 * 2000 + 2000
      rw [e.w6.1]
      show (i 0).val / 2000 * 2000 ≤ (i 0).val ∧ (i 0).val < (i 0).val / 2000 * 2000 + 2000
      omega
    | ⟨1, _⟩ =>
      show win4_6.index _ 1 * 64 ≤ (i 1).val ∧ (i 1).val < win4_6.index _ 1 * 64 + 64
      rw [e.w6.2]
      omega

end Cert.KernelIdeal.Reg4

end
-- ==== Proof.Region3.lean ====
/-
  Launch 3: one layer over 100000 destination rows, 50 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 50
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg3.N) : Prop where
  w0 : win3_0.index t (0 : Fin 2) = t.val ∧ win3_0.index t (1 : Fin 2) = 0
  w1 : win3_1.index t (0 : Fin 2) = t.val ∧ win3_1.index t (1 : Fin 2) = 0
  w2 : win3_2.index t (0 : Fin 2) = t.val ∧ win3_2.index t (1 : Fin 2) = 0
  w3 : win3_3.index t (0 : Fin 2) = 0 ∧ win3_3.index t (1 : Fin 2) = 0
  w4 : win3_4.index t (0 : Fin 2) = 0 ∧ win3_4.index t (1 : Fin 2) = 0
  w5 : win3_5.index t (0 : Fin 2) = 0 ∧ win3_5.index t (1 : Fin 2) = 0
  w6 : win3_6.index t (0 : Fin 2) = t.val ∧ win3_6.index t (1 : Fin 2) = 0

theorem idx_facts_all : ∀ t : Fin cfg3.N, (win3_0.index t (0 : Fin 2) = t.val ∧ win3_0.index t (1 : Fin 2) = 0) ∧ (win3_1.index t (0 : Fin 2) = t.val ∧ win3_1.index t (1 : Fin 2) = 0) ∧ (win3_2.index t (0 : Fin 2) = t.val ∧ win3_2.index t (1 : Fin 2) = 0) ∧ (win3_3.index t (0 : Fin 2) = 0 ∧ win3_3.index t (1 : Fin 2) = 0) ∧ (win3_4.index t (0 : Fin 2) = 0 ∧ win3_4.index t (1 : Fin 2) = 0) ∧ (win3_5.index t (0 : Fin 2) = 0 ∧ win3_5.index t (1 : Fin 2) = 0) ∧ (win3_6.index t (0 : Fin 2) = t.val ∧ win3_6.index t (1 : Fin 2) = 0) :=
  (by decide +kernel : ∀ t : Fin grid3.N, _)

theorem idx_facts (t : Fin cfg3.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S100000x64.Idx → EReal := fun i =>
  Cert.Sage.act (V c main_v76 : S100000x64.Idx → EReal) (fun p => (V c main_v80 : S100000x1.Idx → EReal) (ix2 p (0 : Fin 1)))
    (V c main_v44 : S100000x64.Idx → EReal) (V c main_v82 : S64x64.Idx → EReal) (V c main_v84 : S64x64.Idx → EReal)
    (fun k => (V c main_v87 : S1x64.Idx → EReal) (ix2 (0 : Fin 1) k)) (i 0) (i 1)

/-- Row r of the summed-messages block at point t is row 2000·t + r of the array. -/
theorem blk_agg (c : Dev nD) (t : Fin cfg3.N) (r : Fin 2000) (k : Fin 64) (R : Fin 100000) (hR : R.val = t.val * 2000 + r.val) :
    (iblk3 V c 0 t : S2000x64.Idx → EReal) (ix2 r k) = (V c main_v76 : S100000x64.Idx → EReal) (ix2 R k) := by
  have e := idx_facts t
  unfold iblk3
  rw [View.read_apply]
  show V c main_v76 _ = V c main_v76 _
  congr 1
  funext a
  apply Fin.ext
  match a with
  | ⟨0, _⟩ => show win3_0.index t 0 * 2000 + 1 * r.val = R.val; rw [e.w0.1, hR]; omega
  | ⟨1, _⟩ => show win3_0.index t 1 * 64 + 1 * k.val = k.val; rw [e.w0.2]; omega

/-- Row r of the count block at point t is row 2000·t + r of the count column. -/
theorem blk_cnt (c : Dev nD) (t : Fin cfg3.N) (r : Fin 2000) (k : Fin 1) (R : Fin 100000) (hR : R.val = t.val * 2000 + r.val) :
    (iblk3 V c 1 t : S2000x1.Idx → EReal) (ix2 r k) = (V c main_v80 : S100000x1.Idx → EReal) (ix2 R k) := by
  have e := idx_facts t
  unfold iblk3
  rw [View.read_apply]
  show V c main_v80 _ = V c main_v80 _
  congr 1
  funext a
  apply Fin.ext
  match a with
  | ⟨0, _⟩ => show win3_1.index t 0 * 2000 + 1 * r.val = R.val; rw [e.w1.1, hR]; omega
  | ⟨1, _⟩ => show win3_1.index t 1 * 1 + 1 * k.val = k.val; rw [e.w1.2]; omega

/-- Row r of the destination-features block at point t is row 2000·t + r of the array. -/
theorem blk_xd (c : Dev nD) (t : Fin cfg3.N) (r : Fin 2000) (k : Fin 64) (R : Fin 100000) (hR : R.val = t.val * 2000 + r.val) :
    (iblk3 V c 2 t : S2000x64.Idx → EReal) (ix2 r k) = (V c main_v44 : S100000x64.Idx → EReal) (ix2 R k) := by
  have e := idx_facts t
  unfold iblk3
  rw [View.read_apply]
  show V c main_v44 _ = V c main_v44 _
  congr 1
  funext a
  apply Fin.ext
  match a with
  | ⟨0, _⟩ => show win3_2.index t 0 * 2000 + 1 * r.val = R.val; rw [e.w2.1, hR]; omega
  | ⟨1, _⟩ => show win3_2.index t 1 * 64 + 1 * k.val = k.val; rw [e.w2.2]; omega

/-- The first weight matrix is shown whole at every point. -/
theorem blk_wl (c : Dev nD) (t : Fin cfg3.N) (a' : Fin 64) (k : Fin 64) :
    (iblk3 V c 3 t : S64x64.Idx → EReal) (ix2 a' k) = (V c main_v82 : S64x64.Idx → EReal) (ix2 a' k) := by
  have e := idx_facts t
  unfold iblk3
  rw [View.read_apply]
  show V c main_v82 _ = V c main_v82 _
  congr 1
  funext a
  apply Fin.ext
  match a with
  | ⟨0, _⟩ => show win3_3.index t 0 * 64 + 1 * a'.val = a'.val; rw [e.w3.1]; omega
  | ⟨1, _⟩ => show win3_3.index t 1 * 64 + 1 * k.val = k.val; rw [e.w3.2]; omega

/-- The second weight matrix is shown whole at every point. -/
theorem blk_wr (c : Dev nD) (t : Fin cfg3.N) (a' : Fin 64) (k : Fin 64) :
    (iblk3 V c 4 t : S64x64.Idx → EReal) (ix2 a' k) = (V c main_v84 : S64x64.Idx → EReal) (ix2 a' k) := by
  have e := idx_facts t
  unfold iblk3
  rw [View.read_apply]
  show V c main_v84 _ = V c main_v84 _
  congr 1
  funext a
  apply Fin.ext
  match a with
  | ⟨0, _⟩ => show win3_4.index t 0 * 64 + 1 * a'.val = a'.val; rw [e.w4.1]; omega
  | ⟨1, _⟩ => show win3_4.index t 1 * 64 + 1 * k.val = k.val; rw [e.w4.2]; omega

/-- The bias row is shown whole at every point. -/
theorem blk_b (c : Dev nD) (t : Fin cfg3.N) (a' : Fin 1) (k : Fin 64) :
    (iblk3 V c 5 t : S1x64.Idx → EReal) (ix2 a' k) = (V c main_v87 : S1x64.Idx → EReal) (ix2 a' k) := by
  have e := idx_facts t
  unfold iblk3
  rw [View.read_apply]
  show V c main_v87 _ = V c main_v87 _
  congr 1
  funext a
  apply Fin.ext
  match a with
  | ⟨0, _⟩ => show win3_5.index t 0 * 1 + 1 * a'.val = a'.val; rw [e.w5.1]; omega
  | ⟨1, _⟩ => show win3_5.index t 1 * 64 + 1 * k.val = k.val; rw [e.w5.2]; omega

/-- Entry (r, k) of the result block at point t sits at (2000·t + r, k) of the result array. -/
theorem emb_out (t : Fin cfg3.N) (r : Fin 2000) (k : Fin 64) (R : Fin 100000) (hR : R.val = t.val * 2000 + r.val) :
    ((cfg3.win 6).blk t).view.emb (ix2 r k) = (ix2 R k : S100000x64.Idx) := by
  have e := idx_facts t
  funext a
  apply Fin.ext
  match a with
  | ⟨0, _⟩ => show win3_6.index t 0 * 2000 + 1 * r.val = R.val; rw [e.w6.1, hR]; omega
  | ⟨1, _⟩ => show win3_6.index t 1 * 64 + 1 * k.val = k.val; rw [e.w6.2]; omega

/-- What grid point t writes back is block t of `G`. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 50 := lt_of_lt_of_eq t.isLt N_3
  have hr : r.val < 2000 := r.isLt
  rw [View.read_apply, emb_out t r k ⟨t.val * 2000 + r.val, by omega⟩ rfl]
  refine (Cert.KernelIdeal.Pay.pay_act3 _ _ _ _ _ _ r k).trans ?_
  exact Cert.Sage.act_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg3.N) (i : S100000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v88).slice (win3_6.rect t)).set ↔ _
  rw [View.set_slice_whole, Rect.mem_set_unit]
  exact Iff.rfl

/-- After the launch the result array is `G`: row R is covered by point R / 2000. -/
theorem final (c : Dev nD) : (dat3 V c).arrAt 6 cfg3.N = G V c :=
  (dat3 V c).arrAt_eq_of_cover 6 (G V c) (fun t _ => flushed_eq V c t) fun i => by
    have hi0 : (i 0).val < 100000 := (i 0).isLt
    have hi1 : (i 1).val < 64 := (i 1).isLt
    have hN : cfg3.N = 50 := N_3
    have e := idx_facts (⟨(i 0).val / 2000, by rw [hN]; omega⟩ : Fin cfg3.N)
    refine ⟨⟨(i 0).val / 2000, by rw [hN]; omega⟩, flush3_6 _, ?_⟩
    rw [mem_blk]
    intro a
    match a with
    | ⟨0, _⟩ =>
      show win3_6.index _ 0 * 2000 ≤ (i 0).val ∧ (i 0).val < win3_6.index _ 0 * 2000 + 2000
      rw [e.w6.1]
      show (i 0).val / 2000 * 2000 ≤ (i 0).val ∧ (i 0).val < (i 0).val / 2000 * 2000 + 2000
      omega
    | ⟨1, _⟩ =>
      show win3_6.index _ 1 * 64 ≤ (i 1).val ∧ (i 1).val < win3_6.index _ 1 * 64 + 64
      rw [e.w6.2]
      omega

end Cert.KernelIdeal.Reg3

end
-- ==== Proof.Region2.lean ====
/-
  Launch 2: one layer over 20000 destination rows, 10 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 10
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg2.N) : Prop where
  w0 : win2_0.index t (0 : Fin 2) = t.val ∧ win2_0.index t (1 : Fin 2) = 0
  w1 : win2_1.index t (0 : Fin 2) = t.val ∧ win2_1.index t (1 : Fin 2) = 0
  w2 : win2_2.index t (0 : Fin 2) = t.val ∧ win2_2.index t (1 : Fin 2) = 0
  w3 : win2_3.index t (0 : Fin 2) = 0 ∧ win2_3.index t (1 : Fin 2) = 0
  w4 : win2_4.index t (0 : Fin 2) = 0 ∧ win2_4.index t (1 : Fin 2) = 0
  w5 : win2_5.index t (0 : Fin 2) = 0 ∧ win2_5.index t (1 : Fin 2) = 0
  w6 : win2_6.index t (0 : Fin 2) = t.val ∧ win2_6.index t (1 : Fin 2) = 0

theorem idx_facts_all : ∀ t : Fin cfg2.N, (win2_0.index t (0 : Fin 2) = t.val ∧ win2_0.index t (1 : Fin 2) = 0) ∧ (win2_1.index t (0 : Fin 2) = t.val ∧ win2_1.index t (1 : Fin 2) = 0) ∧ (win2_2.index t (0 : Fin 2) = t.val ∧ win2_2.index t (1 : Fin 2) = 0) ∧ (win2_3.index t (0 : Fin 2) = 0 ∧ win2_3.index t (1 : Fin 2) = 0) ∧ (win2_4.index t (0 : Fin 2) = 0 ∧ win2_4.index t (1 : Fin 2) = 0) ∧ (win2_5.index t (0 : Fin 2) = 0 ∧ win2_5.index t (1 : Fin 2) = 0) ∧ (win2_6.index t (0 : Fin 2) = t.val ∧ win2_6.index t (1 : Fin 2) = 0) :=
  (by decide +kernel : ∀ t : Fin grid2.N, _)

theorem idx_facts (t : Fin cfg2.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S20000x64.Idx → EReal := fun i =>
  Cert.Sage.act (V c main_v54 : S20000x64.Idx → EReal) (fun p => (V c main_v58 : S20000x1.Idx → EReal) (ix2 p (0 : Fin 1)))
    (V c main_v22 : S20000x64.Idx → EReal) (V c main_v60 : S64x64.Idx → EReal) (V c main_v62 : S64x64.Idx → EReal)
    (fun k => (V c main_v65 : S1x64.Idx → EReal) (ix2 (0 : Fin 1) k)) (i 0) (i 1)

/-- Row r of the summed-messages block at point t is row 2000·t + r of the array. -/
theorem blk_agg (c : Dev nD) (t : Fin cfg2.N) (r : Fin 2000) (k : Fin 64) (R : Fin 20000) (hR : R.val = t.val * 2000 + r.val) :
    (iblk2 V c 0 t : S2000x64.Idx → EReal) (ix2 r k) = (V c main_v54 : S20000x64.Idx → EReal) (ix2 R k) := by
  have e := idx_facts t
  unfold iblk2
  rw [View.read_apply]
  show V c main_v54 _ = V c main_v54 _
  congr 1
  funext a
  apply Fin.ext
  match a with
  | ⟨0, _⟩ => show win2_0.index t 0 * 2000 + 1 * r.val = R.val; rw [e.w0.1, hR]; omega
  | ⟨1, _⟩ => show win2_0.index t 1 * 64 + 1 * k.val = k.val; rw [e.w0.2]; omega

/-- Row r of the count block at point t is row 2000·t + r of the count column. -/
theorem blk_cnt (c : Dev nD) (t : Fin cfg2.N) (r : Fin 2000) (k : Fin 1) (R : Fin 20000) (hR : R.val = t.val * 2000 + r.val) :
    (iblk2 V c 1 t : S2000x1.Idx → EReal) (ix2 r k) = (V c main_v58 : S20000x1.Idx → EReal) (ix2 R k) := by
  have e := idx_facts t
  unfold iblk2
  rw [View.read_apply]
  show V c main_v58 _ = V c main_v58 _
  congr 1
  funext a
  apply Fin.ext
  match a with
  | ⟨0, _⟩ => show win2_1.index t 0 * 2000 + 1 * r.val = R.val; rw [e.w1.1, hR]; omega
  | ⟨1, _⟩ => show win2_1.index t 1 * 1 + 1 * k.val = k.val; rw [e.w1.2]; omega

/-- Row r of the destination-features block at point t is row 2000·t + r of the array. -/
theorem blk_xd (c : Dev nD) (t : Fin cfg2.N) (r : Fin 2000) (k : Fin 64) (R : Fin 20000) (hR : R.val = t.val * 2000 + r.val) :
    (iblk2 V c 2 t : S2000x64.Idx → EReal) (ix2 r k) = (V c main_v22 : S20000x64.Idx → EReal) (ix2 R k) := by
  have e := idx_facts t
  unfold iblk2
  rw [View.read_apply]
  show V c main_v22 _ = V c main_v22 _
  congr 1
  funext a
  apply Fin.ext
  match a with
  | ⟨0, _⟩ => show win2_2.index t 0 * 2000 + 1 * r.val = R.val; rw [e.w2.1, hR]; omega
  | ⟨1, _⟩ => show win2_2.index t 1 * 64 + 1 * k.val = k.val; rw [e.w2.2]; omega

/-- The first weight matrix is shown whole at every point. -/
theorem blk_wl (c : Dev nD) (t : Fin cfg2.N) (a' : Fin 64) (k : Fin 64) :
    (iblk2 V c 3 t : S64x64.Idx → EReal) (ix2 a' k) = (V c main_v60 : S64x64.Idx → EReal) (ix2 a' k) := by
  have e := idx_facts t
  unfold iblk2
  rw [View.read_apply]
  show V c main_v60 _ = V c main_v60 _
  congr 1
  funext a
  apply Fin.ext
  match a with
  | ⟨0, _⟩ => show win2_3.index t 0 * 64 + 1 * a'.val = a'.val; rw [e.w3.1]; omega
  | ⟨1, _⟩ => show win2_3.index t 1 * 64 + 1 * k.val = k.val; rw [e.w3.2]; omega

/-- The second weight matrix is shown whole at every point. -/
theorem blk_wr (c : Dev nD) (t : Fin cfg2.N) (a' : Fin 64) (k : Fin 64) :
    (iblk2 V c 4 t : S64x64.Idx → EReal) (ix2 a' k) = (V c main_v62 : S64x64.Idx → EReal) (ix2 a' k) := by
  have e := idx_facts t
  unfold iblk2
  rw [View.read_apply]
  show V c main_v62 _ = V c main_v62 _
  congr 1
  funext a
  apply Fin.ext
  match a with
  | ⟨0, _⟩ => show win2_4.index t 0 * 64 + 1 * a'.val = a'.val; rw [e.w4.1]; omega
  | ⟨1, _⟩ => show win2_4.index t 1 * 64 + 1 * k.val = k.val; rw [e.w4.2]; omega

/-- The bias row is shown whole at every point. -/
theorem blk_b (c : Dev nD) (t : Fin cfg2.N) (a' : Fin 1) (k : Fin 64) :
    (iblk2 V c 5 t : S1x64.Idx → EReal) (ix2 a' k) = (V c main_v65 : S1x64.Idx → EReal) (ix2 a' k) := by
  have e := idx_facts t
  unfold iblk2
  rw [View.read_apply]
  show V c main_v65 _ = V c main_v65 _
  congr 1
  funext a
  apply Fin.ext
  match a with
  | ⟨0, _⟩ => show win2_5.index t 0 * 1 + 1 * a'.val = a'.val; rw [e.w5.1]; omega
  | ⟨1, _⟩ => show win2_5.index t 1 * 64 + 1 * k.val = k.val; rw [e.w5.2]; omega

/-- Entry (r, k) of the result block at point t sits at (2000·t + r, k) of the result array. -/
theorem emb_out (t : Fin cfg2.N) (r : Fin 2000) (k : Fin 64) (R : Fin 20000) (hR : R.val = t.val * 2000 + r.val) :
    ((cfg2.win 6).blk t).view.emb (ix2 r k) = (ix2 R k : S20000x64.Idx) := by
  have e := idx_facts t
  funext a
  apply Fin.ext
  match a with
  | ⟨0, _⟩ => show win2_6.index t 0 * 2000 + 1 * r.val = R.val; rw [e.w6.1, hR]; omega
  | ⟨1, _⟩ => show win2_6.index t 1 * 64 + 1 * k.val = k.val; rw [e.w6.2]; omega

/-- What grid point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 10 := lt_of_lt_of_eq t.isLt N_2
  have hr : r.val < 2000 := r.isLt
  rw [View.read_apply, emb_out t r k ⟨t.val * 2000 + r.val, by omega⟩ rfl]
  refine (Cert.KernelIdeal.Pay.pay_act2 _ _ _ _ _ _ r k).trans ?_
  exact Cert.Sage.act_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg2.N) (i : S20000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v66).slice (win2_6.rect t)).set ↔ _
  rw [View.set_slice_whole, Rect.mem_set_unit]
  exact Iff.rfl

/-- After the launch the result array is `G`: row R is covered by point R / 2000. -/
theorem final (c : Dev nD) : (dat2 V c).arrAt 6 cfg2.N = G V c :=
  (dat2 V c).arrAt_eq_of_cover 6 (G V c) (fun t _ => flushed_eq V c t) fun i => by
    have hi0 : (i 0).val < 20000 := (i 0).isLt
    have hi1 : (i 1).val < 64 := (i 1).isLt
    have hN : cfg2.N = 10 := N_2
    have e := idx_facts (⟨(i 0).val / 2000, by rw [hN]; omega⟩ : Fin cfg2.N)
    refine ⟨⟨(i 0).val / 2000, by rw [hN]; omega⟩, flush2_6 _, ?_⟩
    rw [mem_blk]
    intro a
    match a with
    | ⟨0, _⟩ =>
      show win2_6.index _ 0 * 2000 ≤ (i 0).val ∧ (i 0).val < win2_6.index _ 0 * 2000 + 2000
      rw [e.w6.1]
      show (i 0).val / 2000 * 2000 ≤ (i 0).val ∧ (i 0).val < (i 0).val / 2000 * 2000 + 2000
      omega
    | ⟨1, _⟩ =>
      show win2_6.index _ 1 * 64 ≤ (i 1).val ∧ (i 1).val < win2_6.index _ 1 * 64 + 64
      rw [e.w6.2]
      omega

end Cert.KernelIdeal.Reg2

end
-- ==== Proof.Region1.lean ====
/-
  Launch 1: one layer over 100000 destination rows, 50 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 50
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = t.val ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = t.val ∧ win1_6.index t (1 : Fin 2) = 0

theorem idx_facts_all : ∀ t : Fin cfg1.N, (win1_0.index t (0 : Fin 2) = t.val ∧ win1_0.index t (1 : Fin 2) = 0) ∧ (win1_1.index t (0 : Fin 2) = t.val ∧ win1_1.index t (1 : Fin 2) = 0) ∧ (win1_2.index t (0 : Fin 2) = t.val ∧ win1_2.index t (1 : Fin 2) = 0) ∧ (win1_3.index t (0 : Fin 2) = 0 ∧ win1_3.index t (1 : Fin 2) = 0) ∧ (win1_4.index t (0 : Fin 2) = 0 ∧ win1_4.index t (1 : Fin 2) = 0) ∧ (win1_5.index t (0 : Fin 2) = 0 ∧ win1_5.index t (1 : Fin 2) = 0) ∧ (win1_6.index t (0 : Fin 2) = t.val ∧ win1_6.index t (1 : Fin 2) = 0) :=
  (by decide +kernel : ∀ t : Fin grid1.N, _)

theorem idx_facts (t : Fin cfg1.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S100000x64.Idx → EReal := fun i =>
  Cert.Sage.act (V c main_v32 : S100000x64.Idx → EReal) (fun p => (V c main_v36 : S100000x1.Idx → EReal) (ix2 p (0 : Fin 1)))
    (V c main_arg0 : S100000x64.Idx → EReal) (V c main_v38 : S64x64.Idx → EReal) (V c main_v40 : S64x64.Idx → EReal)
    (fun k => (V c main_v43 : S1x64.Idx → EReal) (ix2 (0 : Fin 1) k)) (i 0) (i 1)

/-- Row r of the summed-messages block at point t is row 2000·t + r of the array. -/
theorem blk_agg (c : Dev nD) (t : Fin cfg1.N) (r : Fin 2000) (k : Fin 64) (R : Fin 100000) (hR : R.val = t.val * 2000 + r.val) :
    (iblk1 V c 0 t : S2000x64.Idx → EReal) (ix2 r k) = (V c main_v32 : S100000x64.Idx → EReal) (ix2 R k) := by
  have e := idx_facts t
  unfold iblk1
  rw [View.read_apply]
  show V c main_v32 _ = V c main_v32 _
  congr 1
  funext a
  apply Fin.ext
  match a with
  | ⟨0, _⟩ => show win1_0.index t 0 * 2000 + 1 * r.val = R.val; rw [e.w0.1, hR]; omega
  | ⟨1, _⟩ => show win1_0.index t 1 * 64 + 1 * k.val = k.val; rw [e.w0.2]; omega

/-- Row r of the count block at point t is row 2000·t + r of the count column. -/
theorem blk_cnt (c : Dev nD) (t : Fin cfg1.N) (r : Fin 2000) (k : Fin 1) (R : Fin 100000) (hR : R.val = t.val * 2000 + r.val) :
    (iblk1 V c 1 t : S2000x1.Idx → EReal) (ix2 r k) = (V c main_v36 : S100000x1.Idx → EReal) (ix2 R k) := by
  have e := idx_facts t
  unfold iblk1
  rw [View.read_apply]
  show V c main_v36 _ = V c main_v36 _
  congr 1
  funext a
  apply Fin.ext
  match a with
  | ⟨0, _⟩ => show win1_1.index t 0 * 2000 + 1 * r.val = R.val; rw [e.w1.1, hR]; omega
  | ⟨1, _⟩ => show win1_1.index t 1 * 1 + 1 * k.val = k.val; rw [e.w1.2]; omega

/-- Row r of the destination-features block at point t is row 2000·t + r of the array. -/
theorem blk_xd (c : Dev nD) (t : Fin cfg1.N) (r : Fin 2000) (k : Fin 64) (R : Fin 100000) (hR : R.val = t.val * 2000 + r.val) :
    (iblk1 V c 2 t : S2000x64.Idx → EReal) (ix2 r k) = (V c main_arg0 : S100000x64.Idx → EReal) (ix2 R k) := by
  have e := idx_facts t
  unfold iblk1
  rw [View.read_apply]
  show V c main_arg0 _ = V c main_arg0 _
  congr 1
  funext a
  apply Fin.ext
  match a with
  | ⟨0, _⟩ => show win1_2.index t 0 * 2000 + 1 * r.val = R.val; rw [e.w2.1, hR]; omega
  | ⟨1, _⟩ => show win1_2.index t 1 * 64 + 1 * k.val = k.val; rw [e.w2.2]; omega

/-- The first weight matrix is shown whole at every point. -/
theorem blk_wl (c : Dev nD) (t : Fin cfg1.N) (a' : Fin 64) (k : Fin 64) :
    (iblk1 V c 3 t : S64x64.Idx → EReal) (ix2 a' k) = (V c main_v38 : S64x64.Idx → EReal) (ix2 a' k) := by
  have e := idx_facts t
  unfold iblk1
  rw [View.read_apply]
  show V c main_v38 _ = V c main_v38 _
  congr 1
  funext a
  apply Fin.ext
  match a with
  | ⟨0, _⟩ => show win1_3.index t 0 * 64 + 1 * a'.val = a'.val; rw [e.w3.1]; omega
  | ⟨1, _⟩ => show win1_3.index t 1 * 64 + 1 * k.val = k.val; rw [e.w3.2]; omega

/-- The second weight matrix is shown whole at every point. -/
theorem blk_wr (c : Dev nD) (t : Fin cfg1.N) (a' : Fin 64) (k : Fin 64) :
    (iblk1 V c 4 t : S64x64.Idx → EReal) (ix2 a' k) = (V c main_v40 : S64x64.Idx → EReal) (ix2 a' k) := by
  have e := idx_facts t
  unfold iblk1
  rw [View.read_apply]
  show V c main_v40 _ = V c main_v40 _
  congr 1
  funext a
  apply Fin.ext
  match a with
  | ⟨0, _⟩ => show win1_4.index t 0 * 64 + 1 * a'.val = a'.val; rw [e.w4.1]; omega
  | ⟨1, _⟩ => show win1_4.index t 1 * 64 + 1 * k.val = k.val; rw [e.w4.2]; omega

/-- The bias row is shown whole at every point. -/
theorem blk_b (c : Dev nD) (t : Fin cfg1.N) (a' : Fin 1) (k : Fin 64) :
    (iblk1 V c 5 t : S1x64.Idx → EReal) (ix2 a' k) = (V c main_v43 : S1x64.Idx → EReal) (ix2 a' k) := by
  have e := idx_facts t
  unfold iblk1
  rw [View.read_apply]
  show V c main_v43 _ = V c main_v43 _
  congr 1
  funext a
  apply Fin.ext
  match a with
  | ⟨0, _⟩ => show win1_5.index t 0 * 1 + 1 * a'.val = a'.val; rw [e.w5.1]; omega
  | ⟨1, _⟩ => show win1_5.index t 1 * 64 + 1 * k.val = k.val; rw [e.w5.2]; omega

/-- Entry (r, k) of the result block at point t sits at (2000·t + r, k) of the result array. -/
theorem emb_out (t : Fin cfg1.N) (r : Fin 2000) (k : Fin 64) (R : Fin 100000) (hR : R.val = t.val * 2000 + r.val) :
    ((cfg1.win 6).blk t).view.emb (ix2 r k) = (ix2 R k : S100000x64.Idx) := by
  have e := idx_facts t
  funext a
  apply Fin.ext
  match a with
  | ⟨0, _⟩ => show win1_6.index t 0 * 2000 + 1 * r.val = R.val; rw [e.w6.1, hR]; omega
  | ⟨1, _⟩ => show win1_6.index t 1 * 64 + 1 * k.val = k.val; rw [e.w6.2]; omega

/-- What grid point t writes back is block t of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 50 := lt_of_lt_of_eq t.isLt N_1
  have hr : r.val < 2000 := r.isLt
  rw [View.read_apply, emb_out t r k ⟨t.val * 2000 + r.val, by omega⟩ rfl]
  refine (Cert.KernelIdeal.Pay.pay_act1 _ _ _ _ _ _ r k).trans ?_
  exact Cert.Sage.act_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg1.N) (i : S100000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v44).slice (win1_6.rect t)).set ↔ _
  rw [View.set_slice_whole, Rect.mem_set_unit]
  exact Iff.rfl

/-- After the launch the result array is `G`: row R is covered by point R / 2000. -/
theorem final (c : Dev nD) : (dat1 V c).arrAt 6 cfg1.N = G V c :=
  (dat1 V c).arrAt_eq_of_cover 6 (G V c) (fun t _ => flushed_eq V c t) fun i => by
    have hi0 : (i 0).val < 100000 := (i 0).isLt
    have hi1 : (i 1).val < 64 := (i 1).isLt
    have hN : cfg1.N = 50 := N_1
    have e := idx_facts (⟨(i 0).val / 2000, by rw [hN]; omega⟩ : Fin cfg1.N)
    refine ⟨⟨(i 0).val / 2000, by rw [hN]; omega⟩, flush1_6 _, ?_⟩
    rw [mem_blk]
    intro a
    match a with
    | ⟨0, _⟩ =>
      show win1_6.index _ 0 * 2000 ≤ (i 0).val ∧ (i 0).val < win1_6.index _ 0 * 2000 + 2000
      rw [e.w6.1]
      show (i 0).val / 2000 * 2000 ≤ (i 0).val ∧ (i 0).val < (i 0).val / 2000 * 2000 + 2000
      omega
    | ⟨1, _⟩ =>
      show win1_6.index _ 1 * 64 ≤ (i 1).val ∧ (i 1).val < win1_6.index _ 1 * 64 + 64
      rw [e.w6.2]
      omega

end Cert.KernelIdeal.Reg1

end
-- ==== Proof.Region0.lean ====
/-
  Launch 0: one layer over 20000 destination rows, 10 grid points of 2000 rows each.

  Grid point t reads rows 2000·t … 2000·t + 1999 of the summed messages, of the count column and of the destination
  features, and the whole weight matrices and bias row; it writes the same rows of the result. What it writes at
  (r, c) is the layer formula at row 2000·t + r, which reads only that row of the three row-blocked arrays. The 10
  blocks tile the result array, so after the launch the result array is the layer formula of the arrays the launch
  found, at every entry.
-/
import proofs.«153663_j21818433863799_1_alg».proof.Proof.Gen.KernelIdeal.Frame
import proofs.«153663_j21818433863799_1_alg».proof.Proof.Payload
import Idealize.ShloMosaic.Lib.Pipeline.Value

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window shows at grid point `t`: block row t for the row-blocked windows, block (0, 0) for the rest. -/
structure IdxFacts (t : Fin cfg0.N) : Prop where
  w0 : win0_0.index t (0 : Fin 2) = t.val ∧ win0_0.index t (1 : Fin 2) = 0
  w1 : win0_1.index t (0 : Fin 2) = t.val ∧ win0_1.index t (1 : Fin 2) = 0
  w2 : win0_2.index t (0 : Fin 2) = t.val ∧ win0_2.index t (1 : Fin 2) = 0
  w3 : win0_3.index t (0 : Fin 2) = 0 ∧ win0_3.index t (1 : Fin 2) = 0
  w4 : win0_4.index t (0 : Fin 2) = 0 ∧ win0_4.index t (1 : Fin 2) = 0
  w5 : win0_5.index t (0 : Fin 2) = 0 ∧ win0_5.index t (1 : Fin 2) = 0
  w6 : win0_6.index t (0 : Fin 2) = t.val ∧ win0_6.index t (1 : Fin 2) = 0

theorem idx_facts_all : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = t.val ∧ win0_6.index t (1 : Fin 2) = 0) :=
  (by decide +kernel : ∀ t : Fin grid0.N, _)

theorem idx_facts (t : Fin cfg0.N) : IdxFacts t := by
  obtain ⟨h0, h1, h2, h3, h4, h5, h6⟩ := idx_facts_all t
  exact ⟨h0, h1, h2, h3, h4, h5, h6⟩

/-- The result array the launch leaves, as one function of the arrays it found. -/
def G (c : Dev nD) : S20000x64.Idx → EReal := fun i =>
  Cert.Sage.act (V c main_v10 : S20000x64.Idx → EReal) (fun p => (V c main_v14 : S20000x1.Idx → EReal) (ix2 p (0 : Fin 1)))
    (V c main_arg1 : S20000x64.Idx → EReal) (V c main_v16 : S64x64.Idx → EReal) (V c main_v18 : S64x64.Idx → EReal)
    (fun k => (V c main_v21 : S1x64.Idx → EReal) (ix2 (0 : Fin 1) k)) (i 0) (i 1)

/-- Row r of the summed-messages block at point t is row 2000·t + r of the array. -/
theorem blk_agg (c : Dev nD) (t : Fin cfg0.N) (r : Fin 2000) (k : Fin 64) (R : Fin 20000) (hR : R.val = t.val * 2000 + r.val) :
    (iblk0 V c 0 t : S2000x64.Idx → EReal) (ix2 r k) = (V c main_v10 : S20000x64.Idx → EReal) (ix2 R k) := by
  have e := idx_facts t
  unfold iblk0
  rw [View.read_apply]
  show V c main_v10 _ = V c main_v10 _
  congr 1
  funext a
  apply Fin.ext
  match a with
  | ⟨0, _⟩ => show win0_0.index t 0 * 2000 + 1 * r.val = R.val; rw [e.w0.1, hR]; omega
  | ⟨1, _⟩ => show win0_0.index t 1 * 64 + 1 * k.val = k.val; rw [e.w0.2]; omega

/-- Row r of the count block at point t is row 2000·t + r of the count column. -/
theorem blk_cnt (c : Dev nD) (t : Fin cfg0.N) (r : Fin 2000) (k : Fin 1) (R : Fin 20000) (hR : R.val = t.val * 2000 + r.val) :
    (iblk0 V c 1 t : S2000x1.Idx → EReal) (ix2 r k) = (V c main_v14 : S20000x1.Idx → EReal) (ix2 R k) := by
  have e := idx_facts t
  unfold iblk0
  rw [View.read_apply]
  show V c main_v14 _ = V c main_v14 _
  congr 1
  funext a
  apply Fin.ext
  match a with
  | ⟨0, _⟩ => show win0_1.index t 0 * 2000 + 1 * r.val = R.val; rw [e.w1.1, hR]; omega
  | ⟨1, _⟩ => show win0_1.index t 1 * 1 + 1 * k.val = k.val; rw [e.w1.2]; omega

/-- Row r of the destination-features block at point t is row 2000·t + r of the array. -/
theorem blk_xd (c : Dev nD) (t : Fin cfg0.N) (r : Fin 2000) (k : Fin 64) (R : Fin 20000) (hR : R.val = t.val * 2000 + r.val) :
    (iblk0 V c 2 t : S2000x64.Idx → EReal) (ix2 r k) = (V c main_arg1 : S20000x64.Idx → EReal) (ix2 R k) := by
  have e := idx_facts t
  unfold iblk0
  rw [View.read_apply]
  show V c main_arg1 _ = V c main_arg1 _
  congr 1
  funext a
  apply Fin.ext
  match a with
  | ⟨0, _⟩ => show win0_2.index t 0 * 2000 + 1 * r.val = R.val; rw [e.w2.1, hR]; omega
  | ⟨1, _⟩ => show win0_2.index t 1 * 64 + 1 * k.val = k.val; rw [e.w2.2]; omega

/-- The first weight matrix is shown whole at every point. -/
theorem blk_wl (c : Dev nD) (t : Fin cfg0.N) (a' : Fin 64) (k : Fin 64) :
    (iblk0 V c 3 t : S64x64.Idx → EReal) (ix2 a' k) = (V c main_v16 : S64x64.Idx → EReal) (ix2 a' k) := by
  have e := idx_facts t
  unfold iblk0
  rw [View.read_apply]
  show V c main_v16 _ = V c main_v16 _
  congr 1
  funext a
  apply Fin.ext
  match a with
  | ⟨0, _⟩ => show win0_3.index t 0 * 64 + 1 * a'.val = a'.val; rw [e.w3.1]; omega
  | ⟨1, _⟩ => show win0_3.index t 1 * 64 + 1 * k.val = k.val; rw [e.w3.2]; omega

/-- The second weight matrix is shown whole at every point. -/
theorem blk_wr (c : Dev nD) (t : Fin cfg0.N) (a' : Fin 64) (k : Fin 64) :
    (iblk0 V c 4 t : S64x64.Idx → EReal) (ix2 a' k) = (V c main_v18 : S64x64.Idx → EReal) (ix2 a' k) := by
  have e := idx_facts t
  unfold iblk0
  rw [View.read_apply]
  show V c main_v18 _ = V c main_v18 _
  congr 1
  funext a
  apply Fin.ext
  match a with
  | ⟨0, _⟩ => show win0_4.index t 0 * 64 + 1 * a'.val = a'.val; rw [e.w4.1]; omega
  | ⟨1, _⟩ => show win0_4.index t 1 * 64 + 1 * k.val = k.val; rw [e.w4.2]; omega

/-- The bias row is shown whole at every point. -/
theorem blk_b (c : Dev nD) (t : Fin cfg0.N) (a' : Fin 1) (k : Fin 64) :
    (iblk0 V c 5 t : S1x64.Idx → EReal) (ix2 a' k) = (V c main_v21 : S1x64.Idx → EReal) (ix2 a' k) := by
  have e := idx_facts t
  unfold iblk0
  rw [View.read_apply]
  show V c main_v21 _ = V c main_v21 _
  congr 1
  funext a
  apply Fin.ext
  match a with
  | ⟨0, _⟩ => show win0_5.index t 0 * 1 + 1 * a'.val = a'.val; rw [e.w5.1]; omega
  | ⟨1, _⟩ => show win0_5.index t 1 * 64 + 1 * k.val = k.val; rw [e.w5.2]; omega

/-- Entry (r, k) of the result block at point t sits at (2000·t + r, k) of the result array. -/
theorem emb_out (t : Fin cfg0.N) (r : Fin 2000) (k : Fin 64) (R : Fin 20000) (hR : R.val = t.val * 2000 + r.val) :
    ((cfg0.win 6).blk t).view.emb (ix2 r k) = (ix2 R k : S20000x64.Idx) := by
  have e := idx_facts t
  funext a
  apply Fin.ext
  match a with
  | ⟨0, _⟩ => show win0_6.index t 0 * 2000 + 1 * r.val = R.val; rw [e.w6.1, hR]; omega
  | ⟨1, _⟩ => show win0_6.index t 1 * 64 + 1 * k.val = k.val; rw [e.w6.2]; omega

/-- What grid point t writes back is block t of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x1) hz, View.ld_unit_zero (S := S2000x64) hz, View.ld_unit_zero (S := S64x64) hz, View.ld_unit_zero (S := S1x64) hz]
  funext j
  obtain ⟨r, k, rfl⟩ : ∃ (r : Fin 2000) (k : Fin 64), j = ix2 r k := ⟨j 0, j 1, eq_ix2 j⟩
  have ht : t.val < 10 := lt_of_lt_of_eq t.isLt N_0
  have hr : r.val < 2000 := r.isLt
  rw [View.read_apply, emb_out t r k ⟨t.val * 2000 + r.val, by omega⟩ rfl]
  refine (Cert.KernelIdeal.Pay.pay_act0 _ _ _ _ _ _ r k).trans ?_
  exact Cert.Sage.act_congr (fun k' => blk_agg V c t r k' _ rfl) (blk_cnt V c t r 0 _ rfl) (fun k' => blk_xd V c t r k' _ rfl)
    (fun k' => blk_wl V c t k' k) (fun k' => blk_wr V c t k' k) (blk_b V c t 0 k)

/-- An entry of the result array is in point t's block when its row is among the block's 2000 rows. -/
theorem mem_blk (t : Fin cfg0.N) (i : S20000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v22).slice (win0_6.rect t)).set ↔ _
  rw [View.set_slice_whole, Rect.mem_set_unit]
  exact Iff.rfl

/-- After the launch the result array is `G`: row R is covered by point R / 2000. -/
theorem final (c : Dev nD) : (dat0 V c).arrAt 6 cfg0.N = G V c :=
  (dat0 V c).arrAt_eq_of_cover 6 (G V c) (fun t _ => flushed_eq V c t) fun i => by
    have hi0 : (i 0).val < 20000 := (i 0).isLt
    have hi1 : (i 1).val < 64 := (i 1).isLt
    have hN : cfg0.N = 10 := N_0
    have e := idx_facts (⟨(i 0).val / 2000, by rw [hN]; omega⟩ : Fin cfg0.N)
    refine ⟨⟨(i 0).val / 2000, by rw [hN]; omega⟩, flush0_6 _, ?_⟩
    rw [mem_blk]
    intro a
    match a with
    | ⟨0, _⟩ =>
      show win0_6.index _ 0 * 2000 ≤ (i 0).val ∧ (i 0).val < win0_6.index _ 0 * 2000 + 2000
      rw [e.w6.1]
      show (i 0).val / 2000 * 2000 ≤ (i 0).val ∧ (i 0).val < (i 0).val / 2000 * 2000 + 2000
      omega
    | ⟨1, _⟩ =>
      show win0_6.index _ 1 * 64 ≤ (i 1).val ∧ (i 1).val < win0_6.index _ 1 * 64 + 64
      rw [e.w6.2]
      omega

end Cert.KernelIdeal.Reg0

end
-- ==== Proof.Stage0.lean ====
/-
  Launch 0 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region0
import proofs.«153663_j21818433863799_1_alg».proof.Proof.RefStage
import proofs.«153663_j21818433863799_1_alg».proof.Proof.LibHostLayout
import Idealize.ShloMosaic.Lib.StableHlo.Run
import Idealize.ShloMosaic.Lib.ValueLayout

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
theorem W0_main_arg0 (c : Dev nD) : W0 m ρ c (Proc.devRef .tc main_arg0) = (m ((c : Thread nD τ).loc main_arg0)) := rfl
theorem W0_main_arg1 (c : Dev nD) : W0 m ρ c (Proc.devRef .tc main_arg1) = (m ((c : Thread nD τ).loc main_arg1)) := rfl
theorem W0_main_arg2 (c : Dev nD) : W0 m ρ c (Proc.devRef .tc main_arg2) = (m ((c : Thread nD τ).loc main_arg2)) := rfl
theorem W0_main_arg3 (c : Dev nD) : W0 m ρ c (Proc.devRef .tc main_arg3) = (m ((c : Thread nD τ).loc main_arg3)) := rfl
theorem W0_main_arg4 (c : Dev nD) : W0 m ρ c (Proc.devRef .tc main_arg4) = (m ((c : Thread nD τ).loc main_arg4)) := rfl
theorem W0_main_arg5 (c : Dev nD) : W0 m ρ c (Proc.devRef .tc main_arg5) = (m ((c : Thread nD τ).loc main_arg5)) := rfl
theorem W0_main_arg6 (c : Dev nD) : W0 m ρ c (Proc.devRef .tc main_arg6) = (m ((c : Thread nD τ).loc main_arg6)) := rfl
theorem W0_main_arg7 (c : Dev nD) : W0 m ρ c (Proc.devRef .tc main_arg7) = (m ((c : Thread nD τ).loc main_arg7)) := rfl
theorem W0_main_arg8 (c : Dev nD) : W0 m ρ c (Proc.devRef .tc main_arg8) = (m ((c : Thread nD τ).loc main_arg8)) := rfl
theorem W0_main_arg9 (c : Dev nD) : W0 m ρ c (Proc.devRef .tc main_arg9) = (m ((c : Thread nD τ).loc main_arg9)) := rfl
theorem W0_main_arg10 (c : Dev nD) : W0 m ρ c (Proc.devRef .tc main_arg10) = (m ((c : Thread nD τ).loc main_arg10)) := rfl

/-! ## Buffers the host operations before launch 0 leave alone -/

/-- The vector of ones every count is scattered from. -/
theorem W1_main_v0 (c : Dev nD) : W1 m ρ c (Proc.devRef .tc main_v0) = (val_main_v16 (F := Ideal)) := by
  show StableHlo.after hostOps0 (W0 m ρ c) (Proc.devRef .tc main_v0) = _
  after_results_simp
  rfl

theorem W1_main_arg0 (c : Dev nD) : W1 m ρ c (Proc.devRef .tc main_arg0) = (m ((c : Thread nD τ).loc main_arg0)) :=
  (StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg0 m ρ c)

theorem W1_main_arg1 (c : Dev nD) : W1 m ρ c (Proc.devRef .tc main_arg1) = (m ((c : Thread nD τ).loc main_arg1)) :=
  (StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg1 m ρ c)

theorem W1_main_arg2 (c : Dev nD) : W1 m ρ c (Proc.devRef .tc main_arg2) = (m ((c : Thread nD τ).loc main_arg2)) :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg2 m ρ c)

theorem W1_main_arg3 (c : Dev nD) : W1 m ρ c (Proc.devRef .tc main_arg3) = (m ((c : Thread nD τ).loc main_arg3)) :=
  (StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg3 m ρ c)

theorem W1_main_arg4 (c : Dev nD) : W1 m ρ c (Proc.devRef .tc main_arg4) = (m ((c : Thread nD τ).loc main_arg4)) :=
  (StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg4 m ρ c)

theorem W1_main_arg5 (c : Dev nD) : W1 m ρ c (Proc.devRef .tc main_arg5) = (m ((c : Thread nD τ).loc main_arg5)) :=
  (StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg5 m ρ c)

theorem W1_main_arg6 (c : Dev nD) : W1 m ρ c (Proc.devRef .tc main_arg6) = (m ((c : Thread nD τ).loc main_arg6)) :=
  (StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg6 m ρ c)

theorem W1_main_arg7 (c : Dev nD) : W1 m ρ c (Proc.devRef .tc main_arg7) = (m ((c : Thread nD τ).loc main_arg7)) :=
  (StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg7 m ρ c)

theorem W1_main_arg8 (c : Dev nD) : W1 m ρ c (Proc.devRef .tc main_arg8) = (m ((c : Thread nD τ).loc main_arg8)) :=
  (StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg8 m ρ c)

theorem W1_main_arg9 (c : Dev nD) : W1 m ρ c (Proc.devRef .tc main_arg9) = (m ((c : Thread nD τ).loc main_arg9)) :=
  (StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg9 m ρ c)

theorem W1_main_arg10 (c : Dev nD) : W1 m ρ c (Proc.devRef .tc main_arg10) = (m ((c : Thread nD τ).loc main_arg10)) :=
  (StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_main_arg10 m ρ c)

/-! ## The launch's input arrays -/

/-- The summed messages: the source features gathered along the edges and added onto their destinations. -/
theorem in0_agg (c : Dev nD) : (V1 m ρ c main_v10 : S20000x64.Idx → EReal) = (val_main_v15 (F := Ideal) (m ((c : Thread nD τ).loc main_arg0)) (m ((c : Thread nD τ).loc main_arg5)) (m ((c : Thread nD τ).loc main_arg6))) := by
  show StableHlo.after hostOps0 (W0 m ρ c) (Proc.devRef .tc main_v10) = _
  after_results_simp
  rfl

/-- The count column: ones added onto the edges' destinations, laid out as a column. -/
theorem in0_cntcol (c : Dev nD) : (V1 m ρ c main_v14 : S20000x1.Idx → EReal) = broadcastInDim S20000x1 ![0] bcast_S20000_S20000x1_0 (val_main_v19 (F := Ideal) (m ((c : Thread nD τ).loc main_arg6))) := by
  show StableHlo.after hostOps0 (W0 m ρ c) (Proc.devRef .tc main_v14) = _
  after_results_simp
  rfl

theorem in0_cnt (c : Dev nD) (q : Fin 20000) : (V1 m ρ c main_v14 : S20000x1.Idx → EReal) (ix2 q (0 : Fin 1)) = (val_main_v19 (F := Ideal) (m ((c : Thread nD τ).loc main_arg6))) (ix1 q) := by
  rw [in0_cntcol m ρ c]
  exact Cert.HostLayout.broadcastInDim_a_a1_apply _ _ q 0

/-- The destination features: the array as the earlier segments left it. -/
theorem in0_xd (c : Dev nD) : (V1 m ρ c main_arg1 : S20000x64.Idx → EReal) = (m ((c : Thread nD τ).loc main_arg1)) :=
  W1_main_arg1 m ρ c

/-- The first weight matrix of the layer. -/
theorem in0_wl (c : Dev nD) : (V1 m ρ c main_v16 : S64x64.Idx → EReal) = (val_main_v1 (F := Ideal) (m ((c : Thread nD τ).loc main_arg2))) := by
  show StableHlo.after hostOps0 (W0 m ρ c) (Proc.devRef .tc main_v16) = _
  after_results_simp
  rfl

/-- The second weight matrix of the layer. -/
theorem in0_wr (c : Dev nD) : (V1 m ρ c main_v18 : S64x64.Idx → EReal) = (val_main_v3 (F := Ideal) (m ((c : Thread nD τ).loc main_arg3))) := by
  show StableHlo.after hostOps0 (W0 m ρ c) (Proc.devRef .tc main_v18) = _
  after_results_simp
  rfl

/-- The bias, laid out as a row. -/
theorem in0_brow (c : Dev nD) : (V1 m ρ c main_v21 : S1x64.Idx → EReal) = shapeCast S1x64 (val_main_v5 (F := Ideal) (m ((c : Thread nD τ).loc main_arg4))) shapeCasts_S64_S1x64 := by
  show StableHlo.after hostOps0 (W0 m ρ c) (Proc.devRef .tc main_v21) = _
  after_results_simp
  rfl

theorem in0_b (c : Dev nD) (k : Fin 64) : (V1 m ρ c main_v21 : S1x64.Idx → EReal) (ix2 (0 : Fin 1) k) = (val_main_v5 (F := Ideal) (m ((c : Thread nD τ).loc main_arg4))) (ix1 k) := by
  rw [in0_brow m ρ c]
  exact shapeCast_a_1a_apply _ _ 0 k

/-! ## The launch's result array -/

/-- After launch 0 its result array holds the reference's layer stage. -/
theorem W2_main_v22 (c : Dev nD) : W2 m ρ c (Proc.devRef .tc main_v22) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W2_arr m ρ c 6).trans ?_
  refine (Cert.KernelIdeal.Reg0.final (V1 m ρ) c).trans ?_
  funext i
  obtain ⟨q, k, rfl⟩ : ∃ (q : Fin 20000) (k : Fin 64), i = ix2 q k := ⟨i 0, i 1, eq_ix2 i⟩
  refine Eq.trans ?_ (Cert.RefStage.ref0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) q k).symm
  show Cert.Sage.act _ _ _ _ _ _ q k = _
  exact Cert.Sage.act_congr (fun k' => congrFun (in0_agg m ρ c) _) (in0_cnt m ρ c q) (fun k' => congrFun (in0_xd m ρ c) _)
    (fun k' => congrFun (in0_wl m ρ c) _) (fun k' => congrFun (in0_wr m ρ c) _) (in0_b m ρ c k)

/-! ## Buffers launch 0 leaves alone -/

theorem W2_main_arg0 (c : Dev nD) : W2 m ρ c (Proc.devRef .tc main_arg0) = (m ((c : Thread nD τ).loc main_arg0)) :=
  (W2_of_ne m ρ c main_arg0 (by decide)).trans (W1_main_arg0 m ρ c)

theorem W2_main_arg1 (c : Dev nD) : W2 m ρ c (Proc.devRef .tc main_arg1) = (m ((c : Thread nD τ).loc main_arg1)) :=
  (W2_arr m ρ c 2).trans (((dat0 (V1 m ρ) c).arrAt_in 2 rfl _).trans ((A_eq0 (V1 m ρ) c 2).trans (W1_main_arg1 m ρ c)))

theorem W2_main_arg2 (c : Dev nD) : W2 m ρ c (Proc.devRef .tc main_arg2) = (m ((c : Thread nD τ).loc main_arg2)) :=
  (W2_of_ne m ρ c main_arg2 (by decide)).trans (W1_main_arg2 m ρ c)

theorem W2_main_arg3 (c : Dev nD) : W2 m ρ c (Proc.devRef .tc main_arg3) = (m ((c : Thread nD τ).loc main_arg3)) :=
  (W2_of_ne m ρ c main_arg3 (by decide)).trans (W1_main_arg3 m ρ c)

theorem W2_main_arg4 (c : Dev nD) : W2 m ρ c (Proc.devRef .tc main_arg4) = (m ((c : Thread nD τ).loc main_arg4)) :=
  (W2_of_ne m ρ c main_arg4 (by decide)).trans (W1_main_arg4 m ρ c)

theorem W2_main_arg5 (c : Dev nD) : W2 m ρ c (Proc.devRef .tc main_arg5) = (m ((c : Thread nD τ).loc main_arg5)) :=
  (W2_of_ne m ρ c main_arg5 (by decide)).trans (W1_main_arg5 m ρ c)

theorem W2_main_arg6 (c : Dev nD) : W2 m ρ c (Proc.devRef .tc main_arg6) = (m ((c : Thread nD τ).loc main_arg6)) :=
  (W2_of_ne m ρ c main_arg6 (by decide)).trans (W1_main_arg6 m ρ c)

theorem W2_main_arg7 (c : Dev nD) : W2 m ρ c (Proc.devRef .tc main_arg7) = (m ((c : Thread nD τ).loc main_arg7)) :=
  (W2_of_ne m ρ c main_arg7 (by decide)).trans (W1_main_arg7 m ρ c)

theorem W2_main_arg8 (c : Dev nD) : W2 m ρ c (Proc.devRef .tc main_arg8) = (m ((c : Thread nD τ).loc main_arg8)) :=
  (W2_of_ne m ρ c main_arg8 (by decide)).trans (W1_main_arg8 m ρ c)

theorem W2_main_arg9 (c : Dev nD) : W2 m ρ c (Proc.devRef .tc main_arg9) = (m ((c : Thread nD τ).loc main_arg9)) :=
  (W2_of_ne m ρ c main_arg9 (by decide)).trans (W1_main_arg9 m ρ c)

theorem W2_main_arg10 (c : Dev nD) : W2 m ρ c (Proc.devRef .tc main_arg10) = (m ((c : Thread nD τ).loc main_arg10)) :=
  (W2_of_ne m ρ c main_arg10 (by decide)).trans (W1_main_arg10 m ρ c)

theorem W2_main_v0 (c : Dev nD) : W2 m ρ c (Proc.devRef .tc main_v0) = (val_main_v16 (F := Ideal)) :=
  (W2_of_ne m ρ c main_v0 (by decide)).trans (W1_main_v0 m ρ c)

end Cert.KernelIdeal.Chain

end
-- ==== Proof.Stage1.lean ====
/-
  Launch 1 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region1
import proofs.«153663_j21818433863799_1_alg».proof.Proof.RefStage
import proofs.«153663_j21818433863799_1_alg».proof.Proof.LibHostLayout
import Idealize.ShloMosaic.Lib.StableHlo.Run
import Idealize.ShloMosaic.Lib.ValueLayout
import proofs.«153663_j21818433863799_1_alg».proof.Proof.Stage0

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-! ## Buffers the host operations before launch 1 leave alone -/

theorem W3_main_arg0 (c : Dev nD) : W3 m ρ c (Proc.devRef .tc main_arg0) = (m ((c : Thread nD τ).loc main_arg0)) :=
  (StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg0 m ρ c)

theorem W3_main_arg2 (c : Dev nD) : W3 m ρ c (Proc.devRef .tc main_arg2) = (m ((c : Thread nD τ).loc main_arg2)) :=
  (StableHlo.after_of_forall_not_mem (b := Proc.devRef .tc main_arg2) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg2 m ρ c)

theorem W3_main_arg3 (c : Dev nD) : W3 m ρ c (Proc.devRef .tc main_arg3) = (m ((c : Thread nD τ).loc main_arg3)) :=
  (StableHlo.after_of_forall_not_mem (b := Proc.devRef .tc main_arg3) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg3 m ρ c)

theorem W3_main_arg4 (c : Dev nD) : W3 m ρ c (Proc.devRef .tc main_arg4) = (m ((c : Thread nD τ).loc main_arg4)) :=
  (StableHlo.after_of_forall_not_mem (b := Proc.devRef .tc main_arg4) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg4 m ρ c)

theorem W3_main_arg5 (c : Dev nD) : W3 m ρ c (Proc.devRef .tc main_arg5) = (m ((c : Thread nD τ).loc main_arg5)) :=
  (StableHlo.after_of_forall_not_mem (b := Proc.devRef .tc main_arg5) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg5 m ρ c)

theorem W3_main_arg6 (c : Dev nD) : W3 m ρ c (Proc.devRef .tc main_arg6) = (m ((c : Thread nD τ).loc main_arg6)) :=
  (StableHlo.after_of_forall_not_mem (b := Proc.devRef .tc main_arg6) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg6 m ρ c)

theorem W3_main_arg7 (c : Dev nD) : W3 m ρ c (Proc.devRef .tc main_arg7) = (m ((c : Thread nD τ).loc main_arg7)) :=
  (StableHlo.after_of_forall_not_mem (b := Proc.devRef .tc main_arg7) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg7 m ρ c)

theorem W3_main_arg8 (c : Dev nD) : W3 m ρ c (Proc.devRef .tc main_arg8) = (m ((c : Thread nD τ).loc main_arg8)) :=
  (StableHlo.after_of_forall_not_mem (b := Proc.devRef .tc main_arg8) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg8 m ρ c)

theorem W3_main_arg9 (c : Dev nD) : W3 m ρ c (Proc.devRef .tc main_arg9) = (m ((c : Thread nD τ).loc main_arg9)) :=
  (StableHlo.after_of_forall_not_mem (b := Proc.devRef .tc main_arg9) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg9 m ρ c)

theorem W3_main_arg10 (c : Dev nD) : W3 m ρ c (Proc.devRef .tc main_arg10) = (m ((c : Thread nD τ).loc main_arg10)) :=
  (StableHlo.after_of_forall_not_mem (b := Proc.devRef .tc main_arg10) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_arg10 m ρ c)

theorem W3_main_v0 (c : Dev nD) : W3 m ρ c (Proc.devRef .tc main_v0) = (val_main_v16 (F := Ideal)) :=
  (StableHlo.after_of_forall_not_mem (b := Proc.devRef .tc main_v0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v0 m ρ c)

theorem W3_main_v22 (c : Dev nD) : W3 m ρ c (Proc.devRef .tc main_v22) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (StableHlo.after_of_forall_not_mem (b := Proc.devRef .tc main_v22) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_main_v22 m ρ c)

/-! ## The launch's input arrays -/

/-- The summed messages: the source features gathered along the edges and added onto their destinations. -/
theorem in1_agg (c : Dev nD) : (V3 m ρ c main_v32 : S100000x64.Idx → EReal) = (val_main_v46 (F := Ideal) (m ((c : Thread nD τ).loc main_arg1)) (m ((c : Thread nD τ).loc main_arg7)) (m ((c : Thread nD τ).loc main_arg8))) := by
  show StableHlo.after hostOps1 (W2 m ρ c) (Proc.devRef .tc main_v32) = _
  after_results_simp
  rw [W2_main_arg1 m ρ c, W2_main_arg7 m ρ c, W2_main_arg8 m ρ c]
  rfl

/-- The count column: ones added onto the edges' destinations, laid out as a column. -/
theorem in1_cntcol (c : Dev nD) : (V3 m ρ c main_v36 : S100000x1.Idx → EReal) = broadcastInDim S100000x1 ![0] bcast_S100000_S100000x1_0 (val_main_v50 (F := Ideal) (m ((c : Thread nD τ).loc main_arg8))) := by
  show StableHlo.after hostOps1 (W2 m ρ c) (Proc.devRef .tc main_v36) = _
  after_results_simp
  rw [W2_main_arg8 m ρ c, W2_main_v0 m ρ c]
  rfl

theorem in1_cnt (c : Dev nD) (q : Fin 100000) : (V3 m ρ c main_v36 : S100000x1.Idx → EReal) (ix2 q (0 : Fin 1)) = (val_main_v50 (F := Ideal) (m ((c : Thread nD τ).loc main_arg8))) (ix1 q) := by
  rw [in1_cntcol m ρ c]
  exact Cert.HostLayout.broadcastInDim_a_a1_apply _ _ q 0

/-- The destination features: the array as the earlier segments left it. -/
theorem in1_xd (c : Dev nD) : (V3 m ρ c main_arg0 : S100000x64.Idx → EReal) = (m ((c : Thread nD τ).loc main_arg0)) :=
  W3_main_arg0 m ρ c

/-- The first weight matrix of the layer. -/
theorem in1_wl (c : Dev nD) : (V3 m ρ c main_v38 : S64x64.Idx → EReal) = (val_main_v32 (F := Ideal) (m ((c : Thread nD τ).loc main_arg2))) := by
  show StableHlo.after hostOps1 (W2 m ρ c) (Proc.devRef .tc main_v38) = _
  after_results_simp
  rw [W2_main_arg2 m ρ c]
  rfl

/-- The second weight matrix of the layer. -/
theorem in1_wr (c : Dev nD) : (V3 m ρ c main_v40 : S64x64.Idx → EReal) = (val_main_v34 (F := Ideal) (m ((c : Thread nD τ).loc main_arg3))) := by
  show StableHlo.after hostOps1 (W2 m ρ c) (Proc.devRef .tc main_v40) = _
  after_results_simp
  rw [W2_main_arg3 m ρ c]
  rfl

/-- The bias, laid out as a row. -/
theorem in1_brow (c : Dev nD) : (V3 m ρ c main_v43 : S1x64.Idx → EReal) = shapeCast S1x64 (val_main_v36 (F := Ideal) (m ((c : Thread nD τ).loc main_arg4))) shapeCasts_S64_S1x64 := by
  show StableHlo.after hostOps1 (W2 m ρ c) (Proc.devRef .tc main_v43) = _
  after_results_simp
  rw [W2_main_arg4 m ρ c]
  rfl

theorem in1_b (c : Dev nD) (k : Fin 64) : (V3 m ρ c main_v43 : S1x64.Idx → EReal) (ix2 (0 : Fin 1) k) = (val_main_v36 (F := Ideal) (m ((c : Thread nD τ).loc main_arg4))) (ix1 k) := by
  rw [in1_brow m ρ c]
  exact shapeCast_a_1a_apply _ _ 0 k

/-! ## The launch's result array -/

/-- After launch 1 its result array holds the reference's layer stage. -/
theorem W4_main_v44 (c : Dev nD) : W4 m ρ c (Proc.devRef .tc main_v44) = (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) := by
  refine (W4_arr m ρ c 6).trans ?_
  refine (Cert.KernelIdeal.Reg1.final (V3 m ρ) c).trans ?_
  funext i
  obtain ⟨q, k, rfl⟩ : ∃ (q : Fin 100000) (k : Fin 64), i = ix2 q k := ⟨i 0, i 1, eq_ix2 i⟩
  refine Eq.trans ?_ (Cert.RefStage.ref1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) q k).symm
  show Cert.Sage.act _ _ _ _ _ _ q k = _
  exact Cert.Sage.act_congr (fun k' => congrFun (in1_agg m ρ c) _) (in1_cnt m ρ c q) (fun k' => congrFun (in1_xd m ρ c) _)
    (fun k' => congrFun (in1_wl m ρ c) _) (fun k' => congrFun (in1_wr m ρ c) _) (in1_b m ρ c k)

/-! ## Buffers launch 1 leaves alone -/

theorem W4_main_arg2 (c : Dev nD) : W4 m ρ c (Proc.devRef .tc main_arg2) = (m ((c : Thread nD τ).loc main_arg2)) :=
  (W4_of_ne m ρ c main_arg2 (by decide)).trans (W3_main_arg2 m ρ c)

theorem W4_main_arg3 (c : Dev nD) : W4 m ρ c (Proc.devRef .tc main_arg3) = (m ((c : Thread nD τ).loc main_arg3)) :=
  (W4_of_ne m ρ c main_arg3 (by decide)).trans (W3_main_arg3 m ρ c)

theorem W4_main_arg4 (c : Dev nD) : W4 m ρ c (Proc.devRef .tc main_arg4) = (m ((c : Thread nD τ).loc main_arg4)) :=
  (W4_of_ne m ρ c main_arg4 (by decide)).trans (W3_main_arg4 m ρ c)

theorem W4_main_arg5 (c : Dev nD) : W4 m ρ c (Proc.devRef .tc main_arg5) = (m ((c : Thread nD τ).loc main_arg5)) :=
  (W4_of_ne m ρ c main_arg5 (by decide)).trans (W3_main_arg5 m ρ c)

theorem W4_main_arg6 (c : Dev nD) : W4 m ρ c (Proc.devRef .tc main_arg6) = (m ((c : Thread nD τ).loc main_arg6)) :=
  (W4_of_ne m ρ c main_arg6 (by decide)).trans (W3_main_arg6 m ρ c)

theorem W4_main_arg7 (c : Dev nD) : W4 m ρ c (Proc.devRef .tc main_arg7) = (m ((c : Thread nD τ).loc main_arg7)) :=
  (W4_of_ne m ρ c main_arg7 (by decide)).trans (W3_main_arg7 m ρ c)

theorem W4_main_arg8 (c : Dev nD) : W4 m ρ c (Proc.devRef .tc main_arg8) = (m ((c : Thread nD τ).loc main_arg8)) :=
  (W4_of_ne m ρ c main_arg8 (by decide)).trans (W3_main_arg8 m ρ c)

theorem W4_main_arg9 (c : Dev nD) : W4 m ρ c (Proc.devRef .tc main_arg9) = (m ((c : Thread nD τ).loc main_arg9)) :=
  (W4_of_ne m ρ c main_arg9 (by decide)).trans (W3_main_arg9 m ρ c)

theorem W4_main_arg10 (c : Dev nD) : W4 m ρ c (Proc.devRef .tc main_arg10) = (m ((c : Thread nD τ).loc main_arg10)) :=
  (W4_of_ne m ρ c main_arg10 (by decide)).trans (W3_main_arg10 m ρ c)

theorem W4_main_v0 (c : Dev nD) : W4 m ρ c (Proc.devRef .tc main_v0) = (val_main_v16 (F := Ideal)) :=
  (W4_of_ne m ρ c main_v0 (by decide)).trans (W3_main_v0 m ρ c)

theorem W4_main_v22 (c : Dev nD) : W4 m ρ c (Proc.devRef .tc main_v22) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W4_of_ne m ρ c main_v22 (by decide)).trans (W3_main_v22 m ρ c)

end Cert.KernelIdeal.Chain

end
-- ==== Proof.Stage2.lean ====
/-
  Launch 2 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region2
import proofs.«153663_j21818433863799_1_alg».proof.Proof.RefStage
import proofs.«153663_j21818433863799_1_alg».proof.Proof.LibHostLayout
import Idealize.ShloMosaic.Lib.StableHlo.Run
import Idealize.ShloMosaic.Lib.ValueLayout
import proofs.«153663_j21818433863799_1_alg».proof.Proof.Stage1

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-! ## Buffers the host operations before launch 2 leave alone -/

theorem W5_main_arg2 (c : Dev nD) : W5 m ρ c (Proc.devRef .tc main_arg2) = (m ((c : Thread nD τ).loc main_arg2)) :=
  (StableHlo.after_of_forall_not_mem (b := Proc.devRef .tc main_arg2) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg2 m ρ c)

theorem W5_main_arg3 (c : Dev nD) : W5 m ρ c (Proc.devRef .tc main_arg3) = (m ((c : Thread nD τ).loc main_arg3)) :=
  (StableHlo.after_of_forall_not_mem (b := Proc.devRef .tc main_arg3) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg3 m ρ c)

theorem W5_main_arg4 (c : Dev nD) : W5 m ρ c (Proc.devRef .tc main_arg4) = (m ((c : Thread nD τ).loc main_arg4)) :=
  (StableHlo.after_of_forall_not_mem (b := Proc.devRef .tc main_arg4) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg4 m ρ c)

theorem W5_main_arg5 (c : Dev nD) : W5 m ρ c (Proc.devRef .tc main_arg5) = (m ((c : Thread nD τ).loc main_arg5)) :=
  (StableHlo.after_of_forall_not_mem (b := Proc.devRef .tc main_arg5) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg5 m ρ c)

theorem W5_main_arg6 (c : Dev nD) : W5 m ρ c (Proc.devRef .tc main_arg6) = (m ((c : Thread nD τ).loc main_arg6)) :=
  (StableHlo.after_of_forall_not_mem (b := Proc.devRef .tc main_arg6) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg6 m ρ c)

theorem W5_main_arg7 (c : Dev nD) : W5 m ρ c (Proc.devRef .tc main_arg7) = (m ((c : Thread nD τ).loc main_arg7)) :=
  (StableHlo.after_of_forall_not_mem (b := Proc.devRef .tc main_arg7) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg7 m ρ c)

theorem W5_main_arg8 (c : Dev nD) : W5 m ρ c (Proc.devRef .tc main_arg8) = (m ((c : Thread nD τ).loc main_arg8)) :=
  (StableHlo.after_of_forall_not_mem (b := Proc.devRef .tc main_arg8) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg8 m ρ c)

theorem W5_main_arg9 (c : Dev nD) : W5 m ρ c (Proc.devRef .tc main_arg9) = (m ((c : Thread nD τ).loc main_arg9)) :=
  (StableHlo.after_of_forall_not_mem (b := Proc.devRef .tc main_arg9) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg9 m ρ c)

theorem W5_main_arg10 (c : Dev nD) : W5 m ρ c (Proc.devRef .tc main_arg10) = (m ((c : Thread nD τ).loc main_arg10)) :=
  (StableHlo.after_of_forall_not_mem (b := Proc.devRef .tc main_arg10) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_arg10 m ρ c)

theorem W5_main_v0 (c : Dev nD) : W5 m ρ c (Proc.devRef .tc main_v0) = (val_main_v16 (F := Ideal)) :=
  (StableHlo.after_of_forall_not_mem (b := Proc.devRef .tc main_v0) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v0 m ρ c)

theorem W5_main_v22 (c : Dev nD) : W5 m ρ c (Proc.devRef .tc main_v22) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (StableHlo.after_of_forall_not_mem (b := Proc.devRef .tc main_v22) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v22 m ρ c)

theorem W5_main_v44 (c : Dev nD) : W5 m ρ c (Proc.devRef .tc main_v44) = (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := Proc.devRef .tc main_v44) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_main_v44 m ρ c)

/-! ## The launch's input arrays -/

/-- The summed messages: the source features gathered along the edges and added onto their destinations. -/
theorem in2_agg (c : Dev nD) : (V5 m ρ c main_v54 : S20000x64.Idx → EReal) = (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps2 (W4 m ρ c) (Proc.devRef .tc main_v54) = _
  after_results_simp
  rw [W4_main_v44 m ρ c, W4_main_arg5 m ρ c, W4_main_arg6 m ρ c]
  rfl

/-- The count column: ones added onto the edges' destinations, laid out as a column. -/
theorem in2_cntcol (c : Dev nD) : (V5 m ρ c main_v58 : S20000x1.Idx → EReal) = broadcastInDim S20000x1 ![0] bcast_S20000_S20000x1_0 (val_main_v83 (F := Ideal) (m ((c : Thread nD τ).loc main_arg6))) := by
  show StableHlo.after hostOps2 (W4 m ρ c) (Proc.devRef .tc main_v58) = _
  after_results_simp
  rw [W4_main_arg6 m ρ c, W4_main_v0 m ρ c]
  rfl

theorem in2_cnt (c : Dev nD) (q : Fin 20000) : (V5 m ρ c main_v58 : S20000x1.Idx → EReal) (ix2 q (0 : Fin 1)) = (val_main_v83 (F := Ideal) (m ((c : Thread nD τ).loc main_arg6))) (ix1 q) := by
  rw [in2_cntcol m ρ c]
  exact Cert.HostLayout.broadcastInDim_a_a1_apply _ _ q 0

/-- The destination features: the array as the earlier segments left it. -/
theorem in2_xd (c : Dev nD) : (V5 m ρ c main_v22 : S20000x64.Idx → EReal) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  W5_main_v22 m ρ c

/-- The first weight matrix of the layer. -/
theorem in2_wl (c : Dev nD) : (V5 m ρ c main_v60 : S64x64.Idx → EReal) = (val_main_v65 (F := Ideal) (m ((c : Thread nD τ).loc main_arg2))) := by
  show StableHlo.after hostOps2 (W4 m ρ c) (Proc.devRef .tc main_v60) = _
  after_results_simp
  rw [W4_main_arg2 m ρ c]
  rfl

/-- The second weight matrix of the layer. -/
theorem in2_wr (c : Dev nD) : (V5 m ρ c main_v62 : S64x64.Idx → EReal) = (val_main_v67 (F := Ideal) (m ((c : Thread nD τ).loc main_arg3))) := by
  show StableHlo.after hostOps2 (W4 m ρ c) (Proc.devRef .tc main_v62) = _
  after_results_simp
  rw [W4_main_arg3 m ρ c]
  rfl

/-- The bias, laid out as a row. -/
theorem in2_brow (c : Dev nD) : (V5 m ρ c main_v65 : S1x64.Idx → EReal) = shapeCast S1x64 (val_main_v69 (F := Ideal) (m ((c : Thread nD τ).loc main_arg4))) shapeCasts_S64_S1x64 := by
  show StableHlo.after hostOps2 (W4 m ρ c) (Proc.devRef .tc main_v65) = _
  after_results_simp
  rw [W4_main_arg4 m ρ c]
  rfl

theorem in2_b (c : Dev nD) (k : Fin 64) : (V5 m ρ c main_v65 : S1x64.Idx → EReal) (ix2 (0 : Fin 1) k) = (val_main_v69 (F := Ideal) (m ((c : Thread nD τ).loc main_arg4))) (ix1 k) := by
  rw [in2_brow m ρ c]
  exact shapeCast_a_1a_apply _ _ 0 k

/-! ## The launch's result array -/

/-- After launch 2 its result array holds the reference's layer stage. -/
theorem W6_main_v66 (c : Dev nD) : W6 m ρ c (Proc.devRef .tc main_v66) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W6_arr m ρ c 6).trans ?_
  refine (Cert.KernelIdeal.Reg2.final (V5 m ρ) c).trans ?_
  funext i
  obtain ⟨q, k, rfl⟩ : ∃ (q : Fin 20000) (k : Fin 64), i = ix2 q k := ⟨i 0, i 1, eq_ix2 i⟩
  refine Eq.trans ?_ (Cert.RefStage.ref2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) q k).symm
  show Cert.Sage.act _ _ _ _ _ _ q k = _
  exact Cert.Sage.act_congr (fun k' => congrFun (in2_agg m ρ c) _) (in2_cnt m ρ c q) (fun k' => congrFun (in2_xd m ρ c) _)
    (fun k' => congrFun (in2_wl m ρ c) _) (fun k' => congrFun (in2_wr m ρ c) _) (in2_b m ρ c k)

/-! ## Buffers launch 2 leaves alone -/

theorem W6_main_arg2 (c : Dev nD) : W6 m ρ c (Proc.devRef .tc main_arg2) = (m ((c : Thread nD τ).loc main_arg2)) :=
  (W6_of_ne m ρ c main_arg2 (by decide)).trans (W5_main_arg2 m ρ c)

theorem W6_main_arg3 (c : Dev nD) : W6 m ρ c (Proc.devRef .tc main_arg3) = (m ((c : Thread nD τ).loc main_arg3)) :=
  (W6_of_ne m ρ c main_arg3 (by decide)).trans (W5_main_arg3 m ρ c)

theorem W6_main_arg4 (c : Dev nD) : W6 m ρ c (Proc.devRef .tc main_arg4) = (m ((c : Thread nD τ).loc main_arg4)) :=
  (W6_of_ne m ρ c main_arg4 (by decide)).trans (W5_main_arg4 m ρ c)

theorem W6_main_arg5 (c : Dev nD) : W6 m ρ c (Proc.devRef .tc main_arg5) = (m ((c : Thread nD τ).loc main_arg5)) :=
  (W6_of_ne m ρ c main_arg5 (by decide)).trans (W5_main_arg5 m ρ c)

theorem W6_main_arg6 (c : Dev nD) : W6 m ρ c (Proc.devRef .tc main_arg6) = (m ((c : Thread nD τ).loc main_arg6)) :=
  (W6_of_ne m ρ c main_arg6 (by decide)).trans (W5_main_arg6 m ρ c)

theorem W6_main_arg7 (c : Dev nD) : W6 m ρ c (Proc.devRef .tc main_arg7) = (m ((c : Thread nD τ).loc main_arg7)) :=
  (W6_of_ne m ρ c main_arg7 (by decide)).trans (W5_main_arg7 m ρ c)

theorem W6_main_arg8 (c : Dev nD) : W6 m ρ c (Proc.devRef .tc main_arg8) = (m ((c : Thread nD τ).loc main_arg8)) :=
  (W6_of_ne m ρ c main_arg8 (by decide)).trans (W5_main_arg8 m ρ c)

theorem W6_main_arg9 (c : Dev nD) : W6 m ρ c (Proc.devRef .tc main_arg9) = (m ((c : Thread nD τ).loc main_arg9)) :=
  (W6_of_ne m ρ c main_arg9 (by decide)).trans (W5_main_arg9 m ρ c)

theorem W6_main_arg10 (c : Dev nD) : W6 m ρ c (Proc.devRef .tc main_arg10) = (m ((c : Thread nD τ).loc main_arg10)) :=
  (W6_of_ne m ρ c main_arg10 (by decide)).trans (W5_main_arg10 m ρ c)

theorem W6_main_v0 (c : Dev nD) : W6 m ρ c (Proc.devRef .tc main_v0) = (val_main_v16 (F := Ideal)) :=
  (W6_of_ne m ρ c main_v0 (by decide)).trans (W5_main_v0 m ρ c)

theorem W6_main_v22 (c : Dev nD) : W6 m ρ c (Proc.devRef .tc main_v22) = (val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (W6_arr m ρ c 2).trans (((dat2 (V5 m ρ) c).arrAt_in 2 rfl _).trans ((A_eq2 (V5 m ρ) c 2).trans (W5_main_v22 m ρ c)))

theorem W6_main_v44 (c : Dev nD) : W6 m ρ c (Proc.devRef .tc main_v44) = (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (W6_of_ne m ρ c main_v44 (by decide)).trans (W5_main_v44 m ρ c)

end Cert.KernelIdeal.Chain

end
-- ==== Proof.Stage3.lean ====
/-
  Launch 3 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region3
import proofs.«153663_j21818433863799_1_alg».proof.Proof.RefStage
import proofs.«153663_j21818433863799_1_alg».proof.Proof.LibHostLayout
import Idealize.ShloMosaic.Lib.StableHlo.Run
import Idealize.ShloMosaic.Lib.ValueLayout
import proofs.«153663_j21818433863799_1_alg».proof.Proof.Stage2

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-! ## Buffers the host operations before launch 3 leave alone -/

theorem W7_main_arg2 (c : Dev nD) : W7 m ρ c (Proc.devRef .tc main_arg2) = (m ((c : Thread nD τ).loc main_arg2)) :=
  (StableHlo.after_of_forall_not_mem (b := Proc.devRef .tc main_arg2) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg2 m ρ c)

theorem W7_main_arg3 (c : Dev nD) : W7 m ρ c (Proc.devRef .tc main_arg3) = (m ((c : Thread nD τ).loc main_arg3)) :=
  (StableHlo.after_of_forall_not_mem (b := Proc.devRef .tc main_arg3) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg3 m ρ c)

theorem W7_main_arg4 (c : Dev nD) : W7 m ρ c (Proc.devRef .tc main_arg4) = (m ((c : Thread nD τ).loc main_arg4)) :=
  (StableHlo.after_of_forall_not_mem (b := Proc.devRef .tc main_arg4) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg4 m ρ c)

theorem W7_main_arg5 (c : Dev nD) : W7 m ρ c (Proc.devRef .tc main_arg5) = (m ((c : Thread nD τ).loc main_arg5)) :=
  (StableHlo.after_of_forall_not_mem (b := Proc.devRef .tc main_arg5) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg5 m ρ c)

theorem W7_main_arg6 (c : Dev nD) : W7 m ρ c (Proc.devRef .tc main_arg6) = (m ((c : Thread nD τ).loc main_arg6)) :=
  (StableHlo.after_of_forall_not_mem (b := Proc.devRef .tc main_arg6) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg6 m ρ c)

theorem W7_main_arg7 (c : Dev nD) : W7 m ρ c (Proc.devRef .tc main_arg7) = (m ((c : Thread nD τ).loc main_arg7)) :=
  (StableHlo.after_of_forall_not_mem (b := Proc.devRef .tc main_arg7) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg7 m ρ c)

theorem W7_main_arg8 (c : Dev nD) : W7 m ρ c (Proc.devRef .tc main_arg8) = (m ((c : Thread nD τ).loc main_arg8)) :=
  (StableHlo.after_of_forall_not_mem (b := Proc.devRef .tc main_arg8) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg8 m ρ c)

theorem W7_main_arg9 (c : Dev nD) : W7 m ρ c (Proc.devRef .tc main_arg9) = (m ((c : Thread nD τ).loc main_arg9)) :=
  (StableHlo.after_of_forall_not_mem (b := Proc.devRef .tc main_arg9) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg9 m ρ c)

theorem W7_main_arg10 (c : Dev nD) : W7 m ρ c (Proc.devRef .tc main_arg10) = (m ((c : Thread nD τ).loc main_arg10)) :=
  (StableHlo.after_of_forall_not_mem (b := Proc.devRef .tc main_arg10) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_arg10 m ρ c)

theorem W7_main_v0 (c : Dev nD) : W7 m ρ c (Proc.devRef .tc main_v0) = (val_main_v16 (F := Ideal)) :=
  (StableHlo.after_of_forall_not_mem (b := Proc.devRef .tc main_v0) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v0 m ρ c)

theorem W7_main_v44 (c : Dev nD) : W7 m ρ c (Proc.devRef .tc main_v44) = (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  (StableHlo.after_of_forall_not_mem (b := Proc.devRef .tc main_v44) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v44 m ρ c)

theorem W7_main_v66 (c : Dev nD) : W7 m ρ c (Proc.devRef .tc main_v66) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_forall_not_mem (b := Proc.devRef .tc main_v66) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_main_v66 m ρ c)

/-! ## The launch's input arrays -/

/-- The summed messages: the source features gathered along the edges and added onto their destinations. -/
theorem in3_agg (c : Dev nD) : (V7 m ρ c main_v76 : S100000x64.Idx → EReal) = (val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps3 (W6 m ρ c) (Proc.devRef .tc main_v76) = _
  after_results_simp
  rw [W6_main_v22 m ρ c, W6_main_arg7 m ρ c, W6_main_arg8 m ρ c]
  rfl

/-- The count column: ones added onto the edges' destinations, laid out as a column. -/
theorem in3_cntcol (c : Dev nD) : (V7 m ρ c main_v80 : S100000x1.Idx → EReal) = broadcastInDim S100000x1 ![0] bcast_S100000_S100000x1_0 (val_main_v114 (F := Ideal) (m ((c : Thread nD τ).loc main_arg8))) := by
  show StableHlo.after hostOps3 (W6 m ρ c) (Proc.devRef .tc main_v80) = _
  after_results_simp
  rw [W6_main_arg8 m ρ c, W6_main_v0 m ρ c]
  rfl

theorem in3_cnt (c : Dev nD) (q : Fin 100000) : (V7 m ρ c main_v80 : S100000x1.Idx → EReal) (ix2 q (0 : Fin 1)) = (val_main_v114 (F := Ideal) (m ((c : Thread nD τ).loc main_arg8))) (ix1 q) := by
  rw [in3_cntcol m ρ c]
  exact Cert.HostLayout.broadcastInDim_a_a1_apply _ _ q 0

/-- The destination features: the array as the earlier segments left it. -/
theorem in3_xd (c : Dev nD) : (V7 m ρ c main_v44 : S100000x64.Idx → EReal) = (val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))) :=
  W7_main_v44 m ρ c

/-- The first weight matrix of the layer. -/
theorem in3_wl (c : Dev nD) : (V7 m ρ c main_v82 : S64x64.Idx → EReal) = (val_main_v96 (F := Ideal) (m ((c : Thread nD τ).loc main_arg2))) := by
  show StableHlo.after hostOps3 (W6 m ρ c) (Proc.devRef .tc main_v82) = _
  after_results_simp
  rw [W6_main_arg2 m ρ c]
  rfl

/-- The second weight matrix of the layer. -/
theorem in3_wr (c : Dev nD) : (V7 m ρ c main_v84 : S64x64.Idx → EReal) = (val_main_v98 (F := Ideal) (m ((c : Thread nD τ).loc main_arg3))) := by
  show StableHlo.after hostOps3 (W6 m ρ c) (Proc.devRef .tc main_v84) = _
  after_results_simp
  rw [W6_main_arg3 m ρ c]
  rfl

/-- The bias, laid out as a row. -/
theorem in3_brow (c : Dev nD) : (V7 m ρ c main_v87 : S1x64.Idx → EReal) = shapeCast S1x64 (val_main_v100 (F := Ideal) (m ((c : Thread nD τ).loc main_arg4))) shapeCasts_S64_S1x64 := by
  show StableHlo.after hostOps3 (W6 m ρ c) (Proc.devRef .tc main_v87) = _
  after_results_simp
  rw [W6_main_arg4 m ρ c]
  rfl

theorem in3_b (c : Dev nD) (k : Fin 64) : (V7 m ρ c main_v87 : S1x64.Idx → EReal) (ix2 (0 : Fin 1) k) = (val_main_v100 (F := Ideal) (m ((c : Thread nD τ).loc main_arg4))) (ix1 k) := by
  rw [in3_brow m ρ c]
  exact shapeCast_a_1a_apply _ _ 0 k

/-! ## The launch's result array -/

/-- After launch 3 its result array holds the reference's layer stage. -/
theorem W8_main_v88 (c : Dev nD) : W8 m ρ c (Proc.devRef .tc main_v88) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W8_arr m ρ c 6).trans ?_
  refine (Cert.KernelIdeal.Reg3.final (V7 m ρ) c).trans ?_
  funext i
  obtain ⟨q, k, rfl⟩ : ∃ (q : Fin 100000) (k : Fin 64), i = ix2 q k := ⟨i 0, i 1, eq_ix2 i⟩
  refine Eq.trans ?_ (Cert.RefStage.ref3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) q k).symm
  show Cert.Sage.act _ _ _ _ _ _ q k = _
  exact Cert.Sage.act_congr (fun k' => congrFun (in3_agg m ρ c) _) (in3_cnt m ρ c q) (fun k' => congrFun (in3_xd m ρ c) _)
    (fun k' => congrFun (in3_wl m ρ c) _) (fun k' => congrFun (in3_wr m ρ c) _) (in3_b m ρ c k)

/-! ## Buffers launch 3 leaves alone -/

theorem W8_main_arg2 (c : Dev nD) : W8 m ρ c (Proc.devRef .tc main_arg2) = (m ((c : Thread nD τ).loc main_arg2)) :=
  (W8_of_ne m ρ c main_arg2 (by decide)).trans (W7_main_arg2 m ρ c)

theorem W8_main_arg3 (c : Dev nD) : W8 m ρ c (Proc.devRef .tc main_arg3) = (m ((c : Thread nD τ).loc main_arg3)) :=
  (W8_of_ne m ρ c main_arg3 (by decide)).trans (W7_main_arg3 m ρ c)

theorem W8_main_arg4 (c : Dev nD) : W8 m ρ c (Proc.devRef .tc main_arg4) = (m ((c : Thread nD τ).loc main_arg4)) :=
  (W8_of_ne m ρ c main_arg4 (by decide)).trans (W7_main_arg4 m ρ c)

theorem W8_main_arg5 (c : Dev nD) : W8 m ρ c (Proc.devRef .tc main_arg5) = (m ((c : Thread nD τ).loc main_arg5)) :=
  (W8_of_ne m ρ c main_arg5 (by decide)).trans (W7_main_arg5 m ρ c)

theorem W8_main_arg6 (c : Dev nD) : W8 m ρ c (Proc.devRef .tc main_arg6) = (m ((c : Thread nD τ).loc main_arg6)) :=
  (W8_of_ne m ρ c main_arg6 (by decide)).trans (W7_main_arg6 m ρ c)

theorem W8_main_arg7 (c : Dev nD) : W8 m ρ c (Proc.devRef .tc main_arg7) = (m ((c : Thread nD τ).loc main_arg7)) :=
  (W8_of_ne m ρ c main_arg7 (by decide)).trans (W7_main_arg7 m ρ c)

theorem W8_main_arg8 (c : Dev nD) : W8 m ρ c (Proc.devRef .tc main_arg8) = (m ((c : Thread nD τ).loc main_arg8)) :=
  (W8_of_ne m ρ c main_arg8 (by decide)).trans (W7_main_arg8 m ρ c)

theorem W8_main_arg9 (c : Dev nD) : W8 m ρ c (Proc.devRef .tc main_arg9) = (m ((c : Thread nD τ).loc main_arg9)) :=
  (W8_of_ne m ρ c main_arg9 (by decide)).trans (W7_main_arg9 m ρ c)

theorem W8_main_arg10 (c : Dev nD) : W8 m ρ c (Proc.devRef .tc main_arg10) = (m ((c : Thread nD τ).loc main_arg10)) :=
  (W8_of_ne m ρ c main_arg10 (by decide)).trans (W7_main_arg10 m ρ c)

theorem W8_main_v0 (c : Dev nD) : W8 m ρ c (Proc.devRef .tc main_v0) = (val_main_v16 (F := Ideal)) :=
  (W8_of_ne m ρ c main_v0 (by decide)).trans (W7_main_v0 m ρ c)

theorem W8_main_v66 (c : Dev nD) : W8 m ρ c (Proc.devRef .tc main_v66) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W8_of_ne m ρ c main_v66 (by decide)).trans (W7_main_v66 m ρ c)

end Cert.KernelIdeal.Chain

end
-- ==== Proof.Stage4.lean ====
/-
  Launch 4 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region4
import proofs.«153663_j21818433863799_1_alg».proof.Proof.RefStage
import proofs.«153663_j21818433863799_1_alg».proof.Proof.LibHostLayout
import Idealize.ShloMosaic.Lib.StableHlo.Run
import Idealize.ShloMosaic.Lib.ValueLayout
import proofs.«153663_j21818433863799_1_alg».proof.Proof.Stage3

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-! ## Buffers the host operations before launch 4 leave alone -/

theorem W9_main_arg2 (c : Dev nD) : W9 m ρ c (Proc.devRef .tc main_arg2) = (m ((c : Thread nD τ).loc main_arg2)) :=
  (StableHlo.after_of_forall_not_mem (b := Proc.devRef .tc main_arg2) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg2 m ρ c)

theorem W9_main_arg3 (c : Dev nD) : W9 m ρ c (Proc.devRef .tc main_arg3) = (m ((c : Thread nD τ).loc main_arg3)) :=
  (StableHlo.after_of_forall_not_mem (b := Proc.devRef .tc main_arg3) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg3 m ρ c)

theorem W9_main_arg4 (c : Dev nD) : W9 m ρ c (Proc.devRef .tc main_arg4) = (m ((c : Thread nD τ).loc main_arg4)) :=
  (StableHlo.after_of_forall_not_mem (b := Proc.devRef .tc main_arg4) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg4 m ρ c)

theorem W9_main_arg7 (c : Dev nD) : W9 m ρ c (Proc.devRef .tc main_arg7) = (m ((c : Thread nD τ).loc main_arg7)) :=
  (StableHlo.after_of_forall_not_mem (b := Proc.devRef .tc main_arg7) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg7 m ρ c)

theorem W9_main_arg8 (c : Dev nD) : W9 m ρ c (Proc.devRef .tc main_arg8) = (m ((c : Thread nD τ).loc main_arg8)) :=
  (StableHlo.after_of_forall_not_mem (b := Proc.devRef .tc main_arg8) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg8 m ρ c)

theorem W9_main_arg9 (c : Dev nD) : W9 m ρ c (Proc.devRef .tc main_arg9) = (m ((c : Thread nD τ).loc main_arg9)) :=
  (StableHlo.after_of_forall_not_mem (b := Proc.devRef .tc main_arg9) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg9 m ρ c)

theorem W9_main_arg10 (c : Dev nD) : W9 m ρ c (Proc.devRef .tc main_arg10) = (m ((c : Thread nD τ).loc main_arg10)) :=
  (StableHlo.after_of_forall_not_mem (b := Proc.devRef .tc main_arg10) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_arg10 m ρ c)

theorem W9_main_v0 (c : Dev nD) : W9 m ρ c (Proc.devRef .tc main_v0) = (val_main_v16 (F := Ideal)) :=
  (StableHlo.after_of_forall_not_mem (b := Proc.devRef .tc main_v0) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v0 m ρ c)

theorem W9_main_v66 (c : Dev nD) : W9 m ρ c (Proc.devRef .tc main_v66) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_forall_not_mem (b := Proc.devRef .tc main_v66) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v66 m ρ c)

theorem W9_main_v88 (c : Dev nD) : W9 m ρ c (Proc.devRef .tc main_v88) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_forall_not_mem (b := Proc.devRef .tc main_v88) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_main_v88 m ρ c)

/-! ## The launch's input arrays -/

/-- The summed messages: the source features gathered along the edges and added onto their destinations. -/
theorem in4_agg (c : Dev nD) : (V9 m ρ c main_v98 : S20000x64.Idx → EReal) = (val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps4 (W8 m ρ c) (Proc.devRef .tc main_v98) = _
  after_results_simp
  rw [W8_main_v88 m ρ c, W8_main_arg5 m ρ c, W8_main_arg6 m ρ c]
  rfl

/-- The count column: ones added onto the edges' destinations, laid out as a column. -/
theorem in4_cntcol (c : Dev nD) : (V9 m ρ c main_v102 : S20000x1.Idx → EReal) = broadcastInDim S20000x1 ![0] bcast_S20000_S20000x1_0 (val_main_v147 (F := Ideal) (m ((c : Thread nD τ).loc main_arg6))) := by
  show StableHlo.after hostOps4 (W8 m ρ c) (Proc.devRef .tc main_v102) = _
  after_results_simp
  rw [W8_main_arg6 m ρ c, W8_main_v0 m ρ c]
  rfl

theorem in4_cnt (c : Dev nD) (q : Fin 20000) : (V9 m ρ c main_v102 : S20000x1.Idx → EReal) (ix2 q (0 : Fin 1)) = (val_main_v147 (F := Ideal) (m ((c : Thread nD τ).loc main_arg6))) (ix1 q) := by
  rw [in4_cntcol m ρ c]
  exact Cert.HostLayout.broadcastInDim_a_a1_apply _ _ q 0

/-- The destination features: the array as the earlier segments left it. -/
theorem in4_xd (c : Dev nD) : (V9 m ρ c main_v66 : S20000x64.Idx → EReal) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  W9_main_v66 m ρ c

/-- The first weight matrix of the layer. -/
theorem in4_wl (c : Dev nD) : (V9 m ρ c main_v104 : S64x64.Idx → EReal) = (val_main_v129 (F := Ideal) (m ((c : Thread nD τ).loc main_arg2))) := by
  show StableHlo.after hostOps4 (W8 m ρ c) (Proc.devRef .tc main_v104) = _
  after_results_simp
  rw [W8_main_arg2 m ρ c]
  rfl

/-- The second weight matrix of the layer. -/
theorem in4_wr (c : Dev nD) : (V9 m ρ c main_v106 : S64x64.Idx → EReal) = (val_main_v131 (F := Ideal) (m ((c : Thread nD τ).loc main_arg3))) := by
  show StableHlo.after hostOps4 (W8 m ρ c) (Proc.devRef .tc main_v106) = _
  after_results_simp
  rw [W8_main_arg3 m ρ c]
  rfl

/-- The bias, laid out as a row. -/
theorem in4_brow (c : Dev nD) : (V9 m ρ c main_v109 : S1x64.Idx → EReal) = shapeCast S1x64 (val_main_v133 (F := Ideal) (m ((c : Thread nD τ).loc main_arg4))) shapeCasts_S64_S1x64 := by
  show StableHlo.after hostOps4 (W8 m ρ c) (Proc.devRef .tc main_v109) = _
  after_results_simp
  rw [W8_main_arg4 m ρ c]
  rfl

theorem in4_b (c : Dev nD) (k : Fin 64) : (V9 m ρ c main_v109 : S1x64.Idx → EReal) (ix2 (0 : Fin 1) k) = (val_main_v133 (F := Ideal) (m ((c : Thread nD τ).loc main_arg4))) (ix1 k) := by
  rw [in4_brow m ρ c]
  exact shapeCast_a_1a_apply _ _ 0 k

/-! ## The launch's result array -/

/-- After launch 4 its result array holds the reference's layer stage. -/
theorem W10_main_v110 (c : Dev nD) : W10 m ρ c (Proc.devRef .tc main_v110) = (val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W10_arr m ρ c 6).trans ?_
  refine (Cert.KernelIdeal.Reg4.final (V9 m ρ) c).trans ?_
  funext i
  obtain ⟨q, k, rfl⟩ : ∃ (q : Fin 20000) (k : Fin 64), i = ix2 q k := ⟨i 0, i 1, eq_ix2 i⟩
  refine Eq.trans ?_ (Cert.RefStage.ref4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) q k).symm
  show Cert.Sage.lin _ _ _ _ _ _ q k = _
  exact Cert.Sage.lin_congr (fun k' => congrFun (in4_agg m ρ c) _) (in4_cnt m ρ c q) (fun k' => congrFun (in4_xd m ρ c) _)
    (fun k' => congrFun (in4_wl m ρ c) _) (fun k' => congrFun (in4_wr m ρ c) _) (in4_b m ρ c k)

/-! ## Buffers launch 4 leaves alone -/

theorem W10_main_arg2 (c : Dev nD) : W10 m ρ c (Proc.devRef .tc main_arg2) = (m ((c : Thread nD τ).loc main_arg2)) :=
  (W10_of_ne m ρ c main_arg2 (by decide)).trans (W9_main_arg2 m ρ c)

theorem W10_main_arg3 (c : Dev nD) : W10 m ρ c (Proc.devRef .tc main_arg3) = (m ((c : Thread nD τ).loc main_arg3)) :=
  (W10_of_ne m ρ c main_arg3 (by decide)).trans (W9_main_arg3 m ρ c)

theorem W10_main_arg4 (c : Dev nD) : W10 m ρ c (Proc.devRef .tc main_arg4) = (m ((c : Thread nD τ).loc main_arg4)) :=
  (W10_of_ne m ρ c main_arg4 (by decide)).trans (W9_main_arg4 m ρ c)

theorem W10_main_arg7 (c : Dev nD) : W10 m ρ c (Proc.devRef .tc main_arg7) = (m ((c : Thread nD τ).loc main_arg7)) :=
  (W10_of_ne m ρ c main_arg7 (by decide)).trans (W9_main_arg7 m ρ c)

theorem W10_main_arg8 (c : Dev nD) : W10 m ρ c (Proc.devRef .tc main_arg8) = (m ((c : Thread nD τ).loc main_arg8)) :=
  (W10_of_ne m ρ c main_arg8 (by decide)).trans (W9_main_arg8 m ρ c)

theorem W10_main_arg9 (c : Dev nD) : W10 m ρ c (Proc.devRef .tc main_arg9) = (m ((c : Thread nD τ).loc main_arg9)) :=
  (W10_of_ne m ρ c main_arg9 (by decide)).trans (W9_main_arg9 m ρ c)

theorem W10_main_arg10 (c : Dev nD) : W10 m ρ c (Proc.devRef .tc main_arg10) = (m ((c : Thread nD τ).loc main_arg10)) :=
  (W10_of_ne m ρ c main_arg10 (by decide)).trans (W9_main_arg10 m ρ c)

theorem W10_main_v0 (c : Dev nD) : W10 m ρ c (Proc.devRef .tc main_v0) = (val_main_v16 (F := Ideal)) :=
  (W10_of_ne m ρ c main_v0 (by decide)).trans (W9_main_v0 m ρ c)

theorem W10_main_v66 (c : Dev nD) : W10 m ρ c (Proc.devRef .tc main_v66) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W10_arr m ρ c 2).trans (((dat4 (V9 m ρ) c).arrAt_in 2 rfl _).trans ((A_eq4 (V9 m ρ) c 2).trans (W9_main_v66 m ρ c)))

theorem W10_main_v88 (c : Dev nD) : W10 m ρ c (Proc.devRef .tc main_v88) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W10_of_ne m ρ c main_v88 (by decide)).trans (W9_main_v88 m ρ c)

end Cert.KernelIdeal.Chain

end
-- ==== Proof.Stage5.lean ====
/-
  Launch 5 in the chain of segments: what its input arrays hold when it is entered, and what its result array holds
  when it is left, both as stages of the reference computation applied to the program's arguments.

  The host operations before the launch are the reference's own operations on the same values (a gather of the
  source features along the edges, a scatter-add of the gathered rows and of ones onto the destinations, a slice of
  each weight tensor), so each input array is the corresponding reference stage; the count reaches the kernel as a
  column and the bias as a row. The launch then leaves the layer formula of those inputs, which is what the
  reference's layer stage holds at every entry.
-/
import proofs.«153663_j21818433863799_1_alg».proof.Proof.Gen.KernelIdeal.Frame
import proofs.«153663_j21818433863799_1_alg».proof.Proof.Gen.ReferenceIdeal.Read
import proofs.«153663_j21818433863799_1_alg».proof.Proof.Region5
import proofs.«153663_j21818433863799_1_alg».proof.Proof.RefStage
import proofs.«153663_j21818433863799_1_alg».proof.Proof.LibHostLayout
import Idealize.ShloMosaic.Lib.StableHlo.Run
import Idealize.ShloMosaic.Lib.ValueLayout
import proofs.«153663_j21818433863799_1_alg».proof.Proof.Stage4

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)
/-! ## Buffers the host operations before launch 5 leave alone -/

theorem W11_main_arg9 (c : Dev nD) : W11 m ρ c (Proc.devRef .tc main_arg9) = (m ((c : Thread nD τ).loc main_arg9)) :=
  (StableHlo.after_of_forall_not_mem (b := Proc.devRef .tc main_arg9) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg9 m ρ c)

theorem W11_main_arg10 (c : Dev nD) : W11 m ρ c (Proc.devRef .tc main_arg10) = (m ((c : Thread nD τ).loc main_arg10)) :=
  (StableHlo.after_of_forall_not_mem (b := Proc.devRef .tc main_arg10) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_arg10 m ρ c)

theorem W11_main_v88 (c : Dev nD) : W11 m ρ c (Proc.devRef .tc main_v88) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_forall_not_mem (b := Proc.devRef .tc main_v88) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_v88 m ρ c)

theorem W11_main_v110 (c : Dev nD) : W11 m ρ c (Proc.devRef .tc main_v110) = (val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (StableHlo.after_of_forall_not_mem (b := Proc.devRef .tc main_v110) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W10_main_v110 m ρ c)

/-! ## The launch's input arrays -/

/-- The summed messages: the source features gathered along the edges and added onto their destinations. -/
theorem in5_agg (c : Dev nD) : (V11 m ρ c main_v120 : S100000x64.Idx → EReal) = (val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps5 (W10 m ρ c) (Proc.devRef .tc main_v120) = _
  after_results_simp
  rw [W10_main_v66 m ρ c, W10_main_arg7 m ρ c, W10_main_arg8 m ρ c]
  rfl

/-- The count column: ones added onto the edges' destinations, laid out as a column. -/
theorem in5_cntcol (c : Dev nD) : (V11 m ρ c main_v124 : S100000x1.Idx → EReal) = broadcastInDim S100000x1 ![0] bcast_S100000_S100000x1_0 (val_main_v178 (F := Ideal) (m ((c : Thread nD τ).loc main_arg8))) := by
  show StableHlo.after hostOps5 (W10 m ρ c) (Proc.devRef .tc main_v124) = _
  after_results_simp
  rw [W10_main_arg8 m ρ c, W10_main_v0 m ρ c]
  rfl

theorem in5_cnt (c : Dev nD) (q : Fin 100000) : (V11 m ρ c main_v124 : S100000x1.Idx → EReal) (ix2 q (0 : Fin 1)) = (val_main_v178 (F := Ideal) (m ((c : Thread nD τ).loc main_arg8))) (ix1 q) := by
  rw [in5_cntcol m ρ c]
  exact Cert.HostLayout.broadcastInDim_a_a1_apply _ _ q 0

/-- The destination features: the array as the earlier segments left it. -/
theorem in5_xd (c : Dev nD) : (V11 m ρ c main_v88 : S100000x64.Idx → EReal) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  W11_main_v88 m ρ c

/-- The first weight matrix of the layer. -/
theorem in5_wl (c : Dev nD) : (V11 m ρ c main_v126 : S64x64.Idx → EReal) = (val_main_v160 (F := Ideal) (m ((c : Thread nD τ).loc main_arg2))) := by
  show StableHlo.after hostOps5 (W10 m ρ c) (Proc.devRef .tc main_v126) = _
  after_results_simp
  rw [W10_main_arg2 m ρ c]
  rfl

/-- The second weight matrix of the layer. -/
theorem in5_wr (c : Dev nD) : (V11 m ρ c main_v128 : S64x64.Idx → EReal) = (val_main_v162 (F := Ideal) (m ((c : Thread nD τ).loc main_arg3))) := by
  show StableHlo.after hostOps5 (W10 m ρ c) (Proc.devRef .tc main_v128) = _
  after_results_simp
  rw [W10_main_arg3 m ρ c]
  rfl

/-- The bias, laid out as a row. -/
theorem in5_brow (c : Dev nD) : (V11 m ρ c main_v131 : S1x64.Idx → EReal) = shapeCast S1x64 (val_main_v164 (F := Ideal) (m ((c : Thread nD τ).loc main_arg4))) shapeCasts_S64_S1x64 := by
  show StableHlo.after hostOps5 (W10 m ρ c) (Proc.devRef .tc main_v131) = _
  after_results_simp
  rw [W10_main_arg4 m ρ c]
  rfl

theorem in5_b (c : Dev nD) (k : Fin 64) : (V11 m ρ c main_v131 : S1x64.Idx → EReal) (ix2 (0 : Fin 1) k) = (val_main_v164 (F := Ideal) (m ((c : Thread nD τ).loc main_arg4))) (ix1 k) := by
  rw [in5_brow m ρ c]
  exact shapeCast_a_1a_apply _ _ 0 k

/-! ## The launch's result array -/

/-- After launch 5 its result array holds the reference's layer stage. -/
theorem W12_main_v132 (c : Dev nD) : W12 m ρ c (Proc.devRef .tc main_v132) = (val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W12_arr m ρ c 6).trans ?_
  refine (Cert.KernelIdeal.Reg5.final (V11 m ρ) c).trans ?_
  funext i
  obtain ⟨q, k, rfl⟩ : ∃ (q : Fin 100000) (k : Fin 64), i = ix2 q k := ⟨i 0, i 1, eq_ix2 i⟩
  refine Eq.trans ?_ (Cert.RefStage.ref5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) q k).symm
  show Cert.Sage.lin _ _ _ _ _ _ q k = _
  exact Cert.Sage.lin_congr (fun k' => congrFun (in5_agg m ρ c) _) (in5_cnt m ρ c q) (fun k' => congrFun (in5_xd m ρ c) _)
    (fun k' => congrFun (in5_wl m ρ c) _) (fun k' => congrFun (in5_wr m ρ c) _) (in5_b m ρ c k)

/-! ## Buffers launch 5 leaves alone -/

theorem W12_main_arg9 (c : Dev nD) : W12 m ρ c (Proc.devRef .tc main_arg9) = (m ((c : Thread nD τ).loc main_arg9)) :=
  (W12_of_ne m ρ c main_arg9 (by decide)).trans (W11_main_arg9 m ρ c)

theorem W12_main_arg10 (c : Dev nD) : W12 m ρ c (Proc.devRef .tc main_arg10) = (m ((c : Thread nD τ).loc main_arg10)) :=
  (W12_of_ne m ρ c main_arg10 (by decide)).trans (W11_main_arg10 m ρ c)

theorem W12_main_v110 (c : Dev nD) : W12 m ρ c (Proc.devRef .tc main_v110) = (val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W12_of_ne m ρ c main_v110 (by decide)).trans (W11_main_v110 m ρ c)

end Cert.KernelIdeal.Chain

end
-- ==== Proof.Stage6.lean ====
/-
  The decoder launch and the program's result.

  The host operations before the last launch gather, for each label pair, the row of the last user features and the
  row of the last movie features: the reference's own two gathers on the same values. The launch leaves in its
  one-column result the inner product of the two gathered rows, and the last host operation lays that column out as a
  vector. The reference multiplies the two gathered arrays entry by entry and sums each row from zero: the same number
  at every row.
-/
import proofs.«153663_j21818433863799_1_alg».proof.Proof.Gen.KernelIdeal.Frame
import proofs.«153663_j21818433863799_1_alg».proof.Proof.Gen.ReferenceIdeal.Read
import proofs.«153663_j21818433863799_1_alg».proof.Proof.Region6
import proofs.«153663_j21818433863799_1_alg».proof.Proof.RefStage
import proofs.«153663_j21818433863799_1_alg».proof.Proof.LibColumn
import Idealize.ShloMosaic.Lib.StableHlo.Run
import proofs.«153663_j21818433863799_1_alg».proof.Proof.Stage5

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The gathered user rows. -/
theorem in6_u (c : Dev nD) : (V13 m ρ c main_v139 : S500000x64.Idx → EReal) = (val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps6 (W12 m ρ c) (Proc.devRef .tc main_v139) = _
  after_results_simp
  rw [W12_main_v132 m ρ c, W12_main_arg9 m ρ c]
  rfl

/-- The gathered movie rows. -/
theorem in6_v (c : Dev nD) : (V13 m ρ c main_v146 : S500000x64.Idx → EReal) = (val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10))) := by
  show StableHlo.after hostOps6 (W12 m ρ c) (Proc.devRef .tc main_v146) = _
  after_results_simp
  rw [W12_main_v110 m ρ c, W12_main_arg10 m ρ c]
  rfl

/-- After the last launch its result column holds the rows' inner products. -/
theorem W14_main_v147 (c : Dev nD) : W14 m ρ c (Proc.devRef .tc main_v147) = Cert.KernelIdeal.Reg6.G (V13 m ρ) c :=
  (W14_arr m ρ c 2).trans (Cert.KernelIdeal.Reg6.final (V13 m ρ) c)

/-- The program's result buffer at the last boundary holds the reference's result stage of the arguments. -/
theorem result (c : Dev nD) : W15 m ρ c (Proc.devRef .tc main_v148) = (val_main_v205 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h : W15 m ρ c (Proc.devRef .tc main_v148)
      = shapeCast S500000 (W14 m ρ c (Proc.devRef .tc main_v147) : S500000x1.Idx → EReal) shapeCasts_S500000x1_S500000 := by
    show StableHlo.after hostOps7 (W14 m ρ c) (Proc.devRef .tc main_v148) = _
    after_results
    rfl
  rw [h, W14_main_v147 m ρ c]
  funext i
  obtain ⟨q, rfl⟩ : ∃ q : Fin 500000, i = ix1 q := ⟨i 0, eq_ix1 i⟩
  rw [Cert.LibColumn.shapeCast_a1_a_apply]
  refine Eq.trans ?_ (Cert.RefStage.refDec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) q).symm
  show Cert.Sage.dec _ _ q = _
  exact Cert.Sage.dec_congr (fun k' => congrFun (in6_u m ρ c) _) (fun k' => congrFun (in6_v m ρ c) _)

end Cert.KernelIdeal.Chain

end
-- ==== Proof.lean ====
/-
  The certificate of a three-layer, two-relation SAGE network with an inner-product decoder.

  The kernel program runs each of the six layer computations as a launch over blocks of 2000 destination rows (the
  division by the message count, two 64 × 64 products, the bias and, in the first two layers, max(·, 0)) and the decoder
  as a seventh launch; the gathers along the edges and the scatter-additions onto the destinations stay host
  operations, exactly the reference's. On the extended reals a change of float format is the identity and a product
  into a zero accumulator is the plain sum, so each launch leaves the reference's layer stage at every entry, the
  blocks tiling the arrays; by induction along the program's fifteen segments the result buffer ends at the
  reference's result stage of the same arguments. No algebraic law beyond reading both sides entry by entry is used,
  and the inputs' finiteness is never opened. The ideal pass rewrote nothing, so the fourth claim is trivial; the
  three frames are the generated ones.
-/
import proofs.«153663_j21818433863799_1_alg».proof.Defs
import proofs.«153663_j21818433863799_1_alg».proof.Proof.Gen.Kernel
import proofs.«153663_j21818433863799_1_alg».proof.Proof.Gen.Kernel.Skeleton
import proofs.«153663_j21818433863799_1_alg».proof.Proof.Gen.Kernel.Launch
import proofs.«153663_j21818433863799_1_alg».proof.Proof.Gen.Kernel.Points
import proofs.«153663_j21818433863799_1_alg».proof.Proof.Gen.Kernel.Frame
import proofs.«153663_j21818433863799_1_alg».proof.Proof.Gen.KernelIdeal
import proofs.«153663_j21818433863799_1_alg».proof.Proof.Gen.KernelIdeal.Skeleton
import proofs.«153663_j21818433863799_1_alg».proof.Proof.Gen.KernelIdeal.Launch
import proofs.«153663_j21818433863799_1_alg».proof.Proof.Gen.KernelIdeal.Points
import proofs.«153663_j21818433863799_1_alg».proof.Proof.Gen.KernelIdeal.Frame
import proofs.«153663_j21818433863799_1_alg».proof.Proof.Gen.ReferenceIdeal
import proofs.«153663_j21818433863799_1_alg».proof.Proof.Gen.Pre_finite_inputs
import proofs.«153663_j21818433863799_1_alg».proof.Proof.Gen.ReferenceIdeal.Run
import proofs.«153663_j21818433863799_1_alg».proof.Proof.Gen.ReferenceIdeal.Read
import proofs.«153663_j21818433863799_1_alg».proof.Proof.Whole
import proofs.«153663_j21818433863799_1_alg».proof.Proof.Stage6
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) arguments in their result buffers. -/
theorem algebraic : Cert.algebraic_KernelIdeal_ReferenceIdeal := by
  intro m ρ m' ρ' _ hagree
  refine ⟨fun c => Cert.KernelIdeal.Gen.W15 m ρ c (Proc.devRef .tc Cert.KernelIdeal.main_v148),
    Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v205_eq, h0, h1, h2, h3, h4, h5, h6, h7, h8, h9, h10]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
